-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x384 : Shape := ⟨3, ![8, 2048, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S_ : Shape := ⟨0, ![]⟩

class Facts : Prop where
  bcast_S_S8x2048x384 : S_.BroadcastsInDim S8x2048x384 (![] : Fin 0 → Fin S8x2048x384.rank)
  reducesTo_S8x2048x384_S_d0_1_2 : S8x2048x384.ReducesTo [0, 1, 2] S_
  h_S_ : 0 < S_.numel
  bcast_S_S1152x384 : S_.BroadcastsInDim S1152x384 (![] : Fin 0 → Fin S1152x384.rank)
  reducesTo_S1152x384_S_d0_1 : S1152x384.ReducesTo [0, 1] S_
  bcast_S_S1152 : S_.BroadcastsInDim S1152 (![] : Fin 0 → Fin S1152.rank)
  reducesTo_S1152_S_d0 : S1152.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : FVec F S8x2048x384 .f32) (main_arg1 : FVec F S1152x384 .f32) (main_arg2 : FVec F S1152 .f32) (main_arg3 : FVec F S384x384 .f32) (main_arg4 : FVec F S384 .f32) : IVec S_ 1 :=
  let main_v0 : FVec F S8x2048x384 .f32 := Host.absf main_arg0
  let main_cst : FVec F S_ .f32 := constant S_ .f32 0x7F800000#32
  let main_v1 : FVec F S8x2048x384 .f32 := broadcastInDim S8x2048x384 ![] bcast_S_S8x2048x384 main_cst
  let main_v2 : IVec S8x2048x384 1 := cmpf .olt main_v0 main_v1
  let main_c : IVec S_ 1 := constantI S_ 1 1#1
  let main_v3 : IVec S_ 1 := (fun x v => Host.reduce IntOp.andi x v reducesTo_S8x2048x384_S_d0_1_2 h_S_) main_v2 main_c
  let main_v4 : FVec F S1152x384 .f32 := Host.absf main_arg1
  let main_cst_0 : FVec F S_ .f32 := constant S_ .f32 0x7F800000#32
  let main_v5 : FVec F S1152x384 .f32 := broadcastInDim S1152x384 ![] bcast_S_S1152x384 main_cst_0
  let main_v6 : IVec S1152x384 1 := cmpf .olt main_v4 main_v5
  let main_c_1 : IVec S_ 1 := constantI S_ 1 1#1
  let main_v7 : IVec S_ 1 := (fun x v => Host.reduce IntOp.andi x v reducesTo_S1152x384_S_d0_1 h_S_) main_v6 main_c_1
  let main_v8 : IVec S_ 1 := andi main_v3 main_v7
  let main_v9 : FVec F S1152 .f32 := Host.absf main_arg2
  let main_cst_2 : FVec F S_ .f32 := constant S_ .f32 0x7F800000#32
  let main_v10 : FVec F S1152 .f32 := broadcastInDim S1152 ![] bcast_S_S1152 main_cst_2
  let main_v11 : IVec S1152 1 := cmpf .olt main_v9 main_v10
  let main_c_3 : IVec S_ 1 := constantI S_ 1 1#1
  let main_v12 : IVec S_ 1 := (fun x v => Host.reduce IntOp.andi x v reducesTo_S1152_S_d0 h_S_) main_v11 main_c_3
  let main_v13 : IVec S_ 1 := andi main_v8 main_v12
  let main_v14 : FVec F S384x384 .f32 := Host.absf main_arg3
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_arg4 main_v13 main_v16
-- ==== Kernel.lean ====
abbrev S8x2048x384 : Shape := ⟨3, ![8, 2048, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S8x3x48x384 : Shape := ⟨4, ![8, 3, 48, 384]⟩
abbrev S8x1x48x384 : Shape := ⟨4, ![8, 1, 48, 384]⟩
abbrev S8x48x384 : Shape := ⟨3, ![8, 48, 384]⟩
abbrev S8x3x48 : Shape := ⟨3, ![8, 3, 48]⟩
abbrev S8x1x48 : Shape := ⟨3, ![8, 1, 48]⟩
abbrev S8x48 : Shape := ⟨2, ![8, 48]⟩
abbrev S1x384 : Shape := ⟨2, ![1, 384]⟩
abbrev S1x2048x384 : Shape := ⟨3, ![1, 2048, 384]⟩
abbrev S8x2048x48 : Shape := ⟨3, ![8, 2048, 48]⟩
abbrev S2048x384 : Shape := ⟨2, ![2048, 384]⟩
abbrev S2048x8x48 : Shape := ⟨3, ![2048, 8, 48]⟩
abbrev S256x384 : Shape := ⟨2, ![256, 384]⟩
abbrev S256x8x48 : Shape := ⟨3, ![256, 8, 48]⟩
abbrev S8x256x48 : Shape := ⟨3, ![8, 256, 48]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 31
  | .vmem => 15
  | .smem => 0
  | _ => 0

abbrev bufTy : (tb : Table) → Fin (tcTables nBuf tb) → BufTy
  | .hbm, ⟨0, _⟩ => ⟨S8x2048x384, .f32⟩
  | .hbm, ⟨1, _⟩ => ⟨S1152x384, .f32⟩
  | .hbm, ⟨2, _⟩ => ⟨S1152, .f32⟩
  | .hbm, ⟨3, _⟩ => ⟨S384x384, .f32⟩
  | .hbm, ⟨4, _⟩ => ⟨S384, .f32⟩
  | .hbm, ⟨5, _⟩ => ⟨S8x3x48x384, .f32⟩
  | .hbm, ⟨6, _⟩ => ⟨S8x1x48x384, .f32⟩
  | .hbm, ⟨7, _⟩ => ⟨S8x48x384, .f32⟩
  | .hbm, ⟨8, _⟩ => ⟨S384x384, .f32⟩
  | .hbm, ⟨9, _⟩ => ⟨S8x1x48x384, .f32⟩
  | .hbm, ⟨10, _⟩ => ⟨S8x48x384, .f32⟩
  | .hbm, ⟨11, _⟩ => ⟨S384x384, .f32⟩
  | .hbm, ⟨12, _⟩ => ⟨S8x1x48x384, .f32⟩
  | .hbm, ⟨13, _⟩ => ⟨S8x48x384, .f32⟩
  | .hbm, ⟨14, _⟩ => ⟨S384x384, .f32⟩
  | .hbm, ⟨15, _⟩ => ⟨S384x384, .f32⟩
  | .hbm, ⟨16, _⟩ => ⟨S384x384, .f32⟩
  | .hbm, ⟨17, _⟩ => ⟨S384x384, .f32⟩
  | .hbm, ⟨18, _⟩ => ⟨S8x3x48, .f32⟩
  | .hbm, ⟨19, _⟩ => ⟨S8x1x48, .f32⟩
  | .hbm, ⟨20, _⟩ => ⟨S8x48, .f32⟩
  | .hbm, ⟨21, _⟩ => ⟨S1x384, .f32⟩
  | .hbm, ⟨22, _⟩ => ⟨S8x1x48, .f32⟩
  | .hbm, ⟨23, _⟩ => ⟨S8x48, .f32⟩
  | .hbm, ⟨24, _⟩ => ⟨S1x384, .f32⟩
  | .hbm, ⟨25, _⟩ => ⟨S8x1x48, .f32⟩
  | .hbm, ⟨26, _⟩ => ⟨S8x48, .f32⟩
  | .hbm, ⟨27, _⟩ => ⟨S1x384, .f32⟩
  | .hbm, ⟨28, _⟩ => ⟨S384x384, .f32⟩
  | .hbm, ⟨29, _⟩ => ⟨S1x384, .f32⟩
  | .hbm, ⟨30, _⟩ => ⟨S8x2048x384, .f32⟩
  | .local _ .vmem, ⟨0, _⟩ => ⟨S1x2048x384, .f32⟩
  | .local _ .vmem, ⟨1, _⟩ => ⟨S1x2048x384, .f32⟩
  | .local _ .vmem, ⟨2, _⟩ => ⟨S384x384, .f32⟩
  | .local _ .vmem, ⟨3, _⟩ => ⟨S384x384, .f32⟩
  | .local _ .vmem, ⟨4, _⟩ => ⟨S384x384, .f32⟩
  | .local _ .vmem, ⟨5, _⟩ => ⟨S1x384, .f32⟩
  | .local _ .vmem, ⟨6, _⟩ => ⟨S1x384, .f32⟩
  | .local _ .vmem, ⟨7, _⟩ => ⟨S1x384, .f32⟩
  | .local _ .vmem, ⟨8, _⟩ => ⟨S384x384, .f32⟩
  | .local _ .vmem, ⟨9, _⟩ => ⟨S1x384, .f32⟩
  | .local _ .vmem, ⟨10, _⟩ => ⟨S1x2048x384, .f32⟩
  | .local _ .vmem, ⟨11, _⟩ => ⟨S1x2048x384, .f32⟩
  | .local _ .vmem, ⟨12, _⟩ => ⟨S8x2048x48, .bf16⟩
  | .local _ .vmem, ⟨13, _⟩ => ⟨S8x2048x48, .bf16⟩
  | .local _ .vmem, ⟨14, _⟩ => ⟨S8x2048x48, .f32⟩
  | _, _ => ⟨S8x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v7 : Index := Scalar.indexCast v4
  let c0 : Index := 0#32
  ![v7.toNat, 0]
def k0_mult2 : BitVec 32 :=
  let c0_i32_10 : BitVec 32 := 0#32
  let c256_i32_11 : BitVec 32 := 256#32
  let v22 : BitVec 32 := Scalar.muli c0_i32_10 c256_i32_11
  v22
def k0_off2 (c0_i32_10 : BitVec 32) : Fin 3 → Nat :=
  let c0_12 : Index := 0#32
  let c256_i32_11 : BitVec 32 := 256#32
  let v22 : BitVec 32 := Scalar.muli c0_i32_10 c256_i32_11
  let v23 : BitVec 32 := v22
  let v24 : Index := Scalar.indexCast v23
  let c0_13 : Index := 0#32
  ![0, v24.toNat, 0]
def k0_mult3 : BitVec 32 :=
  let c1_i32 : BitVec 32 := 1#32
  let c256_i32_21 : BitVec 32 := 256#32
  let v43 : BitVec 32 := Scalar.muli c1_i32 c256_i32_21
  v43
def k0_mult4 : BitVec 32 :=
  let c2_i32 : BitVec 32 := 2#32
  let c256_i32_31 : BitVec 32 := 256#32
  let v64 : BitVec 32 := Scalar.muli c2_i32 c256_i32_31
  v64
def k0_mult5 : BitVec 32 :=
  let c3_i32 : BitVec 32 := 3#32
  let c256_i32_41 : BitVec 32 := 256#32
  let v85 : BitVec 32 := Scalar.muli c3_i32 c256_i32_41
  v85
def k0_mult6 : BitVec 32 :=
  let c4_i32 : BitVec 32 := 4#32
  let c256_i32_51 : BitVec 32 := 256#32
  let v106 : BitVec 32 := Scalar.muli c4_i32 c256_i32_51
  v106
def k0_mult7 : BitVec 32 :=
  let c5_i32 : BitVec 32 := 5#32
  let c256_i32_61 : BitVec 32 := 256#32
  let v127 : BitVec 32 := Scalar.muli c5_i32 c256_i32_61
  v127
def k0_mult8 : BitVec 32 :=
  let c6_i32 : BitVec 32 := 6#32
  let c256_i32_71 : BitVec 32 := 256#32
  let v148 : BitVec 32 := Scalar.muli c6_i32 c256_i32_71
  v148
def k0_mult9 : BitVec 32 :=
  let c7_i32 : BitVec 32 := 7#32
  let c256_i32_81 : BitVec 32 := 256#32
  let v169 : BitVec 32 := Scalar.muli c7_i32 c256_i32_81
  v169
def k0_off3 (i : grid0.Coords) : Fin 3 → Nat :=
  let c0_91 : Index := 0#32
  let arg1 : BitVec 32 := BitVec.ofNat 32 (i 1).val
  let c256_i32 : BitVec 32 := 256#32
  let v3 : BitVec 32 := Scalar.muli arg1 c256_i32
  let v4 : BitVec 32 := v3
  let v190 : Index := Scalar.indexCast v4
  let c0_92 : Index := 0#32
  ![0, v190.toNat, 0]
def k0_cond2 (i : grid0.Coords) : BitVec 1 :=
  let arg1 : BitVec 32 := BitVec.ofNat 32 (i 1).val
  let c7_i32_93 : BitVec 32 := 7#32
  let v194 : BitVec 1 := Scalar.cmpi .eq arg1 c7_i32_93
  let v195 : BitVec 32 := Scalar.extui v194
  let c0_i32_94 : BitVec 32 := 0#32
  let v196 : BitVec 1 := Scalar.cmpi .ne v195 c0_i32_94
  v196

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S1152x384_S8x3x48x384 : S1152x384.ShapeCasts S8x3x48x384
  slices_S8x3x48x384_S8x1x48x384_0_0_0_0 : S8x3x48x384.Slices ![0, 0, 0, 0] S8x1x48x384
  shapeCasts_S8x1x48x384_S8x48x384 : S8x1x48x384.ShapeCasts S8x48x384
  shapeCasts_S8x48x384_S384x384 : S8x48x384.ShapeCasts S384x384
  slices_S8x3x48x384_S8x1x48x384_0_1_0_0 : S8x3x48x384.Slices ![0, 1, 0, 0] S8x1x48x384
  slices_S8x3x48x384_S8x1x48x384_0_2_0_0 : S8x3x48x384.Slices ![0, 2, 0, 0] S8x1x48x384
  transposes_S384x384_S384x384_1_0 : S384x384.Transposes [1, 0] S384x384
  shapeCasts_S1152_S8x3x48 : S1152.ShapeCasts S8x3x48
  slices_S8x3x48_S8x1x48_0_0_0 : S8x3x48.Slices ![0, 0, 0] S8x1x48
  shapeCasts_S8x1x48_S8x48 : S8x1x48.ShapeCasts S8x48
  shapeCasts_S8x48_S1x384 : S8x48.ShapeCasts S1x384
  slices_S8x3x48_S8x1x48_0_1_0 : S8x3x48.Slices ![0, 1, 0] S8x1x48
  slices_S8x3x48_S8x1x48_0_2_0 : S8x3x48.Slices ![0, 2, 0] S8x1x48
  shapeCasts_S384_S1x384 : S384.ShapeCasts S1x384
  inb_S1x2048x384_S1x2048x384_0_0_0 : ∀ a, (![0, 0, 0] : Fin 3 → Nat) a + S1x2048x384.size a ≤ S1x2048x384.size a
  h_S1x2048x384 : 0 < S1x2048x384.numel
  shapeCasts_S1x2048x384_S2048x384 : S1x2048x384.ShapeCasts S2048x384
  bitsLt_bf16_f32 : FTy.bits .bf16 < FTy.bits .f32
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  shapeCasts_S2048x384_S2048x8x48 : S2048x384.ShapeCasts S2048x8x48
  transposes_S2048x8x48_p1_0_2_S8x2048x48 : S2048x8x48.Transposes [1, 0, 2] S8x2048x48
  inb_S8x2048x48_S8x2048x48_0_0_0 : ∀ a, (![0, 0, 0] : Fin 3 → Nat) a + S8x2048x48.size a ≤ S8x2048x48.size a
  h_S8x2048x48 : 0 < S8x2048x48.numel
  shapeCasts_S8x2048x48_S8x2048x48 : S8x2048x48.ShapeCasts S8x2048x48
  packedbf16_S8x2048x48_S8x2048x48_0_0_0 : (Rect.unit (s := S8x2048x48) ![0, 0, 0] S8x2048x48.size inb_S8x2048x48_S8x2048x48_0_0_0).PackedRows (EltTy.packing .bf16)
  squeezes_S1x2048x384_S2048x384 : S1x2048x384.Squeezes S2048x384
  h_S256x384 : 0 < S256x384.numel
  broadcasts_S1x384_S256x384 : S1x384.Broadcasts S256x384
  shapeCasts_S256x384_S256x8x48 : S256x384.ShapeCasts S256x8x48
  transposes_S256x8x48_p1_0_2_S8x256x48 : S256x8x48.Transposes [1, 0, 2] S8x256x48
  h_S8x256x48 : 0 < S8x256x48.numel
  reduces_S8x256x256_S256x256 : S8x256x256.Reduces [0] S256x256
  shapeCasts_S256x256_S1x256x256 : S256x256.ShapeCasts S1x256x256
  broadcasts_S1x256x256_S8x256x256 : S1x256x256.Broadcasts S8x256x256
  shapeCasts_S8x256x48_S8x256x48 : S8x256x48.ShapeCasts S8x256x48
  shapeCasts_S8x2048x48_S2048x384 : S8x2048x48.ShapeCasts S2048x384
  shapeCasts_S2048x384_S1x2048x384 : S2048x384.ShapeCasts S1x2048x384
  dot_S2048x384_S384x384_S2048x384_1_0_0_1_n_n_wf : DotDims.WF S2048x384 S384x384 S2048x384 [1] [0] [0] [1] [] []
  dot_S256x384_S384x384_S256x384_1_0_0_1_n_n_wf : DotDims.WF S256x384 S384x384 S256x384 [1] [0] [0] [1] [] []
  dot_S8x256x48_S8x256x48_S8x256x256_2_2_1_1_0_0_wf : DotDims.WF S8x256x48 S8x256x48 S8x256x256 [2] [2] [1] [1] [0] [0]
  dot_S8x256x256_S8x256x48_S8x256x48_2_1_1_2_0_0_wf : DotDims.WF S8x256x256 S8x256x48 S8x256x48 [2] [1] [1] [2] [0] [0]
  hrank0 : 0 < grid0.rank
  k0_mult1_dvd : ∀ i : grid0.Coords, 256 ∣ (k0_mult1 i).toNat
  k0_off1_inb : ∀ i : grid0.Coords, ∀ a, (k0_off1 i) a + S256x384.size a ≤ S2048x384.size a
  k0_mult2_dvd : 256 ∣ k0_mult2.toNat
  k0_off2_inb : ∀ (r : Fin 8), ∀ a, (k0_off2 (BitVec.ofNat 32 r.val)) a + S8x256x48.size a ≤ S8x2048x48.size a
  k0_mult3_dvd : 256 ∣ k0_mult3.toNat
  k0_mult4_dvd : 256 ∣ k0_mult4.toNat
  k0_mult5_dvd : 256 ∣ k0_mult5.toNat
  k0_mult6_dvd : 256 ∣ k0_mult6.toNat
  k0_mult7_dvd : 256 ∣ k0_mult7.toNat
  k0_mult8_dvd : 256 ∣ k0_mult8.toNat
  k0_mult9_dvd : 256 ∣ k0_mult9.toNat
  k0_off3_inb : ∀ i : grid0.Coords, ∀ a, (k0_off3 i) a + S8x256x48.size a ≤ S8x2048x48.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x384.size a ≤ S8x2048x384.size a
  hwx0_0 : ∀ i : grid0.Coords, EltTy.bits .f32 = 32 ∨ (Rect.block (s := S8x2048x384) S1x2048x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .f32 = 32 ∨ (Rect.block (s := S384x384) S384x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x384.size a ≤ S384x384.size a
  hwx0_2 : ∀ i : grid0.Coords, EltTy.bits .f32 = 32 ∨ (Rect.block (s := S384x384) S384x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .f32 = 32 ∨ (Rect.block (s := S384x384) S384x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x384.size a ≤ S384x384.size a
  hwx0_7 : ∀ i : grid0.Coords, EltTy.bits .f32 = 32 ∨ (Rect.block (s := S384x384) S384x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x384.size a ≤ S1x384.size a
  hwx0_8 : ∀ i : grid0.Coords, EltTy.bits .f32 = 32 ∨ (Rect.block (s := S1x384) S1x384.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2048x384.size a ≤ S8x2048x384.size a
  hwx0_9 : ∀ i : grid0.Coords, EltTy.bits .f32 = 32 ∨ (Rect.block (s := S8x2048x384) S1x2048x384.size (cc0_transform_9 i) (hinb0_9 i)).WholeWords (EltTy.packing .f32)

variable [Facts₀]

def dot_S2048x384_S384x384_S2048x384_1_0_0_1_n_n : DotDims S2048x384 S384x384 S2048x384 where
  lhsContracting := [1]
  rhsContracting := [0]
  lhsNonContracting := [0]
  rhsNonContracting := [1]
  lhsBatch := []
  rhsBatch := []
  wf := dot_S2048x384_S384x384_S2048x384_1_0_0_1_n_n_wf
def dot_S256x384_S384x384_S256x384_1_0_0_1_n_n : DotDims S256x384 S384x384 S256x384 where
  lhsContracting := [1]
  rhsContracting := [0]
  lhsNonContracting := [0]
  rhsNonContracting := [1]
  lhsBatch := []
  rhsBatch := []
  wf := dot_S256x384_S384x384_S256x384_1_0_0_1_n_n_wf
def dot_S8x256x48_S8x256x48_S8x256x256_2_2_1_1_0_0 : DotDims S8x256x48 S8x256x48 S8x256x256 where
  lhsContracting := [2]
  rhsContracting := [2]
  lhsNonContracting := [1]
  rhsNonContracting := [1]
  lhsBatch := [0]
  rhsBatch := [0]
  wf := dot_S8x256x48_S8x256x48_S8x256x256_2_2_1_1_0_0_wf
def dot_S8x256x256_S8x256x48_S8x256x48_2_1_1_2_0_0 : DotDims S8x256x256 S8x256x48 S8x256x48 where
  lhsContracting := [2]
  rhsContracting := [1]
  lhsNonContracting := [1]
  rhsNonContracting := [2]
  lhsBatch := [0]
  rhsBatch := [0]
  wf := dot_S8x256x256_S8x256x48_S8x256x48_2_1_1_2_0_0_wf

abbrev win0_0 : Pipeline.Window sig grid0 :=
  Pipeline.Window.ofSpec (Memref.whole main_arg0) S1x2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S384x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S384x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1x2048x384.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S8x2048x384 : Shape := ⟨3, ![8, 2048, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S8x2048x1152 : Shape := ⟨3, ![8, 2048, 1152]⟩
abbrev S1x1x1152 : Shape := ⟨3, ![1, 1, 1152]⟩
abbrev S8x2048x8x144 : Shape := ⟨4, ![8, 2048, 8, 144]⟩
abbrev S8x8x2048x144 : Shape := ⟨4, ![8, 8, 2048, 144]⟩
abbrev S8x8x2048x48 : Shape := ⟨4, ![8, 8, 2048, 48]⟩
abbrev S8x8x2048x2048 : Shape := ⟨4, ![8, 8, 2048, 2048]⟩
abbrev S_ : Shape := ⟨0, ![]⟩
abbrev S8x2048x2048 : Shape := ⟨3, ![8, 2048, 2048]⟩
abbrev S8x1x2048x2048 : Shape := ⟨4, ![8, 1, 2048, 2048]⟩
abbrev S1x1x384 : Shape := ⟨3, ![1, 1, 384]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x384, .f32⟩
  | .hbm, ⟨1, _⟩ => ⟨S1152x384, .f32⟩
  | .hbm, ⟨2, _⟩ => ⟨S1152, .f32⟩
  | .hbm, ⟨3, _⟩ => ⟨S384x384, .f32⟩
  | .hbm, ⟨4, _⟩ => ⟨S384, .f32⟩
  | .hbm, ⟨5, _⟩ => ⟨S8x2048x1152, .f32⟩
  | .hbm, ⟨6, _⟩ => ⟨S1x1x1152, .f32⟩
  | .hbm, ⟨7, _⟩ => ⟨S8x2048x1152, .f32⟩
  | .hbm, ⟨8, _⟩ => ⟨S8x2048x1152, .f32⟩
  | .hbm, ⟨9, _⟩ => ⟨S8x2048x8x144, .f32⟩
  | .hbm, ⟨10, _⟩ => ⟨S8x8x2048x144, .f32⟩
  | .hbm, ⟨11, _⟩ => ⟨S8x8x2048x48, .f32⟩
  | .hbm, ⟨12, _⟩ => ⟨S8x8x2048x48, .f32⟩
  | .hbm, ⟨13, _⟩ => ⟨S8x8x2048x48, .f32⟩
  | .hbm, ⟨14, _⟩ => ⟨S8x8x2048x2048, .f32⟩
  | .hbm, ⟨15, _⟩ => ⟨S_, .f32⟩
  | .hbm, ⟨16, _⟩ => ⟨S8x8x2048x2048, .f32⟩
  | .hbm, ⟨17, _⟩ => ⟨S8x8x2048x2048, .f32⟩
  | .hbm, ⟨18, _⟩ => ⟨S_, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S8x1x2048x2048, .f32⟩
  | .hbm, ⟨24, _⟩ => ⟨S8x8x2048x2048, .f32⟩
  | .hbm, ⟨25, _⟩ => ⟨S8x8x2048x2048, .f32⟩
  | .hbm, ⟨26, _⟩ => ⟨S8x8x2048x2048, .f32⟩
  | .hbm, ⟨27, _⟩ => ⟨S_, .f32⟩
  | .hbm, ⟨28, _⟩ => ⟨S8x2048x2048, .f32⟩
  | .hbm, ⟨29, _⟩ => ⟨S8x1x2048x2048, .f32⟩
  | .hbm, ⟨30, _⟩ => ⟨S8x8x2048x2048, .f32⟩
  | .hbm, ⟨31, _⟩ => ⟨S8x8x2048x2048, .f32⟩
  | .hbm, ⟨32, _⟩ => ⟨S8x8x2048x48, .f32⟩
  | .hbm, ⟨33, _⟩ => ⟨S8x2048x384, .f32⟩
  | .hbm, ⟨34, _⟩ => ⟨S8x2048x384, .f32⟩
  | .hbm, ⟨35, _⟩ => ⟨S1x1x384, .f32⟩
  | .hbm, ⟨36, _⟩ => ⟨S8x2048x384, .f32⟩
  | .hbm, ⟨37, _⟩ => ⟨S8x2048x384, .f32⟩
  | _, _ => ⟨S8x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  bcast_S1152_S1x1x1152_2 : S1152.BroadcastsInDim S1x1x1152 (![2] : Fin 1 → Fin S1x1x1152.rank)
  bcast_S1x1x1152_S8x2048x1152_0_1_2 : S1x1x1152.BroadcastsInDim S8x2048x1152 (![0, 1, 2] : Fin 3 → Fin S8x2048x1152.rank)
  shapeCasts_S8x2048x1152_S8x2048x8x144 : S8x2048x1152.ShapeCasts S8x2048x8x144
  transposes_S8x2048x8x144_S8x8x2048x144_0_2_1_3 : S8x2048x8x144.Transposes [0, 2, 1, 3] S8x8x2048x144
  slices_S8x8x2048x144_S8x8x2048x48_0_0_0_0 : S8x8x2048x144.Slices ![0, 0, 0, 0] S8x8x2048x48
  slices_S8x8x2048x144_S8x8x2048x48_0_0_0_48 : S8x8x2048x144.Slices ![0, 0, 0, 48] S8x8x2048x48
  slices_S8x8x2048x144_S8x8x2048x48_0_0_0_96 : S8x8x2048x144.Slices ![0, 0, 0, 96] S8x8x2048x48
  bcast_S_S8x8x2048x2048 : S_.BroadcastsInDim S8x8x2048x2048 (![] : Fin 0 → Fin S8x8x2048x2048.rank)
  reducesTo_S8x8x2048x2048_S8x2048x2048_d1 : S8x8x2048x2048.ReducesTo [1] S8x2048x2048
  h_S_ : 0 < S_.numel
  bcast_S_S8x2048x2048 : S_.BroadcastsInDim S8x2048x2048 (![] : Fin 0 → Fin S8x2048x2048.rank)
  bcast_S8x2048x2048_S8x1x2048x2048_0_2_3 : S8x2048x2048.BroadcastsInDim S8x1x2048x2048 (![0, 2, 3] : Fin 3 → Fin S8x1x2048x2048.rank)
  bcast_S8x1x2048x2048_S8x8x2048x2048_0_1_2_3 : S8x1x2048x2048.BroadcastsInDim S8x8x2048x2048 (![0, 1, 2, 3] : Fin 4 → Fin S8x8x2048x2048.rank)
  shapeCasts_S8x8x2048x48_S8x2048x384 : S8x8x2048x48.ShapeCasts S8x2048x384
  bcast_S384_S1x1x384_2 : S384.BroadcastsInDim S1x1x384 (![2] : Fin 1 → Fin S1x1x384.rank)
  bcast_S1x1x384_S8x2048x384_0_1_2 : S1x1x384.BroadcastsInDim S8x2048x384 (![0, 1, 2] : Fin 3 → Fin S8x2048x384.rank)
  dot_S8x2048x384_S1152x384_S8x2048x1152_2_1_01_0_n_n_wf : DotDims.WF S8x2048x384 S1152x384 S8x2048x1152 [2] [1] [0, 1] [0] [] []
  dot_S8x8x2048x48_S8x8x2048x48_S8x8x2048x2048_3_3_2_2_01_01_wf : DotDims.WF S8x8x2048x48 S8x8x2048x48 S8x8x2048x2048 [3] [3] [2] [2] [0, 1] [0, 1]
  dot_S8x8x2048x2048_S8x8x2048x48_S8x8x2048x48_3_2_2_3_01_01_wf : DotDims.WF S8x8x2048x2048 S8x8x2048x48 S8x8x2048x48 [3] [2] [2] [3] [0, 1] [0, 1]
  dot_S8x2048x384_S384x384_S8x2048x384_2_1_01_0_n_n_wf : DotDims.WF S8x2048x384 S384x384 S8x2048x384 [2] [1] [0, 1] [0] [] []

variable [Facts₀]

def dot_S8x2048x384_S1152x384_S8x2048x1152_2_1_01_0_n_n : DotDims S8x2048x384 S1152x384 S8x2048x1152 where
  lhsContracting := [2]
  rhsContracting := [1]
  lhsNonContracting := [0, 1]
  rhsNonContracting := [0]
  lhsBatch := []
  rhsBatch := []
  wf := dot_S8x2048x384_S1152x384_S8x2048x1152_2_1_01_0_n_n_wf
def dot_S8x8x2048x48_S8x8x2048x48_S8x8x2048x2048_3_3_2_2_01_01 : DotDims S8x8x2048x48 S8x8x2048x48 S8x8x2048x2048 where
  lhsContracting := [3]
  rhsContracting := [3]
  lhsNonContracting := [2]
  rhsNonContracting := [2]
  lhsBatch := [0, 1]
  rhsBatch := [0, 1]
  wf := dot_S8x8x2048x48_S8x8x2048x48_S8x8x2048x2048_3_3_2_2_01_01_wf
def dot_S8x8x2048x2048_S8x8x2048x48_S8x8x2048x48_3_2_2_3_01_01 : DotDims S8x8x2048x2048 S8x8x2048x48 S8x8x2048x48 where
  lhsContracting := [3]
  rhsContracting := [2]
  lhsNonContracting := [2]
  rhsNonContracting := [3]
  lhsBatch := [0, 1]
  rhsBatch := [0, 1]
  wf := dot_S8x8x2048x2048_S8x8x2048x48_S8x8x2048x48_3_2_2_3_01_01_wf
def dot_S8x2048x384_S384x384_S8x2048x384_2_1_01_0_n_n : DotDims S8x2048x384 S384x384 S8x2048x384 where
  lhsContracting := [2]
  rhsContracting := [1]
  lhsNonContracting := [0, 1]
  rhsNonContracting := [0]
  lhsBatch := []
  rhsBatch := []
  wf := dot_S8x2048x384_S384x384_S8x2048x384_2_1_01_0_n_n_wf

class Facts : Prop extends Facts₀ where

variable [Facts]
-- ==== Proof.KernelCases.lean ====
/-
  The fused attention kernel runs on a grid of 8 batches by 8 query tiles, the query tile moving fastest. Its body
  branches twice on the query-tile coordinate: at tile 0 it fills the key and value caches of the batch, at tile 7 it
  projects the batch's accumulated attention output into the output block. This module decides those two conditions
  over the grid, says where the output window is idle, and names the memrefs the body is called with.
-/
import proofs.«115193_j84473416778245_2_alg».proof.Proof.Gen.Kernel.Frame
import proofs.«115193_j84473416778245_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch's condition: the query-tile coordinate is 0. -/
abbrev condFirst (i : grid0.Coords) : Prop := (Scalar.cmpi .ne (Scalar.extui (Scalar.cmpi .eq (BitVec.ofNat 32 (i 1).val) 0#32)) 0#32) = 1#1
/-- It holds at the points whose position is a multiple of 8. -/
theorem hcondFirst : ∀ t : Fin cfg0.N, condFirst (grid0.coords t) ↔ t.val % 8 = 0 :=
  (by decide +kernel : ∀ t : Fin grid0.N, condFirst (grid0.coords t) ↔ t.val % 8 = 0)

/-- The second branch's condition: the query-tile coordinate is 7. -/
abbrev condLast (i : grid0.Coords) : Prop := k0_cond2 i = 1#1
/-- It holds at the points whose position is 7 modulo 8. -/
theorem hcondLast : ∀ t : Fin cfg0.N, condLast (grid0.coords t) ↔ t.val % 8 = 7 :=
  (by decide +kernel : ∀ t : Fin grid0.N, condLast (grid0.coords t) ↔ t.val % 8 = 7)

/-- The input windows are never idle. -/
theorem liveIn : ∀ (w : Fin 10), w.val < 9 → ∀ t : Fin cfg0.N, cfg0.idle w (grid0.coords t) = false := by decide +kernel
/-- Away from the last query tile the output window is idle and is not written back. -/
theorem idleOut : ∀ t : Fin cfg0.N, ¬condLast (grid0.coords t) → cfg0.idle 9 (grid0.coords t) = true := by decide +kernel
theorem noFlushOut : ∀ t : Fin cfg0.N, ¬condLast (grid0.coords t) → (cfg0.win 9).flush t = false := by decide +kernel
/-- At the last query tile the body stores the output block. -/
theorem liveOut : ∀ t : Fin cfg0.N, condLast (grid0.coords t) → cfg0.idle 9 (grid0.coords t) = false := by decide +kernel

/-- Each window's current staging memref at point `t`, as the pipeline passes it, and its wholeness. -/
abbrev ms0 (t : Fin cfg0.N) : Memref sig .tc .vmem S1x2048x384 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S384x384 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S384x384 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S384x384 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x384 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x384 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x384 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S384x384 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x384 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x2048x384 .f32 := win0_9.stage (cfg0.slots t 9)
abbrev hs9 (t : Fin cfg0.N) : (ms9 t).IsWhole := hstage0_9 ((cfg0.slots t 9).cast nbuf0_9)

/-- The three scratch operands: the key cache, the value cache and the attention output of one batch. -/
abbrev scK : Memref sig .tc .vmem S8x2048x48 .bf16 := Memref.whole cc0_scratch0
abbrev scV : Memref sig .tc .vmem S8x2048x48 .bf16 := Memref.whole cc0_scratch1
abbrev scO : Memref sig .tc .vmem S8x2048x48 .f32 := Memref.whole cc0_scratch2

/-- The region's class invariant with the three scratch buffers as memrefs owned at some contents. -/
theorem PhiA_eq (c : Dev nD) :
    (Pipeline.ΦA spec0 c : sProp 𝕄)
      = iprop(iprop((∃ d, owns (c : Thread nD τ) scK fullShare d) ∗ (∃ d, owns (c : Thread nD τ) scV fullShare d) ∗ (∃ d, owns (c : Thread nD τ) scO fullShare d)) ∗ (∃ r, prngReg c r)) := by
  unfold Pipeline.ΦA; rw [scopedRest0_eq]; simp only [scK, scV, scO, owns_whole]; try rfl

end Cert.Kernel.Body

end
-- ==== Proof.KernelRunFirst.lean ====
/-
  The body at the first query tile of a batch: it first fills the key cache and the value cache from the batch's whole
  input block, then does what every tile does — projects the tile's queries, walks the eight key tiles of the caches
  accumulating the head-softmax-weighted values, and stores the tile's rows of the attention output.
-/
import proofs.«115193_j84473416778245_2_alg».proof.Proof.KernelCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple at a batch's first query tile, every buffer whole at named contents: the inputs and the output block are handed back as found, the two caches and the attention output with the pieces the run finds written over what they held. -/
noncomputable def runFirst (c : Dev nD) (i : grid0.Coords) (arg2 : Memref sig .tc .vmem S1x2048x384 .f32) (harg2 : arg2.IsWhole) (arg3 : Memref sig .tc .vmem S384x384 .f32) (harg3 : arg3.IsWhole) (arg4 : Memref sig .tc .vmem S384x384 .f32) (harg4 : arg4.IsWhole) (arg5 : Memref sig .tc .vmem S384x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S384x384 .f32) (harg9 : arg9.IsWhole) (arg10 : Memref sig .tc .vmem S1x384 .f32) (harg10 : arg10.IsWhole) (arg11 : Memref sig .tc .vmem S1x2048x384 .f32) (harg11 : arg11.IsWhole) (arg12 : Memref sig .tc .vmem S8x2048x48 .bf16) (harg12 : arg12.IsWhole) (arg13 : Memref sig .tc .vmem S8x2048x48 .bf16) (harg13 : arg13.IsWhole) (arg14 : Memref sig .tc .vmem S8x2048x48 .f32) (harg14 : arg14.IsWhole) (hc1 : condFirst i) (hc2 : ¬condLast i)
    (x0 : Vec F S1x2048x384 .f32) (x1 : Vec F S384x384 .f32) (x2 : Vec F S384x384 .f32) (x3 : Vec F S384x384 .f32) (x4 : Vec F S1x384 .f32) (x5 : Vec F S1x384 .f32) (x6 : Vec F S1x384 .f32) (x7 : Vec F S384x384 .f32) (x8 : Vec F S1x384 .f32) (x9 : Vec F S1x2048x384 .f32) (xk : Vec F S8x2048x48 .bf16) (xv : Vec F S8x2048x48 .bf16) (xo : Vec F S8x2048x48 .f32) :
    Σ' (LK : List (View.Piece (Elt F) S8x2048x48 .bf16)), Σ' (LV : List (View.Piece (Elt F) S8x2048x48 .bf16)), { LO : List (View.Piece (Elt F) S8x2048x48 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xk ∗ owns (c : Thread nD τ) arg13 fullShare xv ∗ owns (c : Thread nD τ) arg14 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (arg12.view.loc (c : Thread nD τ) ↦[arg12.view.set]{fullShare} arg12.view.writes (Elt F) (harg12.unread xk) LK) ∗ (arg13.view.loc (c : Thread nD τ) ↦[arg13.view.set]{fullShare} arg13.view.writes (Elt F) (harg13.unread xv) LV) ∗ (arg14.view.loc (c : Thread nD τ) ↦[arg14.view.set]{fullShare} arg14.view.writes (Elt F) (harg14.unread xo) LO)) -∗ K ⟨⟩))
          ⊢ wp frame (wpE (defs₀ (F := F)) Variants.none c none) E (cc0__attn_proj_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__attn_proj_kernel_eq_skeleton]; unfold cc0__attn_proj_kernel_skel
    repeat (first | (simp only [k0_part5_eq_skeleton]; unfold k0_part5_skel) | (simp only [k0_part4_eq_skeleton]; unfold k0_part4_skel) | (simp only [k0_part3_eq_skeleton]; unfold k0_part3_skel) | (simp only [k0_part2_eq_skeleton]; unfold k0_part2_skel) | (simp only [k0_part1_eq_skeleton]; unfold k0_part1_skel))
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexact H10
    isplitl [H11]
    · iexact H11
    · iexact H12

end Cert.Kernel.Body

end
-- ==== Proof.KernelRunMid.lean ====
/-
  The body at a point whose query tile is neither the first nor the last: it projects the tile's queries, walks the eight
  key tiles of the caches accumulating the head-softmax-weighted values, and stores the tile's rows of the attention
  output; nothing else is written.
-/
import proofs.«115193_j84473416778245_2_alg».proof.Proof.KernelCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple at a middle query tile, every buffer whole at named contents: the inputs, the output block and both caches are handed back as found, the attention output with the pieces `LO` (found by the run) written over what it held. -/
noncomputable def runMid (c : Dev nD) (i : grid0.Coords) (arg2 : Memref sig .tc .vmem S1x2048x384 .f32) (harg2 : arg2.IsWhole) (arg3 : Memref sig .tc .vmem S384x384 .f32) (harg3 : arg3.IsWhole) (arg4 : Memref sig .tc .vmem S384x384 .f32) (harg4 : arg4.IsWhole) (arg5 : Memref sig .tc .vmem S384x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S384x384 .f32) (harg9 : arg9.IsWhole) (arg10 : Memref sig .tc .vmem S1x384 .f32) (harg10 : arg10.IsWhole) (arg11 : Memref sig .tc .vmem S1x2048x384 .f32) (harg11 : arg11.IsWhole) (arg12 : Memref sig .tc .vmem S8x2048x48 .bf16) (harg12 : arg12.IsWhole) (arg13 : Memref sig .tc .vmem S8x2048x48 .bf16) (harg13 : arg13.IsWhole) (arg14 : Memref sig .tc .vmem S8x2048x48 .f32) (harg14 : arg14.IsWhole) (hc1 : ¬condFirst i) (hc2 : ¬condLast i)
    (x0 : Vec F S1x2048x384 .f32) (x1 : Vec F S384x384 .f32) (x2 : Vec F S384x384 .f32) (x3 : Vec F S384x384 .f32) (x4 : Vec F S1x384 .f32) (x5 : Vec F S1x384 .f32) (x6 : Vec F S1x384 .f32) (x7 : Vec F S384x384 .f32) (x8 : Vec F S1x384 .f32) (x9 : Vec F S1x2048x384 .f32) (xk : Vec F S8x2048x48 .bf16) (xv : Vec F S8x2048x48 .bf16) (xo : Vec F S8x2048x48 .f32) :
    { LO : List (View.Piece (Elt F) S8x2048x48 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xk ∗ owns (c : Thread nD τ) arg13 fullShare xv ∗ owns (c : Thread nD τ) arg14 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xk ∗ owns (c : Thread nD τ) arg13 fullShare xv ∗ (arg14.view.loc (c : Thread nD τ) ↦[arg14.view.set]{fullShare} arg14.view.writes (Elt F) (harg14.unread xo) LO)) -∗ K ⟨⟩))
          ⊢ wp frame (wpE (defs₀ (F := F)) Variants.none c none) E (cc0__attn_proj_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__attn_proj_kernel_eq_skeleton]; unfold cc0__attn_proj_kernel_skel
    repeat (first | (simp only [k0_part5_eq_skeleton]; unfold k0_part5_skel) | (simp only [k0_part4_eq_skeleton]; unfold k0_part4_skel) | (simp only [k0_part3_eq_skeleton]; unfold k0_part3_skel) | (simp only [k0_part2_eq_skeleton]; unfold k0_part2_skel) | (simp only [k0_part1_eq_skeleton]; unfold k0_part1_skel))
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    · iexact H12

end Cert.Kernel.Body

end
-- ==== Proof.KernelRunLast.lean ====
/-
  The body at the last query tile of a batch: it does what every tile does — projects the tile's queries, walks the eight
  key tiles of the caches accumulating the head-softmax-weighted values, stores the tile's rows of the attention output —
  and then reads the whole attention output of the batch, reinterprets it as a 2048 by 384 matrix without permuting,
  projects it and stores the output block.
-/
import proofs.«115193_j84473416778245_2_alg».proof.Proof.KernelCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple at a batch's last query tile, every buffer whole at named contents: the inputs and both caches are handed back as found, the attention output and the output block with the pieces the run finds written over what they held. -/
noncomputable def runLast (c : Dev nD) (i : grid0.Coords) (arg2 : Memref sig .tc .vmem S1x2048x384 .f32) (harg2 : arg2.IsWhole) (arg3 : Memref sig .tc .vmem S384x384 .f32) (harg3 : arg3.IsWhole) (arg4 : Memref sig .tc .vmem S384x384 .f32) (harg4 : arg4.IsWhole) (arg5 : Memref sig .tc .vmem S384x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S384x384 .f32) (harg9 : arg9.IsWhole) (arg10 : Memref sig .tc .vmem S1x384 .f32) (harg10 : arg10.IsWhole) (arg11 : Memref sig .tc .vmem S1x2048x384 .f32) (harg11 : arg11.IsWhole) (arg12 : Memref sig .tc .vmem S8x2048x48 .bf16) (harg12 : arg12.IsWhole) (arg13 : Memref sig .tc .vmem S8x2048x48 .bf16) (harg13 : arg13.IsWhole) (arg14 : Memref sig .tc .vmem S8x2048x48 .f32) (harg14 : arg14.IsWhole) (hc1 : ¬condFirst i) (hc2 : condLast i)
    (x0 : Vec F S1x2048x384 .f32) (x1 : Vec F S384x384 .f32) (x2 : Vec F S384x384 .f32) (x3 : Vec F S384x384 .f32) (x4 : Vec F S1x384 .f32) (x5 : Vec F S1x384 .f32) (x6 : Vec F S1x384 .f32) (x7 : Vec F S384x384 .f32) (x8 : Vec F S1x384 .f32) (x9 : Vec F S1x2048x384 .f32) (xk : Vec F S8x2048x48 .bf16) (xv : Vec F S8x2048x48 .bf16) (xo : Vec F S8x2048x48 .f32) :
    Σ' (L9 : List (View.Piece (Elt F) S1x2048x384 .f32)), { LO : List (View.Piece (Elt F) S8x2048x48 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xk ∗ owns (c : Thread nD τ) arg13 fullShare xv ∗ owns (c : Thread nD τ) arg14 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (arg11.view.loc (c : Thread nD τ) ↦[arg11.view.set]{fullShare} arg11.view.writes (Elt F) (harg11.unread x9) L9) ∗ owns (c : Thread nD τ) arg12 fullShare xk ∗ owns (c : Thread nD τ) arg13 fullShare xv ∗ (arg14.view.loc (c : Thread nD τ) ↦[arg14.view.set]{fullShare} arg14.view.writes (Elt F) (harg14.unread xo) LO)) -∗ K ⟨⟩))
          ⊢ wp frame (wpE (defs₀ (F := F)) Variants.none c none) E (cc0__attn_proj_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__attn_proj_kernel_eq_skeleton]; unfold cc0__attn_proj_kernel_skel
    repeat (first | (simp only [k0_part5_eq_skeleton]; unfold k0_part5_skel) | (simp only [k0_part4_eq_skeleton]; unfold k0_part4_skel) | (simp only [k0_part3_eq_skeleton]; unfold k0_part3_skel) | (simp only [k0_part2_eq_skeleton]; unfold k0_part2_skel) | (simp only [k0_part1_eq_skeleton]; unfold k0_part1_skel))
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexact H9
    isplitl [H10]
    · iexists _; isplitr; · ipureintro; exact harg12.read_unread _
      iexact H10
    isplitl [H11]
    · iexists _; isplitr; · ipureintro; exact harg13.read_unread _
      iexact H11
    · iexact H12

end Cert.Kernel.Body

end
-- ==== Proof.KernelData.lean ====
/-
  What one grid point computes, as pure functions of the values it loads.

  A query tile is 256 consecutive positions of a batch. Its projected queries meet the eight key tiles of the key
  cache one after the other; for each key tile the scores are scaled, the softmax is taken across the eight heads, the
  weights multiply the value tile, and the eight partial products are added up in order. `tileOf` is that sum: the
  256 rows of the batch's attention output the point stores.
-/
import proofs.«115193_j84473416778245_2_alg».proof.Proof.KernelCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The rows of the attention output computed at one grid point, from the tile of the input it loads (`v8`), the
    query weights and bias (`v10`, `v14`) and the eight key and value tiles of the caches. -/
def tileOf (v8 : Vec F S256x384 .f32) (v10 : Vec F S384x384 .f32) (v14 : Vec F S1x384 .f32) (k0 v0 : Vec F S8x256x48 .bf16) (k1 v1 : Vec F S8x256x48 .bf16) (k2 v2 : Vec F S8x256x48 .bf16) (k3 v3 : Vec F S8x256x48 .bf16) (k4 v4 : Vec F S8x256x48 .bf16) (k5 v5 : Vec F S8x256x48 .bf16) (k6 v6 : Vec F S8x256x48 .bf16) (k7 v7 : Vec F S8x256x48 .bf16) :
    FVec F S8x256x48 .f32 :=
  k0_pay1 (k0_pay14 (k0_pay6 v8 v10 v14)
    (k0_pay13 (k0_pay6 v8 v10 v14)
      (k0_pay12 (k0_pay6 v8 v10 v14)
        (k0_pay10 (k0_pay6 v8 v10 v14) (k0_pay7 (F := F)) v0 (k0_pay8 v8 v10 v14 k0) (k0_pay9 v8 v10 v14 k0) k1 v1)
        v2 (k0_pay11 (k0_pay6 v8 v10 v14) k2) k3 v3)
      k4 v4 (constant S8x256x256 .f32 0x00000000#32) k5 v5)
    k6 v6 k7 v7)

/-- The rectangles the body loads and stores through. -/
abbrev rX : Rect S1x2048x384 := Rect.unit (s := S1x2048x384) ![0, 0, 0] S1x2048x384.size inb_S1x2048x384_S1x2048x384_0_0_0
abbrev rW : Rect S384x384 := Rect.unit (s := S384x384) ![0, 0] S384x384.size inb_S384x384_S384x384_0_0
abbrev rB : Rect S1x384 := Rect.unit (s := S1x384) ![0, 0] S1x384.size inb_S1x384_S1x384_0_0
abbrev rC : Rect S8x2048x48 := Rect.unit (s := S8x2048x48) ![0, 0, 0] S8x2048x48.size inb_S8x2048x48_S8x2048x48_0_0_0
/-- Key tile `j` of a cache: rows `256 j` to `256 j + 255` of every head. -/
abbrev rT (j : Fin 8) : Rect S8x2048x48 := Rect.unit (s := S8x2048x48) (k0_off2 (BitVec.ofNat 32 j.val)) S8x256x48.size (k0_off2_inb j)
/-- The query tile's rows of the attention output. -/
abbrev rO (i : grid0.Coords) : Rect S8x2048x48 := Rect.unit (s := S8x2048x48) (k0_off3 i) S8x256x48.size (k0_off3_inb i)

/-- A load through a rectangle of a whole memref holding `X`. -/
abbrev rd {s : Shape} {e : EltTy} (a : Memref sig .tc .vmem s e) (ha : a.IsWhole) (X : Vec F s e) (R : Rect s) : R.shape.Idx → Elt F e :=
  View.readAt (Elt F) a.view R.toLoadRect (ha.unread X)

/-- The query tile's rows of the batch's input block, loaded through the block seen as a matrix. -/
abbrev rdQ (i : grid0.Coords) (a : Memref sig .tc .vmem S1x2048x384 .f32) (ha : a.IsWhole) (X : Vec F S1x2048x384 .f32) : Vec F S256x384 .f32 :=
  View.readAt (Elt F) ((a.slice rX (fun _ => rfl)).squeeze S2048x384 squeezes_S1x2048x384_S2048x384).view
    (Rect.unit (s := S2048x384) (k0_off1 i) S256x384.size (k0_off1_inb i)).toLoadRect (ha.unread X)

variable (c : Dev nD) (i : grid0.Coords) (arg2 : Memref sig .tc .vmem S1x2048x384 .f32) (harg2 : arg2.IsWhole) (arg3 : Memref sig .tc .vmem S384x384 .f32) (harg3 : arg3.IsWhole) (arg4 : Memref sig .tc .vmem S384x384 .f32) (harg4 : arg4.IsWhole) (arg5 : Memref sig .tc .vmem S384x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S384x384 .f32) (harg9 : arg9.IsWhole) (arg10 : Memref sig .tc .vmem S1x384 .f32) (harg10 : arg10.IsWhole) (arg11 : Memref sig .tc .vmem S1x2048x384 .f32) (harg11 : arg11.IsWhole) (arg12 : Memref sig .tc .vmem S8x2048x48 .bf16) (harg12 : arg12.IsWhole) (arg13 : Memref sig .tc .vmem S8x2048x48 .bf16) (harg13 : arg13.IsWhole) (arg14 : Memref sig .tc .vmem S8x2048x48 .f32) (harg14 : arg14.IsWhole)
    (x0 : Vec F S1x2048x384 .f32) (x1 : Vec F S384x384 .f32) (x2 : Vec F S384x384 .f32) (x3 : Vec F S384x384 .f32) (x4 : Vec F S1x384 .f32) (x5 : Vec F S1x384 .f32) (x6 : Vec F S1x384 .f32) (x7 : Vec F S384x384 .f32) (x8 : Vec F S1x384 .f32) (x9 : Vec F S1x2048x384 .f32) (xk : Vec F S8x2048x48 .bf16) (xv : Vec F S8x2048x48 .bf16) (xo : Vec F S8x2048x48 .f32)

/-- The tile a point stores, over the buffers' named contents: the input block `x0`, the query weights `x1` and bias
    `x4`, and the caches' contents `ck`, `cv` as the memrefs `arg12`, `arg13` hold them. -/
abbrev tileAt (ck : arg12.view.ty.Contents (Elt F)) (cv : arg13.view.ty.Contents (Elt F)) : FVec F S8x256x48 .f32 :=
  tileOf (rdQ i arg2 harg2 x0) (rd arg3 harg3 x1 rW) (rd arg6 harg6 x4 rB)
    (View.readAt (Elt F) arg12.view (rT 0).toLoadRect ck) (View.readAt (Elt F) arg13.view (rT 0).toLoadRect cv)
    (View.readAt (Elt F) arg12.view (rT 1).toLoadRect ck) (View.readAt (Elt F) arg13.view (rT 1).toLoadRect cv)
    (View.readAt (Elt F) arg12.view (rT 2).toLoadRect ck) (View.readAt (Elt F) arg13.view (rT 2).toLoadRect cv)
    (View.readAt (Elt F) arg12.view (rT 3).toLoadRect ck) (View.readAt (Elt F) arg13.view (rT 3).toLoadRect cv)
    (View.readAt (Elt F) arg12.view (rT 4).toLoadRect ck) (View.readAt (Elt F) arg13.view (rT 4).toLoadRect cv)
    (View.readAt (Elt F) arg12.view (rT 5).toLoadRect ck) (View.readAt (Elt F) arg13.view (rT 5).toLoadRect cv)
    (View.readAt (Elt F) arg12.view (rT 6).toLoadRect ck) (View.readAt (Elt F) arg13.view (rT 6).toLoadRect cv)
    (View.readAt (Elt F) arg12.view (rT 7).toLoadRect ck) (View.readAt (Elt F) arg13.view (rT 7).toLoadRect cv)

end Cert.Kernel.Body

end
-- ==== Proof.KernelPieces.lean ====
/-
  The pieces each run leaves, identified: at every point the one store into the attention output is the point's tile
  (`tileOf` of the values loaded there); at a batch's first query tile the two caches are stored whole, and the key
  and value tiles are then read back out of what was just stored; at its last query tile the whole attention output
  is read back, projected and stored into the output block.
-/
import proofs.«115193_j84473416778245_2_alg».proof.Proof.KernelRunFirst
import proofs.«115193_j84473416778245_2_alg».proof.Proof.KernelRunMid
import proofs.«115193_j84473416778245_2_alg».proof.Proof.KernelRunLast
import proofs.«115193_j84473416778245_2_alg».proof.Proof.KernelData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords) (arg2 : Memref sig .tc .vmem S1x2048x384 .f32) (harg2 : arg2.IsWhole) (arg3 : Memref sig .tc .vmem S384x384 .f32) (harg3 : arg3.IsWhole) (arg4 : Memref sig .tc .vmem S384x384 .f32) (harg4 : arg4.IsWhole) (arg5 : Memref sig .tc .vmem S384x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S384x384 .f32) (harg9 : arg9.IsWhole) (arg10 : Memref sig .tc .vmem S1x384 .f32) (harg10 : arg10.IsWhole) (arg11 : Memref sig .tc .vmem S1x2048x384 .f32) (harg11 : arg11.IsWhole) (arg12 : Memref sig .tc .vmem S8x2048x48 .bf16) (harg12 : arg12.IsWhole) (arg13 : Memref sig .tc .vmem S8x2048x48 .bf16) (harg13 : arg13.IsWhole) (arg14 : Memref sig .tc .vmem S8x2048x48 .f32) (harg14 : arg14.IsWhole)
    (x0 : Vec F S1x2048x384 .f32) (x1 : Vec F S384x384 .f32) (x2 : Vec F S384x384 .f32) (x3 : Vec F S384x384 .f32) (x4 : Vec F S1x384 .f32) (x5 : Vec F S1x384 .f32) (x6 : Vec F S1x384 .f32) (x7 : Vec F S384x384 .f32) (x8 : Vec F S1x384 .f32) (x9 : Vec F S1x2048x384 .f32) (xk : Vec F S8x2048x48 .bf16) (xv : Vec F S8x2048x48 .bf16) (xo : Vec F S8x2048x48 .f32)

/-- What the first query tile stores into the key cache: the keys of the batch's whole input block. -/
abbrev keysOf : FVec F S8x2048x48 .bf16 := k0_pay4 (rd arg2 harg2 x0 rX) (rd arg4 harg4 x2 rW) (rd arg7 harg7 x5 rB)
/-- What it stores into the value cache. -/
abbrev valuesOf : FVec F S8x2048x48 .bf16 := k0_pay5 (rd arg2 harg2 x0 rX) (rd arg5 harg5 x3 rW) (rd arg8 harg8 x6 rB)

set_option maxHeartbeats 4000000 in
set_option maxRecDepth 2000000 in
theorem runMid_pieces (hc1 : ¬condFirst i) (hc2 : ¬condLast i) :
    (runMid c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 x8 x9 xk xv xo).1
      = [⟨rO i, tileAt i arg2 harg2 arg3 harg3 arg6 harg6 arg12 arg13 x0 x1 x4 (harg12.unread xk) (harg13.unread xv)⟩] := by
  unfold runMid
  dsimp only
  sl_unfold_words
  rfl

set_option maxHeartbeats 4000000 in
set_option maxRecDepth 2000000 in
theorem runFirst_piecesK (hc1 : condFirst i) (hc2 : ¬condLast i) :
    (runFirst c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 x8 x9 xk xv xo).1
      = [⟨rC, keysOf arg2 harg2 arg4 harg4 arg7 harg7 x0 x2 x5⟩] := by
  unfold runFirst
  dsimp only
  sl_unfold_words
  rfl

set_option maxHeartbeats 4000000 in
set_option maxRecDepth 2000000 in
theorem runFirst_piecesV (hc1 : condFirst i) (hc2 : ¬condLast i) :
    (runFirst c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 x8 x9 xk xv xo).2.1
      = [⟨rC, valuesOf arg2 harg2 arg5 harg5 arg8 harg8 x0 x3 x6⟩] := by
  unfold runFirst
  dsimp only
  sl_unfold_words
  rfl

set_option maxHeartbeats 4000000 in
set_option maxRecDepth 2000000 in
theorem runFirst_piecesO (hc1 : condFirst i) (hc2 : ¬condLast i) :
    (runFirst c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 x8 x9 xk xv xo).2.2.1
      = [⟨rO i, tileOf (rdQ i arg2 harg2 x0) (rd arg3 harg3 x1 rW) (rd arg6 harg6 x4 rB)
          (arg12.view.readCov [⟨rC, keysOf arg2 harg2 arg4 harg4 arg7 harg7 x0 x2 x5⟩] (rT 0).toLoadRect) (arg13.view.readCov [⟨rC, valuesOf arg2 harg2 arg5 harg5 arg8 harg8 x0 x3 x6⟩] (rT 0).toLoadRect)
          (arg12.view.readCov [⟨rC, keysOf arg2 harg2 arg4 harg4 arg7 harg7 x0 x2 x5⟩] (rT 1).toLoadRect) (arg13.view.readCov [⟨rC, valuesOf arg2 harg2 arg5 harg5 arg8 harg8 x0 x3 x6⟩] (rT 1).toLoadRect)
          (arg12.view.readCov [⟨rC, keysOf arg2 harg2 arg4 harg4 arg7 harg7 x0 x2 x5⟩] (rT 2).toLoadRect) (arg13.view.readCov [⟨rC, valuesOf arg2 harg2 arg5 harg5 arg8 harg8 x0 x3 x6⟩] (rT 2).toLoadRect)
          (arg12.view.readCov [⟨rC, keysOf arg2 harg2 arg4 harg4 arg7 harg7 x0 x2 x5⟩] (rT 3).toLoadRect) (arg13.view.readCov [⟨rC, valuesOf arg2 harg2 arg5 harg5 arg8 harg8 x0 x3 x6⟩] (rT 3).toLoadRect)
          (arg12.view.readCov [⟨rC, keysOf arg2 harg2 arg4 harg4 arg7 harg7 x0 x2 x5⟩] (rT 4).toLoadRect) (arg13.view.readCov [⟨rC, valuesOf arg2 harg2 arg5 harg5 arg8 harg8 x0 x3 x6⟩] (rT 4).toLoadRect)
          (arg12.view.readCov [⟨rC, keysOf arg2 harg2 arg4 harg4 arg7 harg7 x0 x2 x5⟩] (rT 5).toLoadRect) (arg13.view.readCov [⟨rC, valuesOf arg2 harg2 arg5 harg5 arg8 harg8 x0 x3 x6⟩] (rT 5).toLoadRect)
          (arg12.view.readCov [⟨rC, keysOf arg2 harg2 arg4 harg4 arg7 harg7 x0 x2 x5⟩] (rT 6).toLoadRect) (arg13.view.readCov [⟨rC, valuesOf arg2 harg2 arg5 harg5 arg8 harg8 x0 x3 x6⟩] (rT 6).toLoadRect)
          (arg12.view.readCov [⟨rC, keysOf arg2 harg2 arg4 harg4 arg7 harg7 x0 x2 x5⟩] (rT 7).toLoadRect) (arg13.view.readCov [⟨rC, valuesOf arg2 harg2 arg5 harg5 arg8 harg8 x0 x3 x6⟩] (rT 7).toLoadRect)⟩] := by
  unfold runFirst
  dsimp only
  sl_unfold_words
  rfl

set_option maxHeartbeats 4000000 in
set_option maxRecDepth 2000000 in
theorem runLast_piecesO (hc1 : ¬condFirst i) (hc2 : condLast i) :
    (runLast c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 x8 x9 xk xv xo).2.1
      = [⟨rO i, tileAt i arg2 harg2 arg3 harg3 arg6 harg6 arg12 arg13 x0 x1 x4 (harg12.unread xk) (harg13.unread xv)⟩] := by
  unfold runLast
  dsimp only
  sl_unfold_words
  rfl

set_option maxHeartbeats 4000000 in
set_option maxRecDepth 2000000 in
theorem runLast_pieces9 (hc1 : ¬condFirst i) (hc2 : condLast i) :
    (runLast c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 x8 x9 xk xv xo).1
      = [⟨rX, k0_pay2 (View.readAt (Elt F) arg14.view rC.toLoadRect
            (arg14.view.writes (Elt F) (harg14.unread xo) [⟨rO i, tileAt i arg2 harg2 arg3 harg3 arg6 harg6 arg12 arg13 x0 x1 x4 (harg12.unread xk) (harg13.unread xv)⟩]))
          (rd arg9 harg9 x7 rW) (rd arg10 harg10 x8 rB)⟩] := by
  unfold runLast
  dsimp only
  sl_unfold_words
  rfl

end Cert.Kernel.Body

end
-- ==== Proof.KernelForms.lean ====
/-
  What the kernel's buffers hold, point by point, as functions of the argument blocks alone.

  A grid point is a pair (batch, query tile), the query tile moving fastest: point `t` has query tile `t % 8`, and its
  batch's eight points are `t - t % 8 + q`. At a point the pipeline presents each window's block; the batch's input block
  determines the keys and values of the batch (`keysF`, `valuesF`); a point's tile of attention output is `tileF`; the batch's
  whole attention output (`attnF`) is, at row `s`, the tile of point `s / 256` of the batch at row `s % 256`; and the output
  block (`outF`) is its projection after the matrix view `[8, 2048, 48] → [2048, 384]`.
-/
import proofs.«115193_j84473416778245_2_alg».proof.Proof.KernelData
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A load through a rectangle of a whole memref holding `X` reads `X` at the rectangle's indices. -/
theorem rd_eq {s : Shape} {e : EltTy} (a : Memref sig .tc .vmem s e) (ha : a.IsWhole) (X : Vec F s e) (R : Rect s) :
    rd a ha X R = View.ld X R := by
  unfold rd; rw [View.readAt_eq_ld, ha.read_unread]

/-- The query tile's rows of a batch's input block: the block seen as a `[2048, 384]` matrix, cut at the tile's rows. -/
def xRows (X : Vec F S1x2048x384 .f32) (i : grid0.Coords) : Vec F S256x384 .f32 :=
  fun y => X (rX.emb (Shape.reshapeEquiv (squeezes_S1x2048x384_S2048x384).numel_eq
    ((Rect.unit (s := S2048x384) (k0_off1 i) S256x384.size (k0_off1_inb i)).toLoadRect.idx y)))

/-- The body's load of those rows, through the block's memref viewed as a matrix, reads them whatever the memref. -/
theorem rdQ_eq (i : grid0.Coords) (a : Memref sig .tc .vmem S1x2048x384 .f32) (ha : a.IsWhole) (X : Vec F S1x2048x384 .f32) :
    rdQ i a ha X = xRows X i := by
  funext y
  show a.view.read (Elt F) (ha.unread X) _ = _
  rw [ha.read_unread]
  rfl

variable (m : (ℓ : Loc nD τ sig) → Buf (Elt F) ℓ)

/-- The windows' blocks at a point, at their literal shapes: the batch's input, the three projection matrices and their
    biases (query, key, value), the output matrix and its bias. -/
abbrev bX (c : Dev nD) (t : Fin cfg0.N) : Vec F S1x2048x384 .f32 := iblk m c 0 t
abbrev bWq (c : Dev nD) (t : Fin cfg0.N) : Vec F S384x384 .f32 := iblk m c 1 t
abbrev bWk (c : Dev nD) (t : Fin cfg0.N) : Vec F S384x384 .f32 := iblk m c 2 t
abbrev bWv (c : Dev nD) (t : Fin cfg0.N) : Vec F S384x384 .f32 := iblk m c 3 t
abbrev bBq (c : Dev nD) (t : Fin cfg0.N) : Vec F S1x384 .f32 := iblk m c 4 t
abbrev bBk (c : Dev nD) (t : Fin cfg0.N) : Vec F S1x384 .f32 := iblk m c 5 t
abbrev bBv (c : Dev nD) (t : Fin cfg0.N) : Vec F S1x384 .f32 := iblk m c 6 t
abbrev bWo (c : Dev nD) (t : Fin cfg0.N) : Vec F S384x384 .f32 := iblk m c 7 t
abbrev bBo (c : Dev nD) (t : Fin cfg0.N) : Vec F S1x384 .f32 := iblk m c 8 t

/-- The keys of the batch of point `t`, head-major: what the batch's first point stores into the key cache. -/
def keysF (c : Dev nD) (t : Fin cfg0.N) : FVec F S8x2048x48 .bf16 :=
  k0_pay4 (View.ld (bX m c t) rX) (View.ld (bWk m c t) rW) (View.ld (bBk m c t) rB)
/-- Its values. -/
def valuesF (c : Dev nD) (t : Fin cfg0.N) : FVec F S8x2048x48 .bf16 :=
  k0_pay5 (View.ld (bX m c t) rX) (View.ld (bWv m c t) rW) (View.ld (bBv m c t) rB)

/-- The rows of attention output point `t` computes. -/
def tileF (c : Dev nD) (t : Fin cfg0.N) : FVec F S8x256x48 .f32 :=
  tileOf (xRows (bX m c t) (grid0.coords t)) (View.ld (bWq m c t) rW) (View.ld (bBq m c t) rB)
    (View.ld (keysF m c t) (rT 0)) (View.ld (valuesF m c t) (rT 0))
    (View.ld (keysF m c t) (rT 1)) (View.ld (valuesF m c t) (rT 1))
    (View.ld (keysF m c t) (rT 2)) (View.ld (valuesF m c t) (rT 2))
    (View.ld (keysF m c t) (rT 3)) (View.ld (valuesF m c t) (rT 3))
    (View.ld (keysF m c t) (rT 4)) (View.ld (valuesF m c t) (rT 4))
    (View.ld (keysF m c t) (rT 5)) (View.ld (valuesF m c t) (rT 5))
    (View.ld (keysF m c t) (rT 6)) (View.ld (valuesF m c t) (rT 6))
    (View.ld (keysF m c t) (rT 7)) (View.ld (valuesF m c t) (rT 7))

/-- Point `q` of the batch of point `t`. -/
def pt (t : Fin cfg0.N) (q : Fin 8) : Fin cfg0.N :=
  ⟨t.val - t.val % 8 + q.val, by have := t.isLt; have h : cfg0.N = 64 := N_0; omega⟩

/-- The attention output of the batch of point `t`: row `s` of head `h` is row `s % 256` of the tile of the batch's
    point `s / 256`. -/
def attnF (c : Dev nD) (t : Fin cfg0.N) : Vec F S8x2048x48 .f32 :=
  fun y => tileF m c (pt t ⟨(y 1).val / 256, by have h : (y 1).val < 2048 := (y 1).isLt; omega⟩)
    (ValueIdx.ix3 (y 0) ⟨(y 1).val % 256, Nat.mod_lt _ (by decide)⟩ (y 2))

/-- The output block of the batch of point `t`. -/
def outF (c : Dev nD) (t : Fin cfg0.N) : FVec F S1x2048x384 .f32 :=
  k0_pay2 (View.ld (attnF m c t) rC) (View.ld (bWo m c t) rW) (View.ld (bBo m c t) rB)

end Cert.Kernel.Body

end
-- ==== Proof.KernelInv.lean ====
/-
  What the three scratch buffers hold between grid points.

  Inside a batch nothing the caches depend on changes: the batch's input block and the weights' blocks are the same at
  consecutive points, so the keys and values computed at the batch's first point stay the keys and values of every later
  point, and the batch's attention output is one function for all its points. Before a point whose query tile is `q > 0`
  the key cache holds the batch's keys, the value cache its values, and the attention output buffer agrees with the
  batch's attention output on the rows below `256 q` (the tiles already stored). Storing the point's tile extends the
  agreement to the rows below `256 (q + 1)`.
-/
import proofs.«115193_j84473416778245_2_alg».proof.Proof.KernelForms

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The tile's rows of the attention output start at row 256 times the query tile. -/
theorem off3_eq : ∀ t : Fin cfg0.N, k0_off3 (grid0.coords t) = ![0, 256 * (t.val % 8), 0] :=
  (by decide +kernel : ∀ t : Fin grid0.N, k0_off3 (grid0.coords t) = ![0, 256 * (t.val % 8), 0])

/-- Within a batch no input window's block index moves from one point to the next. -/
theorem index_succ : ∀ (w : Fin 10), w.val < 9 → ∀ (t : Fin cfg0.N) (h : t.val + 1 < cfg0.N), (t.val + 1) % 8 ≠ 0 →
    ∀ a, (cfg0.win w).index ⟨t.val + 1, h⟩ a = (cfg0.win w).index t a := by decide +kernel

variable (m : (ℓ : Loc nD τ sig) → Buf (Elt F) ℓ)

theorem bX_succ (c : Dev nD) (t : Fin cfg0.N) (h : t.val + 1 < cfg0.N) (hq : (t.val + 1) % 8 ≠ 0) :
    bX m c ⟨t.val + 1, h⟩ = bX m c t := by
  funext y
  show iblk m c 0 ⟨t.val + 1, h⟩ y = iblk m c 0 t y
  unfold iblk
  rw [View.read_apply, View.read_apply]
  show _root_.cast _ (V m c (Pipeline.arrRef spec0 0) ((cfg0.win 0).arr.view.emb (((cfg0.win 0).rect ⟨t.val + 1, h⟩).emb y)))
    = _root_.cast _ (V m c (Pipeline.arrRef spec0 0) ((cfg0.win 0).arr.view.emb (((cfg0.win 0).rect t).emb y)))
  congr 3
  all_goals
    funext a; apply Fin.ext
    rw [Rect.emb_apply, Rect.emb_apply]
    show (cfg0.win 0).index ⟨t.val + 1, h⟩ a * (cfg0.win 0).size a + 1 * (y a).val = (cfg0.win 0).index t a * (cfg0.win 0).size a + 1 * (y a).val
    rw [index_succ 0 (by decide) t h hq a]

theorem bWk_succ (c : Dev nD) (t : Fin cfg0.N) (h : t.val + 1 < cfg0.N) (hq : (t.val + 1) % 8 ≠ 0) :
    bWk m c ⟨t.val + 1, h⟩ = bWk m c t := by
  funext y
  show iblk m c 2 ⟨t.val + 1, h⟩ y = iblk m c 2 t y
  unfold iblk
  rw [View.read_apply, View.read_apply]
  show _root_.cast _ (V m c (Pipeline.arrRef spec0 2) ((cfg0.win 2).arr.view.emb (((cfg0.win 2).rect ⟨t.val + 1, h⟩).emb y)))
    = _root_.cast _ (V m c (Pipeline.arrRef spec0 2) ((cfg0.win 2).arr.view.emb (((cfg0.win 2).rect t).emb y)))
  congr 3
  all_goals
    funext a; apply Fin.ext
    rw [Rect.emb_apply, Rect.emb_apply]
    show (cfg0.win 2).index ⟨t.val + 1, h⟩ a * (cfg0.win 2).size a + 1 * (y a).val = (cfg0.win 2).index t a * (cfg0.win 2).size a + 1 * (y a).val
    rw [index_succ 2 (by decide) t h hq a]

theorem bWv_succ (c : Dev nD) (t : Fin cfg0.N) (h : t.val + 1 < cfg0.N) (hq : (t.val + 1) % 8 ≠ 0) :
    bWv m c ⟨t.val + 1, h⟩ = bWv m c t := by
  funext y
  show iblk m c 3 ⟨t.val + 1, h⟩ y = iblk m c 3 t y
  unfold iblk
  rw [View.read_apply, View.read_apply]
  show _root_.cast _ (V m c (Pipeline.arrRef spec0 3) ((cfg0.win 3).arr.view.emb (((cfg0.win 3).rect ⟨t.val + 1, h⟩).emb y)))
    = _root_.cast _ (V m c (Pipeline.arrRef spec0 3) ((cfg0.win 3).arr.view.emb (((cfg0.win 3).rect t).emb y)))
  congr 3
  all_goals
    funext a; apply Fin.ext
    rw [Rect.emb_apply, Rect.emb_apply]
    show (cfg0.win 3).index ⟨t.val + 1, h⟩ a * (cfg0.win 3).size a + 1 * (y a).val = (cfg0.win 3).index t a * (cfg0.win 3).size a + 1 * (y a).val
    rw [index_succ 3 (by decide) t h hq a]

theorem bBk_succ (c : Dev nD) (t : Fin cfg0.N) (h : t.val + 1 < cfg0.N) (hq : (t.val + 1) % 8 ≠ 0) :
    bBk m c ⟨t.val + 1, h⟩ = bBk m c t := by
  funext y
  show iblk m c 5 ⟨t.val + 1, h⟩ y = iblk m c 5 t y
  unfold iblk
  rw [View.read_apply, View.read_apply]
  show _root_.cast _ (V m c (Pipeline.arrRef spec0 5) ((cfg0.win 5).arr.view.emb (((cfg0.win 5).rect ⟨t.val + 1, h⟩).emb y)))
    = _root_.cast _ (V m c (Pipeline.arrRef spec0 5) ((cfg0.win 5).arr.view.emb (((cfg0.win 5).rect t).emb y)))
  congr 3
  all_goals
    funext a; apply Fin.ext
    rw [Rect.emb_apply, Rect.emb_apply]
    show (cfg0.win 5).index ⟨t.val + 1, h⟩ a * (cfg0.win 5).size a + 1 * (y a).val = (cfg0.win 5).index t a * (cfg0.win 5).size a + 1 * (y a).val
    rw [index_succ 5 (by decide) t h hq a]

theorem bBv_succ (c : Dev nD) (t : Fin cfg0.N) (h : t.val + 1 < cfg0.N) (hq : (t.val + 1) % 8 ≠ 0) :
    bBv m c ⟨t.val + 1, h⟩ = bBv m c t := by
  funext y
  show iblk m c 6 ⟨t.val + 1, h⟩ y = iblk m c 6 t y
  unfold iblk
  rw [View.read_apply, View.read_apply]
  show _root_.cast _ (V m c (Pipeline.arrRef spec0 6) ((cfg0.win 6).arr.view.emb (((cfg0.win 6).rect ⟨t.val + 1, h⟩).emb y)))
    = _root_.cast _ (V m c (Pipeline.arrRef spec0 6) ((cfg0.win 6).arr.view.emb (((cfg0.win 6).rect t).emb y)))
  congr 3
  all_goals
    funext a; apply Fin.ext
    rw [Rect.emb_apply, Rect.emb_apply]
    show (cfg0.win 6).index ⟨t.val + 1, h⟩ a * (cfg0.win 6).size a + 1 * (y a).val = (cfg0.win 6).index t a * (cfg0.win 6).size a + 1 * (y a).val
    rw [index_succ 6 (by decide) t h hq a]

theorem keysF_succ (c : Dev nD) (t : Fin cfg0.N) (h : t.val + 1 < cfg0.N) (hq : (t.val + 1) % 8 ≠ 0) :
    keysF m c ⟨t.val + 1, h⟩ = keysF m c t := by
  unfold keysF; rw [bX_succ m c t h hq, bWk_succ m c t h hq, bBk_succ m c t h hq]

theorem valuesF_succ (c : Dev nD) (t : Fin cfg0.N) (h : t.val + 1 < cfg0.N) (hq : (t.val + 1) % 8 ≠ 0) :
    valuesF m c ⟨t.val + 1, h⟩ = valuesF m c t := by
  unfold valuesF; rw [bX_succ m c t h hq, bWv_succ m c t h hq, bBv_succ m c t h hq]

theorem pt_succ (t : Fin cfg0.N) (h : t.val + 1 < cfg0.N) (hq : (t.val + 1) % 8 ≠ 0) (q : Fin 8) :
    pt ⟨t.val + 1, h⟩ q = pt t q := by
  apply Fin.ext; show t.val + 1 - (t.val + 1) % 8 + q.val = t.val - t.val % 8 + q.val; omega

theorem attnF_succ (c : Dev nD) (t : Fin cfg0.N) (h : t.val + 1 < cfg0.N) (hq : (t.val + 1) % 8 ≠ 0) :
    attnF m c ⟨t.val + 1, h⟩ = attnF m c t := by
  funext y; unfold attnF; rw [pt_succ t h hq]

/-- A point is the point of its own query tile in its batch. -/
theorem pt_self (t : Fin cfg0.N) (q : Fin 8) (hq : q.val = t.val % 8) : pt t q = t := by
  apply Fin.ext; show t.val - t.val % 8 + q.val = t.val; omega

/-- What the scratch buffers hold before position `n` of the grid (after point `n - 1`): nothing is said before a
    batch's first point, where the caches are about to be rebuilt and the attention output restarted. -/
def Inv (c : Dev nD) (n : ℕ) (hn : n ≤ cfg0.N) (xk xv : Vec F S8x2048x48 .bf16) (xo : Vec F S8x2048x48 .f32) : Prop :=
  ∀ hq : n % 8 ≠ 0,
    xk = keysF m c ⟨n, by have h : cfg0.N = 64 := N_0; omega⟩ ∧ xv = valuesF m c ⟨n, by have h : cfg0.N = 64 := N_0; omega⟩
      ∧ ∀ y : S8x2048x48.Idx, (y 1).val < 256 * (n % 8) → xo y = attnF m c ⟨n, by have h : cfg0.N = 64 := N_0; omega⟩ y

/-- Storing a point's tile over contents that agree with the batch's attention output below the tile's rows leaves contents
    that agree with it below the end of the tile's rows. -/
theorem attn_store (c : Dev nD) (t : Fin cfg0.N) (a : Memref sig .tc .vmem S8x2048x48 .f32) (ha : a.IsWhole)
    (xo : Vec F S8x2048x48 .f32) (hprev : ∀ y : S8x2048x48.Idx, (y 1).val < 256 * (t.val % 8) → xo y = attnF m c t y)
    (y : S8x2048x48.Idx) (hy : (y 1).val < 256 * (t.val % 8 + 1)) :
    a.view.read (Elt F) (a.view.writes (Elt F) (ha.unread xo) [⟨rO (grid0.coords t), tileF m c t⟩]) y = attnF m c t y := by
  by_cases hlo : 256 * (t.val % 8) ≤ (y 1).val
  · -- the row lies in the tile just stored
    have hy0 : (y 0).val < 8 := (y 0).isLt
    have hy2 : (y 2).val < 48 := (y 2).isLt
    let x : (rO (grid0.coords t)).shape.Idx := fun a => match a with
      | ⟨0, _⟩ => ⟨(y 0).val, hy0⟩
      | ⟨1, _⟩ => ⟨(y 1).val - 256 * (t.val % 8), by show _ < 256; omega⟩
      | ⟨2, _⟩ => ⟨(y 2).val, hy2⟩
    have hx : (rO (grid0.coords t)).emb x = y := by
      funext a; apply Fin.ext
      rw [Rect.emb_apply]
      show k0_off3 (grid0.coords t) a + 1 * (x a).val = (y a).val
      rw [off3_eq t]
      match a with
      | ⟨0, _⟩ => show 0 + 1 * (y 0).val = (y 0).val; omega
      | ⟨1, _⟩ => show 256 * (t.val % 8) + 1 * ((y 1).val - 256 * (t.val % 8)) = (y 1).val; omega
      | ⟨2, _⟩ => show 0 + 1 * (y 2).val = (y 2).val; omega
    rw [← hx, View.read_writes_cons_emb, hx]
    unfold attnF
    have hq : (⟨(y 1).val / 256, by have h : (y 1).val < 2048 := (y 1).isLt; omega⟩ : Fin 8).val = t.val % 8 := by
      show (y 1).val / 256 = t.val % 8; omega
    rw [pt_self t _ hq]
    refine congrArg (tileF m c t) ?_
    funext a; apply Fin.ext
    match a with
    | ⟨0, _⟩ => rfl
    | ⟨1, _⟩ => show (y 1).val - 256 * (t.val % 8) = (y 1).val % 256; omega
    | ⟨2, _⟩ => rfl
  · -- the row lies below the tile: the store does not touch it
    have hnot : y ∉ (rO (grid0.coords t)).set := by
      rw [Rect.mem_set_unit]
      intro hall
      have h1 := (hall 1).1
      rw [off3_eq t] at h1
      have : 256 * (t.val % 8) ≤ (y 1).val := h1
      omega
    rw [View.read_writes_apply_of_forall_not_mem _ _ y _ (by
      intro p hp; rw [List.mem_singleton] at hp; subst hp; exact hnot), ha.read_unread]
    exact hprev y (by omega)

end Cert.Kernel.Body

end
-- ==== Proof.KernelNorm.lean ====
/-
  The pieces the runs leave, at a grid point's own memrefs and blocks, are the point's closed forms: the whole-cache
  stores of the first query tile leave the batch's keys and values; every point's store into the attention output is the
  point's tile; the last query tile's store into the output block is the batch's output.
-/
import proofs.«115193_j84473416778245_2_alg».proof.Proof.KernelPieces
import proofs.«115193_j84473416778245_2_alg».proof.Proof.KernelInv

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole rectangle of a cache places an index at itself. -/
theorem rC_emb (y : S8x2048x48.Idx) : rC.emb y = y := by
  funext a; apply Fin.ext
  rw [Rect.emb_apply]
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A store of a whole cache leaves what was stored, whatever the cache held. -/
theorem read_whole_store {e : EltTy} (a : Memref sig .tc .vmem S8x2048x48 e) (f : a.view.ty.Contents (Elt F)) (w : Vec F S8x2048x48 e) :
    a.view.read (Elt F) (a.view.writes (Elt F) f [⟨rC, w⟩]) = w := by
  funext y
  exact (congrArg (a.view.read (Elt F) (a.view.writes (Elt F) f [⟨rC, w⟩])) (rC_emb y).symm).trans
    (View.read_writes_cons_emb a.view f rC w [] y)

/-- A load of the whole of a buffer reads its contents. -/
theorem ld_rC {e : EltTy} (X : Vec F S8x2048x48 e) : View.ld X rC = X := by
  funext y
  show X (rC.idx y) = X y
  exact congrArg X (rC_emb y)

/-- The whole rectangle of an input or output block places an index at itself. -/
theorem rX_emb (y : S1x2048x384.Idx) : rX.emb y = y := by
  funext a; apply Fin.ext
  rw [Rect.emb_apply]
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A store of a whole block leaves what was stored, whatever the buffer held. -/
theorem read_whole_storeX (a : Memref sig .tc .vmem S1x2048x384 .f32) (f : a.view.ty.Contents (Elt F)) (w : Vec F S1x2048x384 .f32) :
    a.view.read (Elt F) (a.view.writes (Elt F) f [⟨rX, w⟩]) = w := by
  funext y
  exact (congrArg (a.view.read (Elt F) (a.view.writes (Elt F) f [⟨rX, w⟩])) (rX_emb y).symm).trans
    (View.read_writes_cons_emb a.view f rX w [] y)

variable (m : (ℓ : Loc nD τ sig) → Buf (Elt F) ℓ)

theorem keysOf_eq (c : Dev nD) (t : Fin cfg0.N) : keysOf (ms0 t) (hs0 t) (ms2 t) (hs2 t) (ms5 t) (hs5 t) (iblk m c 0 t) (iblk m c 2 t) (iblk m c 5 t) = keysF m c t := by
  unfold keysOf keysF; rw [rd_eq, rd_eq, rd_eq]

theorem valuesOf_eq (c : Dev nD) (t : Fin cfg0.N) : valuesOf (ms0 t) (hs0 t) (ms3 t) (hs3 t) (ms6 t) (hs6 t) (iblk m c 0 t) (iblk m c 3 t) (iblk m c 6 t) = valuesF m c t := by
  unfold valuesOf valuesF; rw [rd_eq, rd_eq, rd_eq]

set_option maxHeartbeats 2000000 in
/-- At a point whose caches hold the batch's keys and values, the tile the body stores is the point's tile. -/
theorem tileAt_eq (c : Dev nD) (t : Fin cfg0.N) (xk xv : Vec F S8x2048x48 .bf16)
    (hk : xk = keysF m c t) (hv : xv = valuesF m c t) :
    tileAt (grid0.coords t) (ms0 t) (hs0 t) (ms1 t) (hs1 t) (ms4 t) (hs4 t) scK scV (iblk m c 0 t) (iblk m c 1 t) (iblk m c 4 t) ((Memref.isWhole_whole cc0_scratch0).unread xk) ((Memref.isWhole_whole cc0_scratch1).unread xv) = tileF m c t := by
  subst hk; subst hv
  have hk : ∀ j : Fin 8, View.readAt (Elt F) scK.view (rT j).toLoadRect ((Memref.isWhole_whole cc0_scratch0).unread (keysF m c t))
      = View.ld (keysF m c t) (rT j) := fun j => by
    rw [View.readAt_eq_ld, (Memref.isWhole_whole cc0_scratch0).read_unread]
  have hv : ∀ j : Fin 8, View.readAt (Elt F) scV.view (rT j).toLoadRect ((Memref.isWhole_whole cc0_scratch1).unread (valuesF m c t))
      = View.ld (valuesF m c t) (rT j) := fun j => by
    rw [View.readAt_eq_ld, (Memref.isWhole_whole cc0_scratch1).read_unread]
  unfold tileAt tileF
  rw [rdQ_eq, rd_eq, rd_eq, hk 0, hv 0, hk 1, hv 1, hk 2, hv 2, hk 3, hv 3, hk 4, hv 4, hk 5, hv 5, hk 6, hv 6, hk 7, hv 7]

set_option maxHeartbeats 2000000 in
/-- At a batch's first point the key and value tiles are read out of the caches just stored: the same tile. -/
theorem tileFirst_eq (c : Dev nD) (t : Fin cfg0.N) :
    tileOf (rdQ (grid0.coords t) (ms0 t) (hs0 t) (iblk m c 0 t)) (rd (ms1 t) (hs1 t) (iblk m c 1 t) rW) (rd (ms4 t) (hs4 t) (iblk m c 4 t) rB)
        (scK.view.readCov [⟨rC, keysOf (ms0 t) (hs0 t) (ms2 t) (hs2 t) (ms5 t) (hs5 t) (iblk m c 0 t) (iblk m c 2 t) (iblk m c 5 t)⟩] (rT 0).toLoadRect) (scV.view.readCov [⟨rC, valuesOf (ms0 t) (hs0 t) (ms3 t) (hs3 t) (ms6 t) (hs6 t) (iblk m c 0 t) (iblk m c 3 t) (iblk m c 6 t)⟩] (rT 0).toLoadRect)
        (scK.view.readCov [⟨rC, keysOf (ms0 t) (hs0 t) (ms2 t) (hs2 t) (ms5 t) (hs5 t) (iblk m c 0 t) (iblk m c 2 t) (iblk m c 5 t)⟩] (rT 1).toLoadRect) (scV.view.readCov [⟨rC, valuesOf (ms0 t) (hs0 t) (ms3 t) (hs3 t) (ms6 t) (hs6 t) (iblk m c 0 t) (iblk m c 3 t) (iblk m c 6 t)⟩] (rT 1).toLoadRect)
        (scK.view.readCov [⟨rC, keysOf (ms0 t) (hs0 t) (ms2 t) (hs2 t) (ms5 t) (hs5 t) (iblk m c 0 t) (iblk m c 2 t) (iblk m c 5 t)⟩] (rT 2).toLoadRect) (scV.view.readCov [⟨rC, valuesOf (ms0 t) (hs0 t) (ms3 t) (hs3 t) (ms6 t) (hs6 t) (iblk m c 0 t) (iblk m c 3 t) (iblk m c 6 t)⟩] (rT 2).toLoadRect)
        (scK.view.readCov [⟨rC, keysOf (ms0 t) (hs0 t) (ms2 t) (hs2 t) (ms5 t) (hs5 t) (iblk m c 0 t) (iblk m c 2 t) (iblk m c 5 t)⟩] (rT 3).toLoadRect) (scV.view.readCov [⟨rC, valuesOf (ms0 t) (hs0 t) (ms3 t) (hs3 t) (ms6 t) (hs6 t) (iblk m c 0 t) (iblk m c 3 t) (iblk m c 6 t)⟩] (rT 3).toLoadRect)
        (scK.view.readCov [⟨rC, keysOf (ms0 t) (hs0 t) (ms2 t) (hs2 t) (ms5 t) (hs5 t) (iblk m c 0 t) (iblk m c 2 t) (iblk m c 5 t)⟩] (rT 4).toLoadRect) (scV.view.readCov [⟨rC, valuesOf (ms0 t) (hs0 t) (ms3 t) (hs3 t) (ms6 t) (hs6 t) (iblk m c 0 t) (iblk m c 3 t) (iblk m c 6 t)⟩] (rT 4).toLoadRect)
        (scK.view.readCov [⟨rC, keysOf (ms0 t) (hs0 t) (ms2 t) (hs2 t) (ms5 t) (hs5 t) (iblk m c 0 t) (iblk m c 2 t) (iblk m c 5 t)⟩] (rT 5).toLoadRect) (scV.view.readCov [⟨rC, valuesOf (ms0 t) (hs0 t) (ms3 t) (hs3 t) (ms6 t) (hs6 t) (iblk m c 0 t) (iblk m c 3 t) (iblk m c 6 t)⟩] (rT 5).toLoadRect)
        (scK.view.readCov [⟨rC, keysOf (ms0 t) (hs0 t) (ms2 t) (hs2 t) (ms5 t) (hs5 t) (iblk m c 0 t) (iblk m c 2 t) (iblk m c 5 t)⟩] (rT 6).toLoadRect) (scV.view.readCov [⟨rC, valuesOf (ms0 t) (hs0 t) (ms3 t) (hs3 t) (ms6 t) (hs6 t) (iblk m c 0 t) (iblk m c 3 t) (iblk m c 6 t)⟩] (rT 6).toLoadRect)
        (scK.view.readCov [⟨rC, keysOf (ms0 t) (hs0 t) (ms2 t) (hs2 t) (ms5 t) (hs5 t) (iblk m c 0 t) (iblk m c 2 t) (iblk m c 5 t)⟩] (rT 7).toLoadRect) (scV.view.readCov [⟨rC, valuesOf (ms0 t) (hs0 t) (ms3 t) (hs3 t) (ms6 t) (hs6 t) (iblk m c 0 t) (iblk m c 3 t) (iblk m c 6 t)⟩] (rT 7).toLoadRect)
      = tileF m c t := by
  have hk : ∀ j : Fin 8, scK.view.readCov (Val := Elt F) [⟨rC, keysOf (ms0 t) (hs0 t) (ms2 t) (hs2 t) (ms5 t) (hs5 t) (iblk m c 0 t) (iblk m c 2 t) (iblk m c 5 t)⟩] (rT j).toLoadRect = View.ld (keysF m c t) (rT j) := fun j => by
    unfold View.readCov; rw [View.readAt_eq_ld, read_whole_store, keysOf_eq]
  have hv : ∀ j : Fin 8, scV.view.readCov (Val := Elt F) [⟨rC, valuesOf (ms0 t) (hs0 t) (ms3 t) (hs3 t) (ms6 t) (hs6 t) (iblk m c 0 t) (iblk m c 3 t) (iblk m c 6 t)⟩] (rT j).toLoadRect = View.ld (valuesF m c t) (rT j) := fun j => by
    unfold View.readCov; rw [View.readAt_eq_ld, read_whole_store, valuesOf_eq]
  unfold tileF
  rw [rdQ_eq, rd_eq, rd_eq, hk 0, hv 0, hk 1, hv 1, hk 2, hv 2, hk 3, hv 3, hk 4, hv 4, hk 5, hv 5, hk 6, hv 6, hk 7, hv 7]

set_option maxHeartbeats 2000000 in
/-- At a batch's last point, over an attention output that already agrees with the batch's on the rows of the first seven
    tiles, the block stored is the batch's output. -/
theorem outLast_eq (c : Dev nD) (t : Fin cfg0.N) (h7 : t.val % 8 = 7) (xo : Vec F S8x2048x48 .f32)
    (hprev : ∀ y : S8x2048x48.Idx, (y 1).val < 256 * (t.val % 8) → xo y = attnF m c t y) :
    k0_pay2 (View.readAt (Elt F) scO.view rC.toLoadRect
        (scO.view.writes (Elt F) ((Memref.isWhole_whole cc0_scratch2).unread xo) [⟨rO (grid0.coords t), tileF m c t⟩]))
      (rd (ms7 t) (hs7 t) (iblk m c 7 t) rW) (rd (ms8 t) (hs8 t) (iblk m c 8 t) rB) = outF m c t := by
  unfold outF
  rw [rd_eq, rd_eq, View.readAt_eq_ld]
  have hall : scO.view.read (Elt F) (scO.view.writes (Elt F) ((Memref.isWhole_whole cc0_scratch2).unread xo) [⟨rO (grid0.coords t), tileF m c t⟩]) = attnF m c t := by
    funext y
    exact attn_store m c t scO (Memref.isWhole_whole cc0_scratch2) xo hprev y (by have h : (y 1).val < 2048 := (y 1).isLt; omega)
  rw [hall]

end Cert.Kernel.Body

end
-- ==== Proof.KernelFrameData.lean ====
/-
  The proof data of the fused attention kernel's frame: the region invariant carries the three scratch buffers from
  point to point at contents satisfying `Inv`; after the body each input's staging buffer holds its block and, at a
  batch's last query tile, the output's holds the batch's output `outF`.
-/
import proofs.«115193_j84473416778245_2_alg».proof.Proof.KernelNorm

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The region invariant before position `n`: the three scratch buffers at contents satisfying `Inv`, and the generator
    register at some state. -/
def PhiS (c : Dev nD) (n : ℕ) (hn : n ≤ cfg0.N) : sProp 𝕄 :=
  iprop(∃ xk : Vec F S8x2048x48 .bf16, ∃ xv : Vec F S8x2048x48 .bf16, ∃ xo : Vec F S8x2048x48 .f32,
    ⌜Inv m c n hn xk xv xo⌝ ∗ iprop(owns (c : Thread nD τ) scK fullShare xk ∗ owns (c : Thread nD τ) scV fullShare xv ∗ owns (c : Thread nD τ) scO fullShare xo)
      ∗ (∃ r, prngReg c r))

/-- The proof data of the pipeline on core `c`: the arrays as the region finds them; after the body at point `t` each
    input's buffer at its block and the output's at the batch's output; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outF m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outF m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- After a batch's first point: the caches hold what was just stored, the attention output its first tile. -/
theorem inv_first (c : Dev nD) (t : Fin cfg0.N) (h0 : t.val % 8 = 0) (xo : Vec F S8x2048x48 .f32) :
    Inv m c (t.val + 1) t.isLt (keysF m c t) (valuesF m c t)
      (scO.view.read (Elt F) (scO.view.writes (Elt F) ((Memref.isWhole_whole cc0_scratch2).unread xo) [⟨rO (grid0.coords t), tileF m c t⟩])) := by
  intro hq
  have hN : t.val < 64 := lt_of_lt_of_eq t.isLt (show cfg0.N = 64 from N_0)
  have hlt : t.val + 1 < cfg0.N := by have h : cfg0.N = 64 := N_0; omega
  refine ⟨(keysF_succ m c t hlt hq).symm, (valuesF_succ m c t hlt hq).symm, fun y hy => ?_⟩
  rw [attnF_succ m c t hlt hq]
  exact attn_store m c t scO (Memref.isWhole_whole cc0_scratch2) xo (fun y hy' => by omega) y (by omega)

/-- After a later point: the caches are untouched, the attention output has one more tile. -/
theorem inv_step (c : Dev nD) (t : Fin cfg0.N) (h0 : t.val % 8 ≠ 0) (xk xv : Vec F S8x2048x48 .bf16) (xo : Vec F S8x2048x48 .f32)
    (hinv : Inv m c t.val (Nat.le_of_lt t.isLt) xk xv xo) :
    Inv m c (t.val + 1) t.isLt xk xv
      (scO.view.read (Elt F) (scO.view.writes (Elt F) ((Memref.isWhole_whole cc0_scratch2).unread xo) [⟨rO (grid0.coords t), tileF m c t⟩])) := by
  intro hq
  obtain ⟨hk, hv, ho⟩ := hinv h0
  have hlt : t.val + 1 < cfg0.N := by have h : cfg0.N = 64 := N_0; have := t.isLt; omega
  refine ⟨hk.trans (keysF_succ m c t hlt hq).symm, hv.trans (valuesF_succ m c t hlt hq).symm, fun y hy => ?_⟩
  rw [attnF_succ m c t hlt hq]
  exact attn_store m c t scO (Memref.isWhole_whole cc0_scratch2) xo ho y (by omega)

end Cert.Kernel.Body

end
-- ==== Proof.KernelFrameFirst.lean ====
/-
  The body at a batch's first query tile: the caches are rebuilt, the attention output restarted with its first tile; the output block is left idle.
-/
import proofs.«115193_j84473416778245_2_alg».proof.Proof.KernelFrameData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What the key cache holds after a batch's first point: the batch's keys. -/
theorem firstK_read (c : Dev nD) (t : Fin cfg0.N) (hc1 : condFirst (grid0.coords t)) (hc2 : ¬condLast (grid0.coords t))
    (x9 : Vec F S1x2048x384 .f32) (xk xv : Vec F S8x2048x48 .bf16) (xo : Vec F S8x2048x48 .f32) :
    scK.view.read (Elt F) (scK.view.writes (Elt F) ((Memref.isWhole_whole cc0_scratch0).unread xk) (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) scO (Memref.isWhole_whole _) hc1 hc2 (iblk m c 0 t) (iblk m c 1 t) (iblk m c 2 t) (iblk m c 3 t) (iblk m c 4 t) (iblk m c 5 t) (iblk m c 6 t) (iblk m c 7 t) (iblk m c 8 t) x9 xk xv xo).1)
      = keysF m c t := by
  rw [runFirst_piecesK, read_whole_store, keysOf_eq]

/-- What the value cache holds then: the batch's values. -/
theorem firstV_read (c : Dev nD) (t : Fin cfg0.N) (hc1 : condFirst (grid0.coords t)) (hc2 : ¬condLast (grid0.coords t))
    (x9 : Vec F S1x2048x384 .f32) (xk xv : Vec F S8x2048x48 .bf16) (xo : Vec F S8x2048x48 .f32) :
    scV.view.read (Elt F) (scV.view.writes (Elt F) ((Memref.isWhole_whole cc0_scratch1).unread xv) (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) scO (Memref.isWhole_whole _) hc1 hc2 (iblk m c 0 t) (iblk m c 1 t) (iblk m c 2 t) (iblk m c 3 t) (iblk m c 4 t) (iblk m c 5 t) (iblk m c 6 t) (iblk m c 7 t) (iblk m c 8 t) x9 xk xv xo).2.1)
      = valuesF m c t := by
  rw [runFirst_piecesV, read_whole_store, valuesOf_eq]

/-- What the attention output holds then: the point's tile stored over what it held. -/
theorem firstO_read (c : Dev nD) (t : Fin cfg0.N) (hc1 : condFirst (grid0.coords t)) (hc2 : ¬condLast (grid0.coords t))
    (x9 : Vec F S1x2048x384 .f32) (xk xv : Vec F S8x2048x48 .bf16) (xo : Vec F S8x2048x48 .f32) :
    scO.view.read (Elt F) (scO.view.writes (Elt F) ((Memref.isWhole_whole cc0_scratch2).unread xo) (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) scO (Memref.isWhole_whole _) hc1 hc2 (iblk m c 0 t) (iblk m c 1 t) (iblk m c 2 t) (iblk m c 3 t) (iblk m c 4 t) (iblk m c 5 t) (iblk m c 6 t) (iblk m c 7 t) (iblk m c 8 t) x9 xk xv xo).2.2.1)
      = scO.view.read (Elt F) (scO.view.writes (Elt F) ((Memref.isWhole_whole cc0_scratch2).unread xo) [⟨rO (grid0.coords t), tileF m c t⟩]) := by
  rw [runFirst_piecesO, tileFirst_eq]

set_option maxHeartbeats 8000000 in
theorem sound_first (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl,
    show (dats m 0 c).Φ t.castSucc = PhiS m c t.val (Nat.le_of_lt t.isLt) from by dsimp only [dats]; simp only [Fin.coe_castSucc]]
  rw [show (dats m 0 c).leavesExact 0 t = owns (c : Thread nD τ) (ms0 t) fullShare ((dats m 0 c).after 0 t) from by
    unfold Dat.leavesExact; rw [liveIn 0 (by decide) t], after_0]
  rw [show (dats m 0 c).leavesExact 1 t = owns (c : Thread nD τ) (ms1 t) fullShare ((dats m 0 c).after 1 t) from by
    unfold Dat.leavesExact; rw [liveIn 1 (by decide) t], after_1]
  rw [show (dats m 0 c).leavesExact 2 t = owns (c : Thread nD τ) (ms2 t) fullShare ((dats m 0 c).after 2 t) from by
    unfold Dat.leavesExact; rw [liveIn 2 (by decide) t], after_2]
  rw [show (dats m 0 c).leavesExact 3 t = owns (c : Thread nD τ) (ms3 t) fullShare ((dats m 0 c).after 3 t) from by
    unfold Dat.leavesExact; rw [liveIn 3 (by decide) t], after_3]
  rw [show (dats m 0 c).leavesExact 4 t = owns (c : Thread nD τ) (ms4 t) fullShare ((dats m 0 c).after 4 t) from by
    unfold Dat.leavesExact; rw [liveIn 4 (by decide) t], after_4]
  rw [show (dats m 0 c).leavesExact 5 t = owns (c : Thread nD τ) (ms5 t) fullShare ((dats m 0 c).after 5 t) from by
    unfold Dat.leavesExact; rw [liveIn 5 (by decide) t], after_5]
  rw [show (dats m 0 c).leavesExact 6 t = owns (c : Thread nD τ) (ms6 t) fullShare ((dats m 0 c).after 6 t) from by
    unfold Dat.leavesExact; rw [liveIn 6 (by decide) t], after_6]
  rw [show (dats m 0 c).leavesExact 7 t = owns (c : Thread nD τ) (ms7 t) fullShare ((dats m 0 c).after 7 t) from by
    unfold Dat.leavesExact; rw [liveIn 7 (by decide) t], after_7]
  rw [show (dats m 0 c).leavesExact 8 t = owns (c : Thread nD τ) (ms8 t) fullShare ((dats m 0 c).after 8 t) from by
    unfold Dat.leavesExact; rw [liveIn 8 (by decide) t], after_8]
  have hN : t.val < 64 := lt_of_lt_of_eq t.isLt (show cfg0.N = 64 from N_0)
  unfold PhiS
  have hc1 : condFirst (grid0.coords t) := (hcondFirst t).mpr h0
  have hc2 : ¬condLast (grid0.coords t) := fun h => by have := (hcondLast t).mp h; omega
  rw [Dat.leavesExact_idle (dats m 0 c) 9 t (idleOut t hc2) (noFlushOut t hc2)]
  iintro ⟨⟨%xk, %xv, %xo, %hinv, ⟨HK, HV, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) scO (Memref.isWhole_whole _) hc1 hc2 (iblk m c 0 t) (iblk m c 1 t) (iblk m c 2 t) (iblk m c 3 t) (iblk m c 4 t) (iblk m c 5 t) (iblk m c 6 t) (iblk m c 7 t) (iblk m c 8 t) ((dats m 0 c).before 9 t d9) xk xv xo).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HK]; · iexact HK
  isplitl [HV]; · iexact HV
  isplitl [HO]; · iexact HO
  iintro ⟨H0, H1, H2, H3, H4, H5, H6, H7, H8, H9, HK, HV, HO⟩
  isplitl [HK HV HO Hg]
  · iexists _, _, _
    isplitr
    swap
    · isplitl [HK HV HO]
      · isplitl [HK]
        · unfold owns; iexists _; isplitr
          swap; · iexact HK
          ipureintro; rfl
        isplitl [HV]
        · unfold owns; iexists _; isplitr
          swap; · iexact HV
          ipureintro; rfl
        unfold owns; iexists _; isplitr
        swap; · iexact HO
        ipureintro; rfl
      iexact Hg
    ipureintro
    rw [firstK_read m c t hc1 hc2, firstV_read m c t hc1 hc2, firstO_read m c t hc1 hc2]
    exact inv_first m c t h0 xo
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.Kernel.Body

end
-- ==== Proof.KernelFrameMid.lean ====
/-
  The body at a query tile that is neither a batch's first nor its last: the caches are read, one more tile of the attention output is stored; the output block is left idle.
-/
import proofs.«115193_j84473416778245_2_alg».proof.Proof.KernelFrameData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 8000000 in
theorem sound_mid (c : Dev nD) (t : Fin cfg0.N) (h0 : t.val % 8 ≠ 0) (h7 : t.val % 8 ≠ 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl,
    show (dats m 0 c).Φ t.castSucc = PhiS m c t.val (Nat.le_of_lt t.isLt) from by dsimp only [dats]; simp only [Fin.coe_castSucc]]
  rw [show (dats m 0 c).leavesExact 0 t = owns (c : Thread nD τ) (ms0 t) fullShare ((dats m 0 c).after 0 t) from by
    unfold Dat.leavesExact; rw [liveIn 0 (by decide) t], after_0]
  rw [show (dats m 0 c).leavesExact 1 t = owns (c : Thread nD τ) (ms1 t) fullShare ((dats m 0 c).after 1 t) from by
    unfold Dat.leavesExact; rw [liveIn 1 (by decide) t], after_1]
  rw [show (dats m 0 c).leavesExact 2 t = owns (c : Thread nD τ) (ms2 t) fullShare ((dats m 0 c).after 2 t) from by
    unfold Dat.leavesExact; rw [liveIn 2 (by decide) t], after_2]
  rw [show (dats m 0 c).leavesExact 3 t = owns (c : Thread nD τ) (ms3 t) fullShare ((dats m 0 c).after 3 t) from by
    unfold Dat.leavesExact; rw [liveIn 3 (by decide) t], after_3]
  rw [show (dats m 0 c).leavesExact 4 t = owns (c : Thread nD τ) (ms4 t) fullShare ((dats m 0 c).after 4 t) from by
    unfold Dat.leavesExact; rw [liveIn 4 (by decide) t], after_4]
  rw [show (dats m 0 c).leavesExact 5 t = owns (c : Thread nD τ) (ms5 t) fullShare ((dats m 0 c).after 5 t) from by
    unfold Dat.leavesExact; rw [liveIn 5 (by decide) t], after_5]
  rw [show (dats m 0 c).leavesExact 6 t = owns (c : Thread nD τ) (ms6 t) fullShare ((dats m 0 c).after 6 t) from by
    unfold Dat.leavesExact; rw [liveIn 6 (by decide) t], after_6]
  rw [show (dats m 0 c).leavesExact 7 t = owns (c : Thread nD τ) (ms7 t) fullShare ((dats m 0 c).after 7 t) from by
    unfold Dat.leavesExact; rw [liveIn 7 (by decide) t], after_7]
  rw [show (dats m 0 c).leavesExact 8 t = owns (c : Thread nD τ) (ms8 t) fullShare ((dats m 0 c).after 8 t) from by
    unfold Dat.leavesExact; rw [liveIn 8 (by decide) t], after_8]
  have hN : t.val < 64 := lt_of_lt_of_eq t.isLt (show cfg0.N = 64 from N_0)
  unfold PhiS
  have hc1 : ¬condFirst (grid0.coords t) := fun h => h0 ((hcondFirst t).mp h)
  have hc2 : ¬condLast (grid0.coords t) := fun h => h7 ((hcondLast t).mp h)
  rw [Dat.leavesExact_idle (dats m 0 c) 9 t (idleOut t hc2) (noFlushOut t hc2)]
  iintro ⟨⟨%xk, %xv, %xo, %hinv, ⟨HK, HV, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) scO (Memref.isWhole_whole _) hc1 hc2 (iblk m c 0 t) (iblk m c 1 t) (iblk m c 2 t) (iblk m c 3 t) (iblk m c 4 t) (iblk m c 5 t) (iblk m c 6 t) (iblk m c 7 t) (iblk m c 8 t) ((dats m 0 c).before 9 t d9) xk xv xo).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HK]; · iexact HK
  isplitl [HV]; · iexact HV
  isplitl [HO]; · iexact HO
  iintro ⟨H0, H1, H2, H3, H4, H5, H6, H7, H8, H9, HK, HV, HO⟩
  isplitl [HK HV HO Hg]
  · iexists _, _, _
    isplitr
    swap
    · isplitl [HK HV HO]
      · isplitl [HK]
        · iexact HK
        isplitl [HV]
        · iexact HV
        unfold owns; iexists _; isplitr
        swap; · iexact HO
        ipureintro; rfl
      iexact Hg
    ipureintro
    rw [runMid_pieces, tileAt_eq m c t xk xv (hinv h0).1 (hinv h0).2.1]
    exact inv_step m c t h0 xk xv xo hinv
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.Kernel.Body

end
-- ==== Proof.KernelFrameLast.lean ====
/-
  The body at a batch's last query tile: the last tile of the attention output is stored, the whole of it is projected, and the output block is stored with the batch's output.
-/
import proofs.«115193_j84473416778245_2_alg».proof.Proof.KernelFrameData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 8000000 in
theorem sound_last (c : Dev nD) (t : Fin cfg0.N) (h0 : t.val % 8 ≠ 0) (h7 : t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl,
    show (dats m 0 c).Φ t.castSucc = PhiS m c t.val (Nat.le_of_lt t.isLt) from by dsimp only [dats]; simp only [Fin.coe_castSucc]]
  rw [show (dats m 0 c).leavesExact 0 t = owns (c : Thread nD τ) (ms0 t) fullShare ((dats m 0 c).after 0 t) from by
    unfold Dat.leavesExact; rw [liveIn 0 (by decide) t], after_0]
  rw [show (dats m 0 c).leavesExact 1 t = owns (c : Thread nD τ) (ms1 t) fullShare ((dats m 0 c).after 1 t) from by
    unfold Dat.leavesExact; rw [liveIn 1 (by decide) t], after_1]
  rw [show (dats m 0 c).leavesExact 2 t = owns (c : Thread nD τ) (ms2 t) fullShare ((dats m 0 c).after 2 t) from by
    unfold Dat.leavesExact; rw [liveIn 2 (by decide) t], after_2]
  rw [show (dats m 0 c).leavesExact 3 t = owns (c : Thread nD τ) (ms3 t) fullShare ((dats m 0 c).after 3 t) from by
    unfold Dat.leavesExact; rw [liveIn 3 (by decide) t], after_3]
  rw [show (dats m 0 c).leavesExact 4 t = owns (c : Thread nD τ) (ms4 t) fullShare ((dats m 0 c).after 4 t) from by
    unfold Dat.leavesExact; rw [liveIn 4 (by decide) t], after_4]
  rw [show (dats m 0 c).leavesExact 5 t = owns (c : Thread nD τ) (ms5 t) fullShare ((dats m 0 c).after 5 t) from by
    unfold Dat.leavesExact; rw [liveIn 5 (by decide) t], after_5]
  rw [show (dats m 0 c).leavesExact 6 t = owns (c : Thread nD τ) (ms6 t) fullShare ((dats m 0 c).after 6 t) from by
    unfold Dat.leavesExact; rw [liveIn 6 (by decide) t], after_6]
  rw [show (dats m 0 c).leavesExact 7 t = owns (c : Thread nD τ) (ms7 t) fullShare ((dats m 0 c).after 7 t) from by
    unfold Dat.leavesExact; rw [liveIn 7 (by decide) t], after_7]
  rw [show (dats m 0 c).leavesExact 8 t = owns (c : Thread nD τ) (ms8 t) fullShare ((dats m 0 c).after 8 t) from by
    unfold Dat.leavesExact; rw [liveIn 8 (by decide) t], after_8]
  have hN : t.val < 64 := lt_of_lt_of_eq t.isLt (show cfg0.N = 64 from N_0)
  unfold PhiS
  have hc1 : ¬condFirst (grid0.coords t) := fun h => h0 ((hcondFirst t).mp h)
  have hc2 : condLast (grid0.coords t) := (hcondLast t).mpr h7
  rw [show (dats m 0 c).leavesExact 9 t = owns (c : Thread nD τ) (ms9 t) fullShare ((dats m 0 c).after 9 t) from by
    unfold Dat.leavesExact; rw [liveOut t hc2], after_9]
  iintro ⟨⟨%xk, %xv, %xo, %hinv, ⟨HK, HV, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) scO (Memref.isWhole_whole _) hc1 hc2 (iblk m c 0 t) (iblk m c 1 t) (iblk m c 2 t) (iblk m c 3 t) (iblk m c 4 t) (iblk m c 5 t) (iblk m c 6 t) (iblk m c 7 t) (iblk m c 8 t) ((dats m 0 c).before 9 t d9) xk xv xo).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HK]; · iexact HK
  isplitl [HV]; · iexact HV
  isplitl [HO]; · iexact HO
  iintro ⟨H0, H1, H2, H3, H4, H5, H6, H7, H8, H9, HK, HV, HO⟩
  obtain ⟨hk, hv, ho⟩ := hinv h0
  isplitl [HK HV HO Hg]
  · iexists _, _, _
    isplitr
    swap
    · isplitl [HK HV HO]
      · isplitl [HK]
        · iexact HK
        isplitl [HV]
        · iexact HV
        unfold owns; iexists _; isplitr
        swap; · iexact HO
        ipureintro; rfl
      iexact Hg
    ipureintro
    intro hq; exfalso; omega
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  rw [runLast_pieces9, tileAt_eq m c t xk xv hk hv, read_whole_storeX]
  exact outLast_eq m c t h7 xo ho

end Cert.Kernel.Body

end
-- ==== Proof.KernelFrame.lean ====
/-
  The frame of the fused attention kernel: every grid point's body runs (by cases on the point's query tile), so the
  whole program runs to the end, faults nowhere and leaves its argument arrays unchanged; the run's post names the output
  array through the proof data.
-/
import proofs.«115193_j84473416778245_2_alg».proof.Proof.KernelFrameFirst
import proofs.«115193_j84473416778245_2_alg».proof.Proof.KernelFrameMid
import proofs.«115193_j84473416778245_2_alg».proof.Proof.KernelFrameLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_first m c t h0
  · by_cases h7 : t.val % 8 = 7
    · exact sound_last m c t h0 h7
    · exact sound_mid m c t h0 h7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is asked of the scratch there. -/
theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%xk, HK⟩, ⟨%xv, HV⟩, ⟨%xo, HO⟩⟩, Hg⟩
  iexists xk, xv, xo
  isplitr
  · ipureintro; intro hq; exact absurd rfl hq
  isplitl [HK HV HO]
  · isplitl [HK]; · iexact HK
    isplitl [HV]; · iexact HV
    iexact HO
  iexact Hg

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨%xk, %xv, %xo, -, ⟨HK, HV, HO⟩, Hg⟩
  isplitl [HK HV HO]
  · isplitl [HK]; · iexists _; iexact HK
    isplitl [HV]; · iexists _; iexact HV
    iexists _; iexact HO
  iexact Hg

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KernelIdealCases.lean ====
/-
  The fused attention kernel runs on a grid of 8 batches by 8 query tiles, the query tile moving fastest. Its body
  branches twice on the query-tile coordinate: at tile 0 it fills the key and value caches of the batch, at tile 7 it
  projects the batch's accumulated attention output into the output block. This module decides those two conditions
  over the grid, says where the output window is idle, and names the memrefs the body is called with.
-/
import proofs.«115193_j84473416778245_2_alg».proof.Proof.Gen.KernelIdeal.Frame
import proofs.«115193_j84473416778245_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch's condition: the query-tile coordinate is 0. -/
abbrev condFirst (i : grid0.Coords) : Prop := (Scalar.cmpi .ne (Scalar.extui (Scalar.cmpi .eq (BitVec.ofNat 32 (i 1).val) 0#32)) 0#32) = 1#1
/-- It holds at the points whose position is a multiple of 8. -/
theorem hcondFirst : ∀ t : Fin cfg0.N, condFirst (grid0.coords t) ↔ t.val % 8 = 0 :=
  (by decide +kernel : ∀ t : Fin grid0.N, condFirst (grid0.coords t) ↔ t.val % 8 = 0)

/-- The second branch's condition: the query-tile coordinate is 7. -/
abbrev condLast (i : grid0.Coords) : Prop := k0_cond2 i = 1#1
/-- It holds at the points whose position is 7 modulo 8. -/
theorem hcondLast : ∀ t : Fin cfg0.N, condLast (grid0.coords t) ↔ t.val % 8 = 7 :=
  (by decide +kernel : ∀ t : Fin grid0.N, condLast (grid0.coords t) ↔ t.val % 8 = 7)

/-- The input windows are never idle. -/
theorem liveIn : ∀ (w : Fin 10), w.val < 9 → ∀ t : Fin cfg0.N, cfg0.idle w (grid0.coords t) = false := by decide +kernel
/-- Away from the last query tile the output window is idle and is not written back. -/
theorem idleOut : ∀ t : Fin cfg0.N, ¬condLast (grid0.coords t) → cfg0.idle 9 (grid0.coords t) = true := by decide +kernel
theorem noFlushOut : ∀ t : Fin cfg0.N, ¬condLast (grid0.coords t) → (cfg0.win 9).flush t = false := by decide +kernel
/-- At the last query tile the body stores the output block. -/
theorem liveOut : ∀ t : Fin cfg0.N, condLast (grid0.coords t) → cfg0.idle 9 (grid0.coords t) = false := by decide +kernel

/-- Each window's current staging memref at point `t`, as the pipeline passes it, and its wholeness. -/
abbrev ms0 (t : Fin cfg0.N) : Memref sig .tc .vmem S1x2048x384 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S384x384 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S384x384 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S384x384 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x384 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x384 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x384 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S384x384 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x384 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x2048x384 .f32 := win0_9.stage (cfg0.slots t 9)
abbrev hs9 (t : Fin cfg0.N) : (ms9 t).IsWhole := hstage0_9 ((cfg0.slots t 9).cast nbuf0_9)

/-- The three scratch operands: the key cache, the value cache and the attention output of one batch. -/
abbrev scK : Memref sig .tc .vmem S8x2048x48 .bf16 := Memref.whole cc0_scratch0
abbrev scV : Memref sig .tc .vmem S8x2048x48 .bf16 := Memref.whole cc0_scratch1
abbrev scO : Memref sig .tc .vmem S8x2048x48 .f32 := Memref.whole cc0_scratch2

/-- The region's class invariant with the three scratch buffers as memrefs owned at some contents. -/
theorem PhiA_eq (c : Dev nD) :
    (Pipeline.ΦA spec0 c : sProp 𝕄)
      = iprop(iprop((∃ d, owns (c : Thread nD τ) scK fullShare d) ∗ (∃ d, owns (c : Thread nD τ) scV fullShare d) ∗ (∃ d, owns (c : Thread nD τ) scO fullShare d)) ∗ (∃ r, prngReg c r)) := by
  unfold Pipeline.ΦA; rw [scopedRest0_eq]; simp only [scK, scV, scO, owns_whole]; try rfl

end Cert.KernelIdeal.Body

end
-- ==== Proof.KernelIdealRunFirst.lean ====
/-
  The body at the first query tile of a batch: it first fills the key cache and the value cache from the batch's whole
  input block, then does what every tile does — projects the tile's queries, walks the eight key tiles of the caches
  accumulating the head-softmax-weighted values, and stores the tile's rows of the attention output.
-/
import proofs.«115193_j84473416778245_2_alg».proof.Proof.KernelIdealCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple at a batch's first query tile, every buffer whole at named contents: the inputs and the output block are handed back as found, the two caches and the attention output with the pieces the run finds written over what they held. -/
noncomputable def runFirst (c : Dev nD) (i : grid0.Coords) (arg2 : Memref sig .tc .vmem S1x2048x384 .f32) (harg2 : arg2.IsWhole) (arg3 : Memref sig .tc .vmem S384x384 .f32) (harg3 : arg3.IsWhole) (arg4 : Memref sig .tc .vmem S384x384 .f32) (harg4 : arg4.IsWhole) (arg5 : Memref sig .tc .vmem S384x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S384x384 .f32) (harg9 : arg9.IsWhole) (arg10 : Memref sig .tc .vmem S1x384 .f32) (harg10 : arg10.IsWhole) (arg11 : Memref sig .tc .vmem S1x2048x384 .f32) (harg11 : arg11.IsWhole) (arg12 : Memref sig .tc .vmem S8x2048x48 .bf16) (harg12 : arg12.IsWhole) (arg13 : Memref sig .tc .vmem S8x2048x48 .bf16) (harg13 : arg13.IsWhole) (arg14 : Memref sig .tc .vmem S8x2048x48 .f32) (harg14 : arg14.IsWhole) (hc1 : condFirst i) (hc2 : ¬condLast i)
    (x0 : Vec F S1x2048x384 .f32) (x1 : Vec F S384x384 .f32) (x2 : Vec F S384x384 .f32) (x3 : Vec F S384x384 .f32) (x4 : Vec F S1x384 .f32) (x5 : Vec F S1x384 .f32) (x6 : Vec F S1x384 .f32) (x7 : Vec F S384x384 .f32) (x8 : Vec F S1x384 .f32) (x9 : Vec F S1x2048x384 .f32) (xk : Vec F S8x2048x48 .bf16) (xv : Vec F S8x2048x48 .bf16) (xo : Vec F S8x2048x48 .f32) :
    Σ' (LK : List (View.Piece (Elt F) S8x2048x48 .bf16)), Σ' (LV : List (View.Piece (Elt F) S8x2048x48 .bf16)), { LO : List (View.Piece (Elt F) S8x2048x48 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xk ∗ owns (c : Thread nD τ) arg13 fullShare xv ∗ owns (c : Thread nD τ) arg14 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (arg12.view.loc (c : Thread nD τ) ↦[arg12.view.set]{fullShare} arg12.view.writes (Elt F) (harg12.unread xk) LK) ∗ (arg13.view.loc (c : Thread nD τ) ↦[arg13.view.set]{fullShare} arg13.view.writes (Elt F) (harg13.unread xv) LV) ∗ (arg14.view.loc (c : Thread nD τ) ↦[arg14.view.set]{fullShare} arg14.view.writes (Elt F) (harg14.unread xo) LO)) -∗ K ⟨⟩))
          ⊢ wp frame (wpE (defs₀ (F := F)) Variants.none c none) E (cc0__attn_proj_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__attn_proj_kernel_eq_skeleton]; unfold cc0__attn_proj_kernel_skel
    repeat (first | (simp only [k0_part5_eq_skeleton]; unfold k0_part5_skel) | (simp only [k0_part4_eq_skeleton]; unfold k0_part4_skel) | (simp only [k0_part3_eq_skeleton]; unfold k0_part3_skel) | (simp only [k0_part2_eq_skeleton]; unfold k0_part2_skel) | (simp only [k0_part1_eq_skeleton]; unfold k0_part1_skel))
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexact H10
    isplitl [H11]
    · iexact H11
    · iexact H12

end Cert.KernelIdeal.Body

end
-- ==== Proof.KernelIdealRunMid.lean ====
/-
  The body at a point whose query tile is neither the first nor the last: it projects the tile's queries, walks the eight
  key tiles of the caches accumulating the head-softmax-weighted values, and stores the tile's rows of the attention
  output; nothing else is written.
-/
import proofs.«115193_j84473416778245_2_alg».proof.Proof.KernelIdealCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple at a middle query tile, every buffer whole at named contents: the inputs, the output block and both caches are handed back as found, the attention output with the pieces `LO` (found by the run) written over what it held. -/
noncomputable def runMid (c : Dev nD) (i : grid0.Coords) (arg2 : Memref sig .tc .vmem S1x2048x384 .f32) (harg2 : arg2.IsWhole) (arg3 : Memref sig .tc .vmem S384x384 .f32) (harg3 : arg3.IsWhole) (arg4 : Memref sig .tc .vmem S384x384 .f32) (harg4 : arg4.IsWhole) (arg5 : Memref sig .tc .vmem S384x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S384x384 .f32) (harg9 : arg9.IsWhole) (arg10 : Memref sig .tc .vmem S1x384 .f32) (harg10 : arg10.IsWhole) (arg11 : Memref sig .tc .vmem S1x2048x384 .f32) (harg11 : arg11.IsWhole) (arg12 : Memref sig .tc .vmem S8x2048x48 .bf16) (harg12 : arg12.IsWhole) (arg13 : Memref sig .tc .vmem S8x2048x48 .bf16) (harg13 : arg13.IsWhole) (arg14 : Memref sig .tc .vmem S8x2048x48 .f32) (harg14 : arg14.IsWhole) (hc1 : ¬condFirst i) (hc2 : ¬condLast i)
    (x0 : Vec F S1x2048x384 .f32) (x1 : Vec F S384x384 .f32) (x2 : Vec F S384x384 .f32) (x3 : Vec F S384x384 .f32) (x4 : Vec F S1x384 .f32) (x5 : Vec F S1x384 .f32) (x6 : Vec F S1x384 .f32) (x7 : Vec F S384x384 .f32) (x8 : Vec F S1x384 .f32) (x9 : Vec F S1x2048x384 .f32) (xk : Vec F S8x2048x48 .bf16) (xv : Vec F S8x2048x48 .bf16) (xo : Vec F S8x2048x48 .f32) :
    { LO : List (View.Piece (Elt F) S8x2048x48 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xk ∗ owns (c : Thread nD τ) arg13 fullShare xv ∗ owns (c : Thread nD τ) arg14 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xk ∗ owns (c : Thread nD τ) arg13 fullShare xv ∗ (arg14.view.loc (c : Thread nD τ) ↦[arg14.view.set]{fullShare} arg14.view.writes (Elt F) (harg14.unread xo) LO)) -∗ K ⟨⟩))
          ⊢ wp frame (wpE (defs₀ (F := F)) Variants.none c none) E (cc0__attn_proj_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__attn_proj_kernel_eq_skeleton]; unfold cc0__attn_proj_kernel_skel
    repeat (first | (simp only [k0_part5_eq_skeleton]; unfold k0_part5_skel) | (simp only [k0_part4_eq_skeleton]; unfold k0_part4_skel) | (simp only [k0_part3_eq_skeleton]; unfold k0_part3_skel) | (simp only [k0_part2_eq_skeleton]; unfold k0_part2_skel) | (simp only [k0_part1_eq_skeleton]; unfold k0_part1_skel))
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    · iexact H12

end Cert.KernelIdeal.Body

end
-- ==== Proof.KernelIdealRunLast.lean ====
/-
  The body at the last query tile of a batch: it does what every tile does — projects the tile's queries, walks the eight
  key tiles of the caches accumulating the head-softmax-weighted values, stores the tile's rows of the attention output —
  and then reads the whole attention output of the batch, reinterprets it as a 2048 by 384 matrix without permuting,
  projects it and stores the output block.
-/
import proofs.«115193_j84473416778245_2_alg».proof.Proof.KernelIdealCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple at a batch's last query tile, every buffer whole at named contents: the inputs and both caches are handed back as found, the attention output and the output block with the pieces the run finds written over what they held. -/
noncomputable def runLast (c : Dev nD) (i : grid0.Coords) (arg2 : Memref sig .tc .vmem S1x2048x384 .f32) (harg2 : arg2.IsWhole) (arg3 : Memref sig .tc .vmem S384x384 .f32) (harg3 : arg3.IsWhole) (arg4 : Memref sig .tc .vmem S384x384 .f32) (harg4 : arg4.IsWhole) (arg5 : Memref sig .tc .vmem S384x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S384x384 .f32) (harg9 : arg9.IsWhole) (arg10 : Memref sig .tc .vmem S1x384 .f32) (harg10 : arg10.IsWhole) (arg11 : Memref sig .tc .vmem S1x2048x384 .f32) (harg11 : arg11.IsWhole) (arg12 : Memref sig .tc .vmem S8x2048x48 .bf16) (harg12 : arg12.IsWhole) (arg13 : Memref sig .tc .vmem S8x2048x48 .bf16) (harg13 : arg13.IsWhole) (arg14 : Memref sig .tc .vmem S8x2048x48 .f32) (harg14 : arg14.IsWhole) (hc1 : ¬condFirst i) (hc2 : condLast i)
    (x0 : Vec F S1x2048x384 .f32) (x1 : Vec F S384x384 .f32) (x2 : Vec F S384x384 .f32) (x3 : Vec F S384x384 .f32) (x4 : Vec F S1x384 .f32) (x5 : Vec F S1x384 .f32) (x6 : Vec F S1x384 .f32) (x7 : Vec F S384x384 .f32) (x8 : Vec F S1x384 .f32) (x9 : Vec F S1x2048x384 .f32) (xk : Vec F S8x2048x48 .bf16) (xv : Vec F S8x2048x48 .bf16) (xo : Vec F S8x2048x48 .f32) :
    Σ' (L9 : List (View.Piece (Elt F) S1x2048x384 .f32)), { LO : List (View.Piece (Elt F) S8x2048x48 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xk ∗ owns (c : Thread nD τ) arg13 fullShare xv ∗ owns (c : Thread nD τ) arg14 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (arg11.view.loc (c : Thread nD τ) ↦[arg11.view.set]{fullShare} arg11.view.writes (Elt F) (harg11.unread x9) L9) ∗ owns (c : Thread nD τ) arg12 fullShare xk ∗ owns (c : Thread nD τ) arg13 fullShare xv ∗ (arg14.view.loc (c : Thread nD τ) ↦[arg14.view.set]{fullShare} arg14.view.writes (Elt F) (harg14.unread xo) LO)) -∗ K ⟨⟩))
          ⊢ wp frame (wpE (defs₀ (F := F)) Variants.none c none) E (cc0__attn_proj_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__attn_proj_kernel_eq_skeleton]; unfold cc0__attn_proj_kernel_skel
    repeat (first | (simp only [k0_part5_eq_skeleton]; unfold k0_part5_skel) | (simp only [k0_part4_eq_skeleton]; unfold k0_part4_skel) | (simp only [k0_part3_eq_skeleton]; unfold k0_part3_skel) | (simp only [k0_part2_eq_skeleton]; unfold k0_part2_skel) | (simp only [k0_part1_eq_skeleton]; unfold k0_part1_skel))
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexact H9
    isplitl [H10]
    · iexists _; isplitr; · ipureintro; exact harg12.read_unread _
      iexact H10
    isplitl [H11]
    · iexists _; isplitr; · ipureintro; exact harg13.read_unread _
      iexact H11
    · iexact H12

end Cert.KernelIdeal.Body

end
-- ==== Proof.KernelIdealData.lean ====
/-
  What one grid point computes, as pure functions of the values it loads.

  A query tile is 256 consecutive positions of a batch. Its projected queries meet the eight key tiles of the key
  cache one after the other; for each key tile the scores are scaled, the softmax is taken across the eight heads, the
  weights multiply the value tile, and the eight partial products are added up in order. `tileOf` is that sum: the
  256 rows of the batch's attention output the point stores.
-/
import proofs.«115193_j84473416778245_2_alg».proof.Proof.KernelIdealCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The rows of the attention output computed at one grid point, from the tile of the input it loads (`v8`), the
    query weights and bias (`v10`, `v14`) and the eight key and value tiles of the caches. -/
def tileOf (v8 : Vec F S256x384 .f32) (v10 : Vec F S384x384 .f32) (v14 : Vec F S1x384 .f32) (k0 v0 : Vec F S8x256x48 .bf16) (k1 v1 : Vec F S8x256x48 .bf16) (k2 v2 : Vec F S8x256x48 .bf16) (k3 v3 : Vec F S8x256x48 .bf16) (k4 v4 : Vec F S8x256x48 .bf16) (k5 v5 : Vec F S8x256x48 .bf16) (k6 v6 : Vec F S8x256x48 .bf16) (k7 v7 : Vec F S8x256x48 .bf16) :
    FVec F S8x256x48 .f32 :=
  k0_pay1 (k0_pay14 (k0_pay6 v8 v10 v14)
    (k0_pay13 (k0_pay6 v8 v10 v14)
      (k0_pay12 (k0_pay6 v8 v10 v14)
        (k0_pay10 (k0_pay6 v8 v10 v14) (k0_pay7 (F := F)) v0 (k0_pay8 v8 v10 v14 k0) (k0_pay9 v8 v10 v14 k0) k1 v1)
        v2 (k0_pay11 (k0_pay6 v8 v10 v14) k2) k3 v3)
      k4 v4 (constant S8x256x256 .f32 0x00000000#32) k5 v5)
    k6 v6 k7 v7)

/-- The rectangles the body loads and stores through. -/
abbrev rX : Rect S1x2048x384 := Rect.unit (s := S1x2048x384) ![0, 0, 0] S1x2048x384.size inb_S1x2048x384_S1x2048x384_0_0_0
abbrev rW : Rect S384x384 := Rect.unit (s := S384x384) ![0, 0] S384x384.size inb_S384x384_S384x384_0_0
abbrev rB : Rect S1x384 := Rect.unit (s := S1x384) ![0, 0] S1x384.size inb_S1x384_S1x384_0_0
abbrev rC : Rect S8x2048x48 := Rect.unit (s := S8x2048x48) ![0, 0, 0] S8x2048x48.size inb_S8x2048x48_S8x2048x48_0_0_0
/-- Key tile `j` of a cache: rows `256 j` to `256 j + 255` of every head. -/
abbrev rT (j : Fin 8) : Rect S8x2048x48 := Rect.unit (s := S8x2048x48) (k0_off2 (BitVec.ofNat 32 j.val)) S8x256x48.size (k0_off2_inb j)
/-- The query tile's rows of the attention output. -/
abbrev rO (i : grid0.Coords) : Rect S8x2048x48 := Rect.unit (s := S8x2048x48) (k0_off3 i) S8x256x48.size (k0_off3_inb i)

/-- A load through a rectangle of a whole memref holding `X`. -/
abbrev rd {s : Shape} {e : EltTy} (a : Memref sig .tc .vmem s e) (ha : a.IsWhole) (X : Vec F s e) (R : Rect s) : R.shape.Idx → Elt F e :=
  View.readAt (Elt F) a.view R.toLoadRect (ha.unread X)

/-- The query tile's rows of the batch's input block, loaded through the block seen as a matrix. -/
abbrev rdQ (i : grid0.Coords) (a : Memref sig .tc .vmem S1x2048x384 .f32) (ha : a.IsWhole) (X : Vec F S1x2048x384 .f32) : Vec F S256x384 .f32 :=
  View.readAt (Elt F) ((a.slice rX (fun _ => rfl)).squeeze S2048x384 squeezes_S1x2048x384_S2048x384).view
    (Rect.unit (s := S2048x384) (k0_off1 i) S256x384.size (k0_off1_inb i)).toLoadRect (ha.unread X)

variable (c : Dev nD) (i : grid0.Coords) (arg2 : Memref sig .tc .vmem S1x2048x384 .f32) (harg2 : arg2.IsWhole) (arg3 : Memref sig .tc .vmem S384x384 .f32) (harg3 : arg3.IsWhole) (arg4 : Memref sig .tc .vmem S384x384 .f32) (harg4 : arg4.IsWhole) (arg5 : Memref sig .tc .vmem S384x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S384x384 .f32) (harg9 : arg9.IsWhole) (arg10 : Memref sig .tc .vmem S1x384 .f32) (harg10 : arg10.IsWhole) (arg11 : Memref sig .tc .vmem S1x2048x384 .f32) (harg11 : arg11.IsWhole) (arg12 : Memref sig .tc .vmem S8x2048x48 .bf16) (harg12 : arg12.IsWhole) (arg13 : Memref sig .tc .vmem S8x2048x48 .bf16) (harg13 : arg13.IsWhole) (arg14 : Memref sig .tc .vmem S8x2048x48 .f32) (harg14 : arg14.IsWhole)
    (x0 : Vec F S1x2048x384 .f32) (x1 : Vec F S384x384 .f32) (x2 : Vec F S384x384 .f32) (x3 : Vec F S384x384 .f32) (x4 : Vec F S1x384 .f32) (x5 : Vec F S1x384 .f32) (x6 : Vec F S1x384 .f32) (x7 : Vec F S384x384 .f32) (x8 : Vec F S1x384 .f32) (x9 : Vec F S1x2048x384 .f32) (xk : Vec F S8x2048x48 .bf16) (xv : Vec F S8x2048x48 .bf16) (xo : Vec F S8x2048x48 .f32)

/-- The tile a point stores, over the buffers' named contents: the input block `x0`, the query weights `x1` and bias
    `x4`, and the caches' contents `ck`, `cv` as the memrefs `arg12`, `arg13` hold them. -/
abbrev tileAt (ck : arg12.view.ty.Contents (Elt F)) (cv : arg13.view.ty.Contents (Elt F)) : FVec F S8x256x48 .f32 :=
  tileOf (rdQ i arg2 harg2 x0) (rd arg3 harg3 x1 rW) (rd arg6 harg6 x4 rB)
    (View.readAt (Elt F) arg12.view (rT 0).toLoadRect ck) (View.readAt (Elt F) arg13.view (rT 0).toLoadRect cv)
    (View.readAt (Elt F) arg12.view (rT 1).toLoadRect ck) (View.readAt (Elt F) arg13.view (rT 1).toLoadRect cv)
    (View.readAt (Elt F) arg12.view (rT 2).toLoadRect ck) (View.readAt (Elt F) arg13.view (rT 2).toLoadRect cv)
    (View.readAt (Elt F) arg12.view (rT 3).toLoadRect ck) (View.readAt (Elt F) arg13.view (rT 3).toLoadRect cv)
    (View.readAt (Elt F) arg12.view (rT 4).toLoadRect ck) (View.readAt (Elt F) arg13.view (rT 4).toLoadRect cv)
    (View.readAt (Elt F) arg12.view (rT 5).toLoadRect ck) (View.readAt (Elt F) arg13.view (rT 5).toLoadRect cv)
    (View.readAt (Elt F) arg12.view (rT 6).toLoadRect ck) (View.readAt (Elt F) arg13.view (rT 6).toLoadRect cv)
    (View.readAt (Elt F) arg12.view (rT 7).toLoadRect ck) (View.readAt (Elt F) arg13.view (rT 7).toLoadRect cv)

end Cert.KernelIdeal.Body

end
-- ==== Proof.KernelIdealPieces.lean ====
/-
  The pieces each run leaves, identified: at every point the one store into the attention output is the point's tile
  (`tileOf` of the values loaded there); at a batch's first query tile the two caches are stored whole, and the key
  and value tiles are then read back out of what was just stored; at its last query tile the whole attention output
  is read back, projected and stored into the output block.
-/
import proofs.«115193_j84473416778245_2_alg».proof.Proof.KernelIdealRunFirst
import proofs.«115193_j84473416778245_2_alg».proof.Proof.KernelIdealRunMid
import proofs.«115193_j84473416778245_2_alg».proof.Proof.KernelIdealRunLast
import proofs.«115193_j84473416778245_2_alg».proof.Proof.KernelIdealData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x2048x384 .f32) (harg2 : arg2.IsWhole) (arg3 : Memref sig .tc .vmem S384x384 .f32) (harg3 : arg3.IsWhole) (arg4 : Memref sig .tc .vmem S384x384 .f32) (harg4 : arg4.IsWhole) (arg5 : Memref sig .tc .vmem S384x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S384x384 .f32) (harg9 : arg9.IsWhole) (arg10 : Memref sig .tc .vmem S1x384 .f32) (harg10 : arg10.IsWhole) (arg11 : Memref sig .tc .vmem S1x2048x384 .f32) (harg11 : arg11.IsWhole) (arg12 : Memref sig .tc .vmem S8x2048x48 .bf16) (harg12 : arg12.IsWhole) (arg13 : Memref sig .tc .vmem S8x2048x48 .bf16) (harg13 : arg13.IsWhole) (arg14 : Memref sig .tc .vmem S8x2048x48 .f32) (harg14 : arg14.IsWhole)
    (x0 : Vec F S1x2048x384 .f32) (x1 : Vec F S384x384 .f32) (x2 : Vec F S384x384 .f32) (x3 : Vec F S384x384 .f32) (x4 : Vec F S1x384 .f32) (x5 : Vec F S1x384 .f32) (x6 : Vec F S1x384 .f32) (x7 : Vec F S384x384 .f32) (x8 : Vec F S1x384 .f32) (x9 : Vec F S1x2048x384 .f32) (xk : Vec F S8x2048x48 .bf16) (xv : Vec F S8x2048x48 .bf16) (xo : Vec F S8x2048x48 .f32)

/-- What the first query tile stores into the key cache: the keys of the batch's whole input block. -/
abbrev keysOf : FVec F S8x2048x48 .bf16 := k0_pay4 (rd arg2 harg2 x0 rX) (rd arg4 harg4 x2 rW) (rd arg7 harg7 x5 rB)
/-- What it stores into the value cache. -/
abbrev valuesOf : FVec F S8x2048x48 .bf16 := k0_pay5 (rd arg2 harg2 x0 rX) (rd arg5 harg5 x3 rW) (rd arg8 harg8 x6 rB)

set_option maxHeartbeats 4000000 in
set_option maxRecDepth 2000000 in
theorem runMid_pieces (hc1 : ¬condFirst i) (hc2 : ¬condLast i) :
    (runMid c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 x8 x9 xk xv xo).1
      = [⟨rO i, tileAt i arg2 harg2 arg3 harg3 arg6 harg6 arg12 arg13 x0 x1 x4 (harg12.unread xk) (harg13.unread xv)⟩] := by
  unfold runMid
  dsimp only
  sl_unfold_words
  rfl

set_option maxHeartbeats 4000000 in
set_option maxRecDepth 2000000 in
theorem runFirst_piecesK (hc1 : condFirst i) (hc2 : ¬condLast i) :
    (runFirst c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 x8 x9 xk xv xo).1
      = [⟨rC, keysOf arg2 harg2 arg4 harg4 arg7 harg7 x0 x2 x5⟩] := by
  unfold runFirst
  dsimp only
  sl_unfold_words
  rfl

set_option maxHeartbeats 4000000 in
set_option maxRecDepth 2000000 in
theorem runFirst_piecesV (hc1 : condFirst i) (hc2 : ¬condLast i) :
    (runFirst c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 x8 x9 xk xv xo).2.1
      = [⟨rC, valuesOf arg2 harg2 arg5 harg5 arg8 harg8 x0 x3 x6⟩] := by
  unfold runFirst
  dsimp only
  sl_unfold_words
  rfl

set_option maxHeartbeats 4000000 in
set_option maxRecDepth 2000000 in
theorem runFirst_piecesO (hc1 : condFirst i) (hc2 : ¬condLast i) :
    (runFirst c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 x8 x9 xk xv xo).2.2.1
      = [⟨rO i, tileOf (rdQ i arg2 harg2 x0) (rd arg3 harg3 x1 rW) (rd arg6 harg6 x4 rB)
          (arg12.view.readCov [⟨rC, keysOf arg2 harg2 arg4 harg4 arg7 harg7 x0 x2 x5⟩] (rT 0).toLoadRect) (arg13.view.readCov [⟨rC, valuesOf arg2 harg2 arg5 harg5 arg8 harg8 x0 x3 x6⟩] (rT 0).toLoadRect)
          (arg12.view.readCov [⟨rC, keysOf arg2 harg2 arg4 harg4 arg7 harg7 x0 x2 x5⟩] (rT 1).toLoadRect) (arg13.view.readCov [⟨rC, valuesOf arg2 harg2 arg5 harg5 arg8 harg8 x0 x3 x6⟩] (rT 1).toLoadRect)
          (arg12.view.readCov [⟨rC, keysOf arg2 harg2 arg4 harg4 arg7 harg7 x0 x2 x5⟩] (rT 2).toLoadRect) (arg13.view.readCov [⟨rC, valuesOf arg2 harg2 arg5 harg5 arg8 harg8 x0 x3 x6⟩] (rT 2).toLoadRect)
          (arg12.view.readCov [⟨rC, keysOf arg2 harg2 arg4 harg4 arg7 harg7 x0 x2 x5⟩] (rT 3).toLoadRect) (arg13.view.readCov [⟨rC, valuesOf arg2 harg2 arg5 harg5 arg8 harg8 x0 x3 x6⟩] (rT 3).toLoadRect)
          (arg12.view.readCov [⟨rC, keysOf arg2 harg2 arg4 harg4 arg7 harg7 x0 x2 x5⟩] (rT 4).toLoadRect) (arg13.view.readCov [⟨rC, valuesOf arg2 harg2 arg5 harg5 arg8 harg8 x0 x3 x6⟩] (rT 4).toLoadRect)
          (arg12.view.readCov [⟨rC, keysOf arg2 harg2 arg4 harg4 arg7 harg7 x0 x2 x5⟩] (rT 5).toLoadRect) (arg13.view.readCov [⟨rC, valuesOf arg2 harg2 arg5 harg5 arg8 harg8 x0 x3 x6⟩] (rT 5).toLoadRect)
          (arg12.view.readCov [⟨rC, keysOf arg2 harg2 arg4 harg4 arg7 harg7 x0 x2 x5⟩] (rT 6).toLoadRect) (arg13.view.readCov [⟨rC, valuesOf arg2 harg2 arg5 harg5 arg8 harg8 x0 x3 x6⟩] (rT 6).toLoadRect)
          (arg12.view.readCov [⟨rC, keysOf arg2 harg2 arg4 harg4 arg7 harg7 x0 x2 x5⟩] (rT 7).toLoadRect) (arg13.view.readCov [⟨rC, valuesOf arg2 harg2 arg5 harg5 arg8 harg8 x0 x3 x6⟩] (rT 7).toLoadRect)⟩] := by
  unfold runFirst
  dsimp only
  sl_unfold_words
  rfl

set_option maxHeartbeats 4000000 in
set_option maxRecDepth 2000000 in
theorem runLast_piecesO (hc1 : ¬condFirst i) (hc2 : condLast i) :
    (runLast c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 x8 x9 xk xv xo).2.1
      = [⟨rO i, tileAt i arg2 harg2 arg3 harg3 arg6 harg6 arg12 arg13 x0 x1 x4 (harg12.unread xk) (harg13.unread xv)⟩] := by
  unfold runLast
  dsimp only
  sl_unfold_words
  rfl

set_option maxHeartbeats 4000000 in
set_option maxRecDepth 2000000 in
theorem runLast_pieces9 (hc1 : ¬condFirst i) (hc2 : condLast i) :
    (runLast c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 x8 x9 xk xv xo).1
      = [⟨rX, k0_pay2 (View.readAt (Elt F) arg14.view rC.toLoadRect
            (arg14.view.writes (Elt F) (harg14.unread xo) [⟨rO i, tileAt i arg2 harg2 arg3 harg3 arg6 harg6 arg12 arg13 x0 x1 x4 (harg12.unread xk) (harg13.unread xv)⟩]))
          (rd arg9 harg9 x7 rW) (rd arg10 harg10 x8 rB)⟩] := by
  unfold runLast
  dsimp only
  sl_unfold_words
  rfl

end Cert.KernelIdeal.Body

end
-- ==== Proof.KernelIdealForms.lean ====
/-
  What the kernel's buffers hold, point by point, as functions of the argument blocks alone.

  A grid point is a pair (batch, query tile), the query tile moving fastest: point `t` has query tile `t % 8`, and its
  batch's eight points are `t - t % 8 + q`. At a point the pipeline presents each window's block; the batch's input block
  determines the keys and values of the batch (`keysF`, `valuesF`); a point's tile of attention output is `tileF`; the batch's
  whole attention output (`attnF`) is, at row `s`, the tile of point `s / 256` of the batch at row `s % 256`; and the output
  block (`outF`) is its projection after the matrix view `[8, 2048, 48] → [2048, 384]`.
-/
import proofs.«115193_j84473416778245_2_alg».proof.Proof.KernelIdealData
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A load through a rectangle of a whole memref holding `X` reads `X` at the rectangle's indices. -/
theorem rd_eq {s : Shape} {e : EltTy} (a : Memref sig .tc .vmem s e) (ha : a.IsWhole) (X : Vec F s e) (R : Rect s) :
    rd a ha X R = View.ld X R := by
  unfold rd; rw [View.readAt_eq_ld, ha.read_unread]

/-- The query tile's rows of a batch's input block: the block seen as a `[2048, 384]` matrix, cut at the tile's rows. -/
def xRows (X : Vec F S1x2048x384 .f32) (i : grid0.Coords) : Vec F S256x384 .f32 :=
  fun y => X (rX.emb (Shape.reshapeEquiv (squeezes_S1x2048x384_S2048x384).numel_eq
    ((Rect.unit (s := S2048x384) (k0_off1 i) S256x384.size (k0_off1_inb i)).toLoadRect.idx y)))

/-- The body's load of those rows, through the block's memref viewed as a matrix, reads them whatever the memref. -/
theorem rdQ_eq (i : grid0.Coords) (a : Memref sig .tc .vmem S1x2048x384 .f32) (ha : a.IsWhole) (X : Vec F S1x2048x384 .f32) :
    rdQ i a ha X = xRows X i := by
  funext y
  show a.view.read (Elt F) (ha.unread X) _ = _
  rw [ha.read_unread]
  rfl

variable (m : (ℓ : Loc nD τ sig) → Buf (Elt F) ℓ)

/-- The windows' blocks at a point, at their literal shapes: the batch's input, the three projection matrices and their
    biases (query, key, value), the output matrix and its bias. -/
abbrev bX (c : Dev nD) (t : Fin cfg0.N) : Vec F S1x2048x384 .f32 := iblk m c 0 t
abbrev bWq (c : Dev nD) (t : Fin cfg0.N) : Vec F S384x384 .f32 := iblk m c 1 t
abbrev bWk (c : Dev nD) (t : Fin cfg0.N) : Vec F S384x384 .f32 := iblk m c 2 t
abbrev bWv (c : Dev nD) (t : Fin cfg0.N) : Vec F S384x384 .f32 := iblk m c 3 t
abbrev bBq (c : Dev nD) (t : Fin cfg0.N) : Vec F S1x384 .f32 := iblk m c 4 t
abbrev bBk (c : Dev nD) (t : Fin cfg0.N) : Vec F S1x384 .f32 := iblk m c 5 t
abbrev bBv (c : Dev nD) (t : Fin cfg0.N) : Vec F S1x384 .f32 := iblk m c 6 t
abbrev bWo (c : Dev nD) (t : Fin cfg0.N) : Vec F S384x384 .f32 := iblk m c 7 t
abbrev bBo (c : Dev nD) (t : Fin cfg0.N) : Vec F S1x384 .f32 := iblk m c 8 t

/-- The keys of the batch of point `t`, head-major: what the batch's first point stores into the key cache. -/
def keysF (c : Dev nD) (t : Fin cfg0.N) : FVec F S8x2048x48 .bf16 :=
  k0_pay4 (View.ld (bX m c t) rX) (View.ld (bWk m c t) rW) (View.ld (bBk m c t) rB)
/-- Its values. -/
def valuesF (c : Dev nD) (t : Fin cfg0.N) : FVec F S8x2048x48 .bf16 :=
  k0_pay5 (View.ld (bX m c t) rX) (View.ld (bWv m c t) rW) (View.ld (bBv m c t) rB)

/-- The rows of attention output point `t` computes. -/
def tileF (c : Dev nD) (t : Fin cfg0.N) : FVec F S8x256x48 .f32 :=
  tileOf (xRows (bX m c t) (grid0.coords t)) (View.ld (bWq m c t) rW) (View.ld (bBq m c t) rB)
    (View.ld (keysF m c t) (rT 0)) (View.ld (valuesF m c t) (rT 0))
    (View.ld (keysF m c t) (rT 1)) (View.ld (valuesF m c t) (rT 1))
    (View.ld (keysF m c t) (rT 2)) (View.ld (valuesF m c t) (rT 2))
    (View.ld (keysF m c t) (rT 3)) (View.ld (valuesF m c t) (rT 3))
    (View.ld (keysF m c t) (rT 4)) (View.ld (valuesF m c t) (rT 4))
    (View.ld (keysF m c t) (rT 5)) (View.ld (valuesF m c t) (rT 5))
    (View.ld (keysF m c t) (rT 6)) (View.ld (valuesF m c t) (rT 6))
    (View.ld (keysF m c t) (rT 7)) (View.ld (valuesF m c t) (rT 7))

/-- Point `q` of the batch of point `t`. -/
def pt (t : Fin cfg0.N) (q : Fin 8) : Fin cfg0.N :=
  ⟨t.val - t.val % 8 + q.val, by have := t.isLt; have h : cfg0.N = 64 := N_0; omega⟩

/-- The attention output of the batch of point `t`: row `s` of head `h` is row `s % 256` of the tile of the batch's
    point `s / 256`. -/
def attnF (c : Dev nD) (t : Fin cfg0.N) : Vec F S8x2048x48 .f32 :=
  fun y => tileF m c (pt t ⟨(y 1).val / 256, by have h : (y 1).val < 2048 := (y 1).isLt; omega⟩)
    (ValueIdx.ix3 (y 0) ⟨(y 1).val % 256, Nat.mod_lt _ (by decide)⟩ (y 2))

/-- The output block of the batch of point `t`. -/
def outF (c : Dev nD) (t : Fin cfg0.N) : FVec F S1x2048x384 .f32 :=
  k0_pay2 (View.ld (attnF m c t) rC) (View.ld (bWo m c t) rW) (View.ld (bBo m c t) rB)

end Cert.KernelIdeal.Body

end
-- ==== Proof.KernelIdealInv.lean ====
/-
  What the three scratch buffers hold between grid points.

  Inside a batch nothing the caches depend on changes: the batch's input block and the weights' blocks are the same at
  consecutive points, so the keys and values computed at the batch's first point stay the keys and values of every later
  point, and the batch's attention output is one function for all its points. Before a point whose query tile is `q > 0`
  the key cache holds the batch's keys, the value cache its values, and the attention output buffer agrees with the
  batch's attention output on the rows below `256 q` (the tiles already stored). Storing the point's tile extends the
  agreement to the rows below `256 (q + 1)`.
-/
import proofs.«115193_j84473416778245_2_alg».proof.Proof.KernelIdealForms

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The tile's rows of the attention output start at row 256 times the query tile. -/
theorem off3_eq : ∀ t : Fin cfg0.N, k0_off3 (grid0.coords t) = ![0, 256 * (t.val % 8), 0] :=
  (by decide +kernel : ∀ t : Fin grid0.N, k0_off3 (grid0.coords t) = ![0, 256 * (t.val % 8), 0])

/-- Within a batch no input window's block index moves from one point to the next. -/
theorem index_succ : ∀ (w : Fin 10), w.val < 9 → ∀ (t : Fin cfg0.N) (h : t.val + 1 < cfg0.N), (t.val + 1) % 8 ≠ 0 →
    ∀ a, (cfg0.win w).index ⟨t.val + 1, h⟩ a = (cfg0.win w).index t a := by decide +kernel

variable (m : (ℓ : Loc nD τ sig) → Buf (Elt F) ℓ)

theorem bX_succ (c : Dev nD) (t : Fin cfg0.N) (h : t.val + 1 < cfg0.N) (hq : (t.val + 1) % 8 ≠ 0) :
    bX m c ⟨t.val + 1, h⟩ = bX m c t := by
  funext y
  show iblk m c 0 ⟨t.val + 1, h⟩ y = iblk m c 0 t y
  unfold iblk
  rw [View.read_apply, View.read_apply]
  show _root_.cast _ (V m c (Pipeline.arrRef spec0 0) ((cfg0.win 0).arr.view.emb (((cfg0.win 0).rect ⟨t.val + 1, h⟩).emb y)))
    = _root_.cast _ (V m c (Pipeline.arrRef spec0 0) ((cfg0.win 0).arr.view.emb (((cfg0.win 0).rect t).emb y)))
  congr 3
  all_goals
    funext a; apply Fin.ext
    rw [Rect.emb_apply, Rect.emb_apply]
    show (cfg0.win 0).index ⟨t.val + 1, h⟩ a * (cfg0.win 0).size a + 1 * (y a).val = (cfg0.win 0).index t a * (cfg0.win 0).size a + 1 * (y a).val
    rw [index_succ 0 (by decide) t h hq a]

theorem bWk_succ (c : Dev nD) (t : Fin cfg0.N) (h : t.val + 1 < cfg0.N) (hq : (t.val + 1) % 8 ≠ 0) :
    bWk m c ⟨t.val + 1, h⟩ = bWk m c t := by
  funext y
  show iblk m c 2 ⟨t.val + 1, h⟩ y = iblk m c 2 t y
  unfold iblk
  rw [View.read_apply, View.read_apply]
  show _root_.cast _ (V m c (Pipeline.arrRef spec0 2) ((cfg0.win 2).arr.view.emb (((cfg0.win 2).rect ⟨t.val + 1, h⟩).emb y)))
    = _root_.cast _ (V m c (Pipeline.arrRef spec0 2) ((cfg0.win 2).arr.view.emb (((cfg0.win 2).rect t).emb y)))
  congr 3
  all_goals
    funext a; apply Fin.ext
    rw [Rect.emb_apply, Rect.emb_apply]
    show (cfg0.win 2).index ⟨t.val + 1, h⟩ a * (cfg0.win 2).size a + 1 * (y a).val = (cfg0.win 2).index t a * (cfg0.win 2).size a + 1 * (y a).val
    rw [index_succ 2 (by decide) t h hq a]

theorem bWv_succ (c : Dev nD) (t : Fin cfg0.N) (h : t.val + 1 < cfg0.N) (hq : (t.val + 1) % 8 ≠ 0) :
    bWv m c ⟨t.val + 1, h⟩ = bWv m c t := by
  funext y
  show iblk m c 3 ⟨t.val + 1, h⟩ y = iblk m c 3 t y
  unfold iblk
  rw [View.read_apply, View.read_apply]
  show _root_.cast _ (V m c (Pipeline.arrRef spec0 3) ((cfg0.win 3).arr.view.emb (((cfg0.win 3).rect ⟨t.val + 1, h⟩).emb y)))
    = _root_.cast _ (V m c (Pipeline.arrRef spec0 3) ((cfg0.win 3).arr.view.emb (((cfg0.win 3).rect t).emb y)))
  congr 3
  all_goals
    funext a; apply Fin.ext
    rw [Rect.emb_apply, Rect.emb_apply]
    show (cfg0.win 3).index ⟨t.val + 1, h⟩ a * (cfg0.win 3).size a + 1 * (y a).val = (cfg0.win 3).index t a * (cfg0.win 3).size a + 1 * (y a).val
    rw [index_succ 3 (by decide) t h hq a]

theorem bBk_succ (c : Dev nD) (t : Fin cfg0.N) (h : t.val + 1 < cfg0.N) (hq : (t.val + 1) % 8 ≠ 0) :
    bBk m c ⟨t.val + 1, h⟩ = bBk m c t := by
  funext y
  show iblk m c 5 ⟨t.val + 1, h⟩ y = iblk m c 5 t y
  unfold iblk
  rw [View.read_apply, View.read_apply]
  show _root_.cast _ (V m c (Pipeline.arrRef spec0 5) ((cfg0.win 5).arr.view.emb (((cfg0.win 5).rect ⟨t.val + 1, h⟩).emb y)))
    = _root_.cast _ (V m c (Pipeline.arrRef spec0 5) ((cfg0.win 5).arr.view.emb (((cfg0.win 5).rect t).emb y)))
  congr 3
  all_goals
    funext a; apply Fin.ext
    rw [Rect.emb_apply, Rect.emb_apply]
    show (cfg0.win 5).index ⟨t.val + 1, h⟩ a * (cfg0.win 5).size a + 1 * (y a).val = (cfg0.win 5).index t a * (cfg0.win 5).size a + 1 * (y a).val
    rw [index_succ 5 (by decide) t h hq a]

theorem bBv_succ (c : Dev nD) (t : Fin cfg0.N) (h : t.val + 1 < cfg0.N) (hq : (t.val + 1) % 8 ≠ 0) :
    bBv m c ⟨t.val + 1, h⟩ = bBv m c t := by
  funext y
  show iblk m c 6 ⟨t.val + 1, h⟩ y = iblk m c 6 t y
  unfold iblk
  rw [View.read_apply, View.read_apply]
  show _root_.cast _ (V m c (Pipeline.arrRef spec0 6) ((cfg0.win 6).arr.view.emb (((cfg0.win 6).rect ⟨t.val + 1, h⟩).emb y)))
    = _root_.cast _ (V m c (Pipeline.arrRef spec0 6) ((cfg0.win 6).arr.view.emb (((cfg0.win 6).rect t).emb y)))
  congr 3
  all_goals
    funext a; apply Fin.ext
    rw [Rect.emb_apply, Rect.emb_apply]
    show (cfg0.win 6).index ⟨t.val + 1, h⟩ a * (cfg0.win 6).size a + 1 * (y a).val = (cfg0.win 6).index t a * (cfg0.win 6).size a + 1 * (y a).val
    rw [index_succ 6 (by decide) t h hq a]

theorem keysF_succ (c : Dev nD) (t : Fin cfg0.N) (h : t.val + 1 < cfg0.N) (hq : (t.val + 1) % 8 ≠ 0) :
    keysF m c ⟨t.val + 1, h⟩ = keysF m c t := by
  unfold keysF; rw [bX_succ m c t h hq, bWk_succ m c t h hq, bBk_succ m c t h hq]

theorem valuesF_succ (c : Dev nD) (t : Fin cfg0.N) (h : t.val + 1 < cfg0.N) (hq : (t.val + 1) % 8 ≠ 0) :
    valuesF m c ⟨t.val + 1, h⟩ = valuesF m c t := by
  unfold valuesF; rw [bX_succ m c t h hq, bWv_succ m c t h hq, bBv_succ m c t h hq]

theorem pt_succ (t : Fin cfg0.N) (h : t.val + 1 < cfg0.N) (hq : (t.val + 1) % 8 ≠ 0) (q : Fin 8) :
    pt ⟨t.val + 1, h⟩ q = pt t q := by
  apply Fin.ext; show t.val + 1 - (t.val + 1) % 8 + q.val = t.val - t.val % 8 + q.val; omega

theorem attnF_succ (c : Dev nD) (t : Fin cfg0.N) (h : t.val + 1 < cfg0.N) (hq : (t.val + 1) % 8 ≠ 0) :
    attnF m c ⟨t.val + 1, h⟩ = attnF m c t := by
  funext y; unfold attnF; rw [pt_succ t h hq]

/-- A point is the point of its own query tile in its batch. -/
theorem pt_self (t : Fin cfg0.N) (q : Fin 8) (hq : q.val = t.val % 8) : pt t q = t := by
  apply Fin.ext; show t.val - t.val % 8 + q.val = t.val; omega

/-- What the scratch buffers hold before position `n` of the grid (after point `n - 1`): nothing is said before a
    batch's first point, where the caches are about to be rebuilt and the attention output restarted. -/
def Inv (c : Dev nD) (n : ℕ) (hn : n ≤ cfg0.N) (xk xv : Vec F S8x2048x48 .bf16) (xo : Vec F S8x2048x48 .f32) : Prop :=
  ∀ hq : n % 8 ≠ 0,
    xk = keysF m c ⟨n, by have h : cfg0.N = 64 := N_0; omega⟩ ∧ xv = valuesF m c ⟨n, by have h : cfg0.N = 64 := N_0; omega⟩
      ∧ ∀ y : S8x2048x48.Idx, (y 1).val < 256 * (n % 8) → xo y = attnF m c ⟨n, by have h : cfg0.N = 64 := N_0; omega⟩ y

/-- Storing a point's tile over contents that agree with the batch's attention output below the tile's rows leaves contents
    that agree with it below the end of the tile's rows. -/
theorem attn_store (c : Dev nD) (t : Fin cfg0.N) (a : Memref sig .tc .vmem S8x2048x48 .f32) (ha : a.IsWhole)
    (xo : Vec F S8x2048x48 .f32) (hprev : ∀ y : S8x2048x48.Idx, (y 1).val < 256 * (t.val % 8) → xo y = attnF m c t y)
    (y : S8x2048x48.Idx) (hy : (y 1).val < 256 * (t.val % 8 + 1)) :
    a.view.read (Elt F) (a.view.writes (Elt F) (ha.unread xo) [⟨rO (grid0.coords t), tileF m c t⟩]) y = attnF m c t y := by
  by_cases hlo : 256 * (t.val % 8) ≤ (y 1).val
  · -- the row lies in the tile just stored
    have hy0 : (y 0).val < 8 := (y 0).isLt
    have hy2 : (y 2).val < 48 := (y 2).isLt
    let x : (rO (grid0.coords t)).shape.Idx := fun a => match a with
      | ⟨0, _⟩ => ⟨(y 0).val, hy0⟩
      | ⟨1, _⟩ => ⟨(y 1).val - 256 * (t.val % 8), by show _ < 256; omega⟩
      | ⟨2, _⟩ => ⟨(y 2).val, hy2⟩
    have hx : (rO (grid0.coords t)).emb x = y := by
      funext a; apply Fin.ext
      rw [Rect.emb_apply]
      show k0_off3 (grid0.coords t) a + 1 * (x a).val = (y a).val
      rw [off3_eq t]
      match a with
      | ⟨0, _⟩ => show 0 + 1 * (y 0).val = (y 0).val; omega
      | ⟨1, _⟩ => show 256 * (t.val % 8) + 1 * ((y 1).val - 256 * (t.val % 8)) = (y 1).val; omega
      | ⟨2, _⟩ => show 0 + 1 * (y 2).val = (y 2).val; omega
    rw [← hx, View.read_writes_cons_emb, hx]
    unfold attnF
    have hq : (⟨(y 1).val / 256, by have h : (y 1).val < 2048 := (y 1).isLt; omega⟩ : Fin 8).val = t.val % 8 := by
      show (y 1).val / 256 = t.val % 8; omega
    rw [pt_self t _ hq]
    refine congrArg (tileF m c t) ?_
    funext a; apply Fin.ext
    match a with
    | ⟨0, _⟩ => rfl
    | ⟨1, _⟩ => show (y 1).val - 256 * (t.val % 8) = (y 1).val % 256; omega
    | ⟨2, _⟩ => rfl
  · -- the row lies below the tile: the store does not touch it
    have hnot : y ∉ (rO (grid0.coords t)).set := by
      rw [Rect.mem_set_unit]
      intro hall
      have h1 := (hall 1).1
      rw [off3_eq t] at h1
      have : 256 * (t.val % 8) ≤ (y 1).val := h1
      omega
    rw [View.read_writes_apply_of_forall_not_mem _ _ y _ (by
      intro p hp; rw [List.mem_singleton] at hp; subst hp; exact hnot), ha.read_unread]
    exact hprev y (by omega)

end Cert.KernelIdeal.Body

end
-- ==== Proof.KernelIdealNorm.lean ====
/-
  The pieces the runs leave, at a grid point's own memrefs and blocks, are the point's closed forms: the whole-cache
  stores of the first query tile leave the batch's keys and values; every point's store into the attention output is the
  point's tile; the last query tile's store into the output block is the batch's output.
-/
import proofs.«115193_j84473416778245_2_alg».proof.Proof.KernelIdealPieces
import proofs.«115193_j84473416778245_2_alg».proof.Proof.KernelIdealInv

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole rectangle of a cache places an index at itself. -/
theorem rC_emb (y : S8x2048x48.Idx) : rC.emb y = y := by
  funext a; apply Fin.ext
  rw [Rect.emb_apply]
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A store of a whole cache leaves what was stored, whatever the cache held. -/
theorem read_whole_store {e : EltTy} (a : Memref sig .tc .vmem S8x2048x48 e) (f : a.view.ty.Contents (Elt F)) (w : Vec F S8x2048x48 e) :
    a.view.read (Elt F) (a.view.writes (Elt F) f [⟨rC, w⟩]) = w := by
  funext y
  exact (congrArg (a.view.read (Elt F) (a.view.writes (Elt F) f [⟨rC, w⟩])) (rC_emb y).symm).trans
    (View.read_writes_cons_emb a.view f rC w [] y)

/-- A load of the whole of a buffer reads its contents. -/
theorem ld_rC {e : EltTy} (X : Vec F S8x2048x48 e) : View.ld X rC = X := by
  funext y
  show X (rC.idx y) = X y
  exact congrArg X (rC_emb y)

/-- The whole rectangle of an input or output block places an index at itself. -/
theorem rX_emb (y : S1x2048x384.Idx) : rX.emb y = y := by
  funext a; apply Fin.ext
  rw [Rect.emb_apply]
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A store of a whole block leaves what was stored, whatever the buffer held. -/
theorem read_whole_storeX (a : Memref sig .tc .vmem S1x2048x384 .f32) (f : a.view.ty.Contents (Elt F)) (w : Vec F S1x2048x384 .f32) :
    a.view.read (Elt F) (a.view.writes (Elt F) f [⟨rX, w⟩]) = w := by
  funext y
  exact (congrArg (a.view.read (Elt F) (a.view.writes (Elt F) f [⟨rX, w⟩])) (rX_emb y).symm).trans
    (View.read_writes_cons_emb a.view f rX w [] y)

variable (m : (ℓ : Loc nD τ sig) → Buf (Elt F) ℓ)

theorem keysOf_eq (c : Dev nD) (t : Fin cfg0.N) : keysOf (ms0 t) (hs0 t) (ms2 t) (hs2 t) (ms5 t) (hs5 t) (iblk m c 0 t) (iblk m c 2 t) (iblk m c 5 t) = keysF m c t := by
  unfold keysOf keysF; rw [rd_eq, rd_eq, rd_eq]

theorem valuesOf_eq (c : Dev nD) (t : Fin cfg0.N) : valuesOf (ms0 t) (hs0 t) (ms3 t) (hs3 t) (ms6 t) (hs6 t) (iblk m c 0 t) (iblk m c 3 t) (iblk m c 6 t) = valuesF m c t := by
  unfold valuesOf valuesF; rw [rd_eq, rd_eq, rd_eq]

set_option maxHeartbeats 2000000 in
/-- At a point whose caches hold the batch's keys and values, the tile the body stores is the point's tile. -/
theorem tileAt_eq (c : Dev nD) (t : Fin cfg0.N) (xk xv : Vec F S8x2048x48 .bf16)
    (hk : xk = keysF m c t) (hv : xv = valuesF m c t) :
    tileAt (grid0.coords t) (ms0 t) (hs0 t) (ms1 t) (hs1 t) (ms4 t) (hs4 t) scK scV (iblk m c 0 t) (iblk m c 1 t) (iblk m c 4 t) ((Memref.isWhole_whole cc0_scratch0).unread xk) ((Memref.isWhole_whole cc0_scratch1).unread xv) = tileF m c t := by
  subst hk; subst hv
  have hk : ∀ j : Fin 8, View.readAt (Elt F) scK.view (rT j).toLoadRect ((Memref.isWhole_whole cc0_scratch0).unread (keysF m c t))
      = View.ld (keysF m c t) (rT j) := fun j => by
    rw [View.readAt_eq_ld, (Memref.isWhole_whole cc0_scratch0).read_unread]
  have hv : ∀ j : Fin 8, View.readAt (Elt F) scV.view (rT j).toLoadRect ((Memref.isWhole_whole cc0_scratch1).unread (valuesF m c t))
      = View.ld (valuesF m c t) (rT j) := fun j => by
    rw [View.readAt_eq_ld, (Memref.isWhole_whole cc0_scratch1).read_unread]
  unfold tileAt tileF
  rw [rdQ_eq, rd_eq, rd_eq, hk 0, hv 0, hk 1, hv 1, hk 2, hv 2, hk 3, hv 3, hk 4, hv 4, hk 5, hv 5, hk 6, hv 6, hk 7, hv 7]

set_option maxHeartbeats 2000000 in
/-- At a batch's first point the key and value tiles are read out of the caches just stored: the same tile. -/
theorem tileFirst_eq (c : Dev nD) (t : Fin cfg0.N) :
    tileOf (rdQ (grid0.coords t) (ms0 t) (hs0 t) (iblk m c 0 t)) (rd (ms1 t) (hs1 t) (iblk m c 1 t) rW) (rd (ms4 t) (hs4 t) (iblk m c 4 t) rB)
        (scK.view.readCov [⟨rC, keysOf (ms0 t) (hs0 t) (ms2 t) (hs2 t) (ms5 t) (hs5 t) (iblk m c 0 t) (iblk m c 2 t) (iblk m c 5 t)⟩] (rT 0).toLoadRect) (scV.view.readCov [⟨rC, valuesOf (ms0 t) (hs0 t) (ms3 t) (hs3 t) (ms6 t) (hs6 t) (iblk m c 0 t) (iblk m c 3 t) (iblk m c 6 t)⟩] (rT 0).toLoadRect)
        (scK.view.readCov [⟨rC, keysOf (ms0 t) (hs0 t) (ms2 t) (hs2 t) (ms5 t) (hs5 t) (iblk m c 0 t) (iblk m c 2 t) (iblk m c 5 t)⟩] (rT 1).toLoadRect) (scV.view.readCov [⟨rC, valuesOf (ms0 t) (hs0 t) (ms3 t) (hs3 t) (ms6 t) (hs6 t) (iblk m c 0 t) (iblk m c 3 t) (iblk m c 6 t)⟩] (rT 1).toLoadRect)
        (scK.view.readCov [⟨rC, keysOf (ms0 t) (hs0 t) (ms2 t) (hs2 t) (ms5 t) (hs5 t) (iblk m c 0 t) (iblk m c 2 t) (iblk m c 5 t)⟩] (rT 2).toLoadRect) (scV.view.readCov [⟨rC, valuesOf (ms0 t) (hs0 t) (ms3 t) (hs3 t) (ms6 t) (hs6 t) (iblk m c 0 t) (iblk m c 3 t) (iblk m c 6 t)⟩] (rT 2).toLoadRect)
        (scK.view.readCov [⟨rC, keysOf (ms0 t) (hs0 t) (ms2 t) (hs2 t) (ms5 t) (hs5 t) (iblk m c 0 t) (iblk m c 2 t) (iblk m c 5 t)⟩] (rT 3).toLoadRect) (scV.view.readCov [⟨rC, valuesOf (ms0 t) (hs0 t) (ms3 t) (hs3 t) (ms6 t) (hs6 t) (iblk m c 0 t) (iblk m c 3 t) (iblk m c 6 t)⟩] (rT 3).toLoadRect)
        (scK.view.readCov [⟨rC, keysOf (ms0 t) (hs0 t) (ms2 t) (hs2 t) (ms5 t) (hs5 t) (iblk m c 0 t) (iblk m c 2 t) (iblk m c 5 t)⟩] (rT 4).toLoadRect) (scV.view.readCov [⟨rC, valuesOf (ms0 t) (hs0 t) (ms3 t) (hs3 t) (ms6 t) (hs6 t) (iblk m c 0 t) (iblk m c 3 t) (iblk m c 6 t)⟩] (rT 4).toLoadRect)
        (scK.view.readCov [⟨rC, keysOf (ms0 t) (hs0 t) (ms2 t) (hs2 t) (ms5 t) (hs5 t) (iblk m c 0 t) (iblk m c 2 t) (iblk m c 5 t)⟩] (rT 5).toLoadRect) (scV.view.readCov [⟨rC, valuesOf (ms0 t) (hs0 t) (ms3 t) (hs3 t) (ms6 t) (hs6 t) (iblk m c 0 t) (iblk m c 3 t) (iblk m c 6 t)⟩] (rT 5).toLoadRect)
        (scK.view.readCov [⟨rC, keysOf (ms0 t) (hs0 t) (ms2 t) (hs2 t) (ms5 t) (hs5 t) (iblk m c 0 t) (iblk m c 2 t) (iblk m c 5 t)⟩] (rT 6).toLoadRect) (scV.view.readCov [⟨rC, valuesOf (ms0 t) (hs0 t) (ms3 t) (hs3 t) (ms6 t) (hs6 t) (iblk m c 0 t) (iblk m c 3 t) (iblk m c 6 t)⟩] (rT 6).toLoadRect)
        (scK.view.readCov [⟨rC, keysOf (ms0 t) (hs0 t) (ms2 t) (hs2 t) (ms5 t) (hs5 t) (iblk m c 0 t) (iblk m c 2 t) (iblk m c 5 t)⟩] (rT 7).toLoadRect) (scV.view.readCov [⟨rC, valuesOf (ms0 t) (hs0 t) (ms3 t) (hs3 t) (ms6 t) (hs6 t) (iblk m c 0 t) (iblk m c 3 t) (iblk m c 6 t)⟩] (rT 7).toLoadRect)
      = tileF m c t := by
  have hk : ∀ j : Fin 8, scK.view.readCov (Val := Elt F) [⟨rC, keysOf (ms0 t) (hs0 t) (ms2 t) (hs2 t) (ms5 t) (hs5 t) (iblk m c 0 t) (iblk m c 2 t) (iblk m c 5 t)⟩] (rT j).toLoadRect = View.ld (keysF m c t) (rT j) := fun j => by
    unfold View.readCov; rw [View.readAt_eq_ld, read_whole_store, keysOf_eq]
  have hv : ∀ j : Fin 8, scV.view.readCov (Val := Elt F) [⟨rC, valuesOf (ms0 t) (hs0 t) (ms3 t) (hs3 t) (ms6 t) (hs6 t) (iblk m c 0 t) (iblk m c 3 t) (iblk m c 6 t)⟩] (rT j).toLoadRect = View.ld (valuesF m c t) (rT j) := fun j => by
    unfold View.readCov; rw [View.readAt_eq_ld, read_whole_store, valuesOf_eq]
  unfold tileF
  rw [rdQ_eq, rd_eq, rd_eq, hk 0, hv 0, hk 1, hv 1, hk 2, hv 2, hk 3, hv 3, hk 4, hv 4, hk 5, hv 5, hk 6, hv 6, hk 7, hv 7]

set_option maxHeartbeats 2000000 in
/-- At a batch's last point, over an attention output that already agrees with the batch's on the rows of the first seven
    tiles, the block stored is the batch's output. -/
theorem outLast_eq (c : Dev nD) (t : Fin cfg0.N) (h7 : t.val % 8 = 7) (xo : Vec F S8x2048x48 .f32)
    (hprev : ∀ y : S8x2048x48.Idx, (y 1).val < 256 * (t.val % 8) → xo y = attnF m c t y) :
    k0_pay2 (View.readAt (Elt F) scO.view rC.toLoadRect
        (scO.view.writes (Elt F) ((Memref.isWhole_whole cc0_scratch2).unread xo) [⟨rO (grid0.coords t), tileF m c t⟩]))
      (rd (ms7 t) (hs7 t) (iblk m c 7 t) rW) (rd (ms8 t) (hs8 t) (iblk m c 8 t) rB) = outF m c t := by
  unfold outF
  rw [rd_eq, rd_eq, View.readAt_eq_ld]
  have hall : scO.view.read (Elt F) (scO.view.writes (Elt F) ((Memref.isWhole_whole cc0_scratch2).unread xo) [⟨rO (grid0.coords t), tileF m c t⟩]) = attnF m c t := by
    funext y
    exact attn_store m c t scO (Memref.isWhole_whole cc0_scratch2) xo hprev y (by have h : (y 1).val < 2048 := (y 1).isLt; omega)
  rw [hall]

end Cert.KernelIdeal.Body

end
-- ==== Proof.KernelIdealFrameData.lean ====
/-
  The proof data of the fused attention kernel's frame: the region invariant carries the three scratch buffers from
  point to point at contents satisfying `Inv`; after the body each input's staging buffer holds its block and, at a
  batch's last query tile, the output's holds the batch's output `outF`.
-/
import proofs.«115193_j84473416778245_2_alg».proof.Proof.KernelIdealNorm

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The region invariant before position `n`: the three scratch buffers at contents satisfying `Inv`, and the generator
    register at some state. -/
def PhiS (c : Dev nD) (n : ℕ) (hn : n ≤ cfg0.N) : sProp 𝕄 :=
  iprop(∃ xk : Vec F S8x2048x48 .bf16, ∃ xv : Vec F S8x2048x48 .bf16, ∃ xo : Vec F S8x2048x48 .f32,
    ⌜Inv m c n hn xk xv xo⌝ ∗ iprop(owns (c : Thread nD τ) scK fullShare xk ∗ owns (c : Thread nD τ) scV fullShare xv ∗ owns (c : Thread nD τ) scO fullShare xo)
      ∗ (∃ r, prngReg c r))

/-- The proof data of the pipeline on core `c`: the arrays as the region finds them; after the body at point `t` each
    input's buffer at its block and the output's at the batch's output; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outF m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outF m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- After a batch's first point: the caches hold what was just stored, the attention output its first tile. -/
theorem inv_first (c : Dev nD) (t : Fin cfg0.N) (h0 : t.val % 8 = 0) (xo : Vec F S8x2048x48 .f32) :
    Inv m c (t.val + 1) t.isLt (keysF m c t) (valuesF m c t)
      (scO.view.read (Elt F) (scO.view.writes (Elt F) ((Memref.isWhole_whole cc0_scratch2).unread xo) [⟨rO (grid0.coords t), tileF m c t⟩])) := by
  intro hq
  have hN : t.val < 64 := lt_of_lt_of_eq t.isLt (show cfg0.N = 64 from N_0)
  have hlt : t.val + 1 < cfg0.N := by have h : cfg0.N = 64 := N_0; omega
  refine ⟨(keysF_succ m c t hlt hq).symm, (valuesF_succ m c t hlt hq).symm, fun y hy => ?_⟩
  rw [attnF_succ m c t hlt hq]
  exact attn_store m c t scO (Memref.isWhole_whole cc0_scratch2) xo (fun y hy' => by omega) y (by omega)

/-- After a later point: the caches are untouched, the attention output has one more tile. -/
theorem inv_step (c : Dev nD) (t : Fin cfg0.N) (h0 : t.val % 8 ≠ 0) (xk xv : Vec F S8x2048x48 .bf16) (xo : Vec F S8x2048x48 .f32)
    (hinv : Inv m c t.val (Nat.le_of_lt t.isLt) xk xv xo) :
    Inv m c (t.val + 1) t.isLt xk xv
      (scO.view.read (Elt F) (scO.view.writes (Elt F) ((Memref.isWhole_whole cc0_scratch2).unread xo) [⟨rO (grid0.coords t), tileF m c t⟩])) := by
  intro hq
  obtain ⟨hk, hv, ho⟩ := hinv h0
  have hlt : t.val + 1 < cfg0.N := by have h : cfg0.N = 64 := N_0; have := t.isLt; omega
  refine ⟨hk.trans (keysF_succ m c t hlt hq).symm, hv.trans (valuesF_succ m c t hlt hq).symm, fun y hy => ?_⟩
  rw [attnF_succ m c t hlt hq]
  exact attn_store m c t scO (Memref.isWhole_whole cc0_scratch2) xo ho y (by omega)

end Cert.KernelIdeal.Body

end
-- ==== Proof.KernelIdealFrameFirst.lean ====
/-
  The body at a batch's first query tile: the caches are rebuilt, the attention output restarted with its first tile; the output block is left idle.
-/
import proofs.«115193_j84473416778245_2_alg».proof.Proof.KernelIdealFrameData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the key cache holds after a batch's first point: the batch's keys. -/
theorem firstK_read (c : Dev nD) (t : Fin cfg0.N) (hc1 : condFirst (grid0.coords t)) (hc2 : ¬condLast (grid0.coords t))
    (x9 : Vec F S1x2048x384 .f32) (xk xv : Vec F S8x2048x48 .bf16) (xo : Vec F S8x2048x48 .f32) :
    scK.view.read (Elt F) (scK.view.writes (Elt F) ((Memref.isWhole_whole cc0_scratch0).unread xk) (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) scO (Memref.isWhole_whole _) hc1 hc2 (iblk m c 0 t) (iblk m c 1 t) (iblk m c 2 t) (iblk m c 3 t) (iblk m c 4 t) (iblk m c 5 t) (iblk m c 6 t) (iblk m c 7 t) (iblk m c 8 t) x9 xk xv xo).1)
      = keysF m c t := by
  rw [runFirst_piecesK, read_whole_store, keysOf_eq]

/-- What the value cache holds then: the batch's values. -/
theorem firstV_read (c : Dev nD) (t : Fin cfg0.N) (hc1 : condFirst (grid0.coords t)) (hc2 : ¬condLast (grid0.coords t))
    (x9 : Vec F S1x2048x384 .f32) (xk xv : Vec F S8x2048x48 .bf16) (xo : Vec F S8x2048x48 .f32) :
    scV.view.read (Elt F) (scV.view.writes (Elt F) ((Memref.isWhole_whole cc0_scratch1).unread xv) (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) scO (Memref.isWhole_whole _) hc1 hc2 (iblk m c 0 t) (iblk m c 1 t) (iblk m c 2 t) (iblk m c 3 t) (iblk m c 4 t) (iblk m c 5 t) (iblk m c 6 t) (iblk m c 7 t) (iblk m c 8 t) x9 xk xv xo).2.1)
      = valuesF m c t := by
  rw [runFirst_piecesV, read_whole_store, valuesOf_eq]

/-- What the attention output holds then: the point's tile stored over what it held. -/
theorem firstO_read (c : Dev nD) (t : Fin cfg0.N) (hc1 : condFirst (grid0.coords t)) (hc2 : ¬condLast (grid0.coords t))
    (x9 : Vec F S1x2048x384 .f32) (xk xv : Vec F S8x2048x48 .bf16) (xo : Vec F S8x2048x48 .f32) :
    scO.view.read (Elt F) (scO.view.writes (Elt F) ((Memref.isWhole_whole cc0_scratch2).unread xo) (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) scO (Memref.isWhole_whole _) hc1 hc2 (iblk m c 0 t) (iblk m c 1 t) (iblk m c 2 t) (iblk m c 3 t) (iblk m c 4 t) (iblk m c 5 t) (iblk m c 6 t) (iblk m c 7 t) (iblk m c 8 t) x9 xk xv xo).2.2.1)
      = scO.view.read (Elt F) (scO.view.writes (Elt F) ((Memref.isWhole_whole cc0_scratch2).unread xo) [⟨rO (grid0.coords t), tileF m c t⟩]) := by
  rw [runFirst_piecesO, tileFirst_eq]

set_option maxHeartbeats 8000000 in
theorem sound_first (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl,
    show (dats m 0 c).Φ t.castSucc = PhiS m c t.val (Nat.le_of_lt t.isLt) from by dsimp only [dats]; simp only [Fin.coe_castSucc]]
  rw [show (dats m 0 c).leavesExact 0 t = owns (c : Thread nD τ) (ms0 t) fullShare ((dats m 0 c).after 0 t) from by
    unfold Dat.leavesExact; rw [liveIn 0 (by decide) t], after_0]
  rw [show (dats m 0 c).leavesExact 1 t = owns (c : Thread nD τ) (ms1 t) fullShare ((dats m 0 c).after 1 t) from by
    unfold Dat.leavesExact; rw [liveIn 1 (by decide) t], after_1]
  rw [show (dats m 0 c).leavesExact 2 t = owns (c : Thread nD τ) (ms2 t) fullShare ((dats m 0 c).after 2 t) from by
    unfold Dat.leavesExact; rw [liveIn 2 (by decide) t], after_2]
  rw [show (dats m 0 c).leavesExact 3 t = owns (c : Thread nD τ) (ms3 t) fullShare ((dats m 0 c).after 3 t) from by
    unfold Dat.leavesExact; rw [liveIn 3 (by decide) t], after_3]
  rw [show (dats m 0 c).leavesExact 4 t = owns (c : Thread nD τ) (ms4 t) fullShare ((dats m 0 c).after 4 t) from by
    unfold Dat.leavesExact; rw [liveIn 4 (by decide) t], after_4]
  rw [show (dats m 0 c).leavesExact 5 t = owns (c : Thread nD τ) (ms5 t) fullShare ((dats m 0 c).after 5 t) from by
    unfold Dat.leavesExact; rw [liveIn 5 (by decide) t], after_5]
  rw [show (dats m 0 c).leavesExact 6 t = owns (c : Thread nD τ) (ms6 t) fullShare ((dats m 0 c).after 6 t) from by
    unfold Dat.leavesExact; rw [liveIn 6 (by decide) t], after_6]
  rw [show (dats m 0 c).leavesExact 7 t = owns (c : Thread nD τ) (ms7 t) fullShare ((dats m 0 c).after 7 t) from by
    unfold Dat.leavesExact; rw [liveIn 7 (by decide) t], after_7]
  rw [show (dats m 0 c).leavesExact 8 t = owns (c : Thread nD τ) (ms8 t) fullShare ((dats m 0 c).after 8 t) from by
    unfold Dat.leavesExact; rw [liveIn 8 (by decide) t], after_8]
  have hN : t.val < 64 := lt_of_lt_of_eq t.isLt (show cfg0.N = 64 from N_0)
  unfold PhiS
  have hc1 : condFirst (grid0.coords t) := (hcondFirst t).mpr h0
  have hc2 : ¬condLast (grid0.coords t) := fun h => by have := (hcondLast t).mp h; omega
  rw [Dat.leavesExact_idle (dats m 0 c) 9 t (idleOut t hc2) (noFlushOut t hc2)]
  iintro ⟨⟨%xk, %xv, %xo, %hinv, ⟨HK, HV, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) scO (Memref.isWhole_whole _) hc1 hc2 (iblk m c 0 t) (iblk m c 1 t) (iblk m c 2 t) (iblk m c 3 t) (iblk m c 4 t) (iblk m c 5 t) (iblk m c 6 t) (iblk m c 7 t) (iblk m c 8 t) ((dats m 0 c).before 9 t d9) xk xv xo).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HK]; · iexact HK
  isplitl [HV]; · iexact HV
  isplitl [HO]; · iexact HO
  iintro ⟨H0, H1, H2, H3, H4, H5, H6, H7, H8, H9, HK, HV, HO⟩
  isplitl [HK HV HO Hg]
  · iexists _, _, _
    isplitr
    swap
    · isplitl [HK HV HO]
      · isplitl [HK]
        · unfold owns; iexists _; isplitr
          swap; · iexact HK
          ipureintro; rfl
        isplitl [HV]
        · unfold owns; iexists _; isplitr
          swap; · iexact HV
          ipureintro; rfl
        unfold owns; iexists _; isplitr
        swap; · iexact HO
        ipureintro; rfl
      iexact Hg
    ipureintro
    rw [firstK_read m c t hc1 hc2, firstV_read m c t hc1 hc2, firstO_read m c t hc1 hc2]
    exact inv_first m c t h0 xo
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.KernelIdeal.Body

end
-- ==== Proof.KernelIdealFrameMid.lean ====
/-
  The body at a query tile that is neither a batch's first nor its last: the caches are read, one more tile of the attention output is stored; the output block is left idle.
-/
import proofs.«115193_j84473416778245_2_alg».proof.Proof.KernelIdealFrameData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 8000000 in
theorem sound_mid (c : Dev nD) (t : Fin cfg0.N) (h0 : t.val % 8 ≠ 0) (h7 : t.val % 8 ≠ 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl,
    show (dats m 0 c).Φ t.castSucc = PhiS m c t.val (Nat.le_of_lt t.isLt) from by dsimp only [dats]; simp only [Fin.coe_castSucc]]
  rw [show (dats m 0 c).leavesExact 0 t = owns (c : Thread nD τ) (ms0 t) fullShare ((dats m 0 c).after 0 t) from by
    unfold Dat.leavesExact; rw [liveIn 0 (by decide) t], after_0]
  rw [show (dats m 0 c).leavesExact 1 t = owns (c : Thread nD τ) (ms1 t) fullShare ((dats m 0 c).after 1 t) from by
    unfold Dat.leavesExact; rw [liveIn 1 (by decide) t], after_1]
  rw [show (dats m 0 c).leavesExact 2 t = owns (c : Thread nD τ) (ms2 t) fullShare ((dats m 0 c).after 2 t) from by
    unfold Dat.leavesExact; rw [liveIn 2 (by decide) t], after_2]
  rw [show (dats m 0 c).leavesExact 3 t = owns (c : Thread nD τ) (ms3 t) fullShare ((dats m 0 c).after 3 t) from by
    unfold Dat.leavesExact; rw [liveIn 3 (by decide) t], after_3]
  rw [show (dats m 0 c).leavesExact 4 t = owns (c : Thread nD τ) (ms4 t) fullShare ((dats m 0 c).after 4 t) from by
    unfold Dat.leavesExact; rw [liveIn 4 (by decide) t], after_4]
  rw [show (dats m 0 c).leavesExact 5 t = owns (c : Thread nD τ) (ms5 t) fullShare ((dats m 0 c).after 5 t) from by
    unfold Dat.leavesExact; rw [liveIn 5 (by decide) t], after_5]
  rw [show (dats m 0 c).leavesExact 6 t = owns (c : Thread nD τ) (ms6 t) fullShare ((dats m 0 c).after 6 t) from by
    unfold Dat.leavesExact; rw [liveIn 6 (by decide) t], after_6]
  rw [show (dats m 0 c).leavesExact 7 t = owns (c : Thread nD τ) (ms7 t) fullShare ((dats m 0 c).after 7 t) from by
    unfold Dat.leavesExact; rw [liveIn 7 (by decide) t], after_7]
  rw [show (dats m 0 c).leavesExact 8 t = owns (c : Thread nD τ) (ms8 t) fullShare ((dats m 0 c).after 8 t) from by
    unfold Dat.leavesExact; rw [liveIn 8 (by decide) t], after_8]
  have hN : t.val < 64 := lt_of_lt_of_eq t.isLt (show cfg0.N = 64 from N_0)
  unfold PhiS
  have hc1 : ¬condFirst (grid0.coords t) := fun h => h0 ((hcondFirst t).mp h)
  have hc2 : ¬condLast (grid0.coords t) := fun h => h7 ((hcondLast t).mp h)
  rw [Dat.leavesExact_idle (dats m 0 c) 9 t (idleOut t hc2) (noFlushOut t hc2)]
  iintro ⟨⟨%xk, %xv, %xo, %hinv, ⟨HK, HV, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) scO (Memref.isWhole_whole _) hc1 hc2 (iblk m c 0 t) (iblk m c 1 t) (iblk m c 2 t) (iblk m c 3 t) (iblk m c 4 t) (iblk m c 5 t) (iblk m c 6 t) (iblk m c 7 t) (iblk m c 8 t) ((dats m 0 c).before 9 t d9) xk xv xo).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HK]; · iexact HK
  isplitl [HV]; · iexact HV
  isplitl [HO]; · iexact HO
  iintro ⟨H0, H1, H2, H3, H4, H5, H6, H7, H8, H9, HK, HV, HO⟩
  isplitl [HK HV HO Hg]
  · iexists _, _, _
    isplitr
    swap
    · isplitl [HK HV HO]
      · isplitl [HK]
        · iexact HK
        isplitl [HV]
        · iexact HV
        unfold owns; iexists _; isplitr
        swap; · iexact HO
        ipureintro; rfl
      iexact Hg
    ipureintro
    rw [runMid_pieces, tileAt_eq m c t xk xv (hinv h0).1 (hinv h0).2.1]
    exact inv_step m c t h0 xk xv xo hinv
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.KernelIdeal.Body

end
-- ==== Proof.KernelIdealFrameLast.lean ====
/-
  The body at a batch's last query tile: the last tile of the attention output is stored, the whole of it is projected, and the output block is stored with the batch's output.
-/
import proofs.«115193_j84473416778245_2_alg».proof.Proof.KernelIdealFrameData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 8000000 in
theorem sound_last (c : Dev nD) (t : Fin cfg0.N) (h0 : t.val % 8 ≠ 0) (h7 : t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl,
    show (dats m 0 c).Φ t.castSucc = PhiS m c t.val (Nat.le_of_lt t.isLt) from by dsimp only [dats]; simp only [Fin.coe_castSucc]]
  rw [show (dats m 0 c).leavesExact 0 t = owns (c : Thread nD τ) (ms0 t) fullShare ((dats m 0 c).after 0 t) from by
    unfold Dat.leavesExact; rw [liveIn 0 (by decide) t], after_0]
  rw [show (dats m 0 c).leavesExact 1 t = owns (c : Thread nD τ) (ms1 t) fullShare ((dats m 0 c).after 1 t) from by
    unfold Dat.leavesExact; rw [liveIn 1 (by decide) t], after_1]
  rw [show (dats m 0 c).leavesExact 2 t = owns (c : Thread nD τ) (ms2 t) fullShare ((dats m 0 c).after 2 t) from by
    unfold Dat.leavesExact; rw [liveIn 2 (by decide) t], after_2]
  rw [show (dats m 0 c).leavesExact 3 t = owns (c : Thread nD τ) (ms3 t) fullShare ((dats m 0 c).after 3 t) from by
    unfold Dat.leavesExact; rw [liveIn 3 (by decide) t], after_3]
  rw [show (dats m 0 c).leavesExact 4 t = owns (c : Thread nD τ) (ms4 t) fullShare ((dats m 0 c).after 4 t) from by
    unfold Dat.leavesExact; rw [liveIn 4 (by decide) t], after_4]
  rw [show (dats m 0 c).leavesExact 5 t = owns (c : Thread nD τ) (ms5 t) fullShare ((dats m 0 c).after 5 t) from by
    unfold Dat.leavesExact; rw [liveIn 5 (by decide) t], after_5]
  rw [show (dats m 0 c).leavesExact 6 t = owns (c : Thread nD τ) (ms6 t) fullShare ((dats m 0 c).after 6 t) from by
    unfold Dat.leavesExact; rw [liveIn 6 (by decide) t], after_6]
  rw [show (dats m 0 c).leavesExact 7 t = owns (c : Thread nD τ) (ms7 t) fullShare ((dats m 0 c).after 7 t) from by
    unfold Dat.leavesExact; rw [liveIn 7 (by decide) t], after_7]
  rw [show (dats m 0 c).leavesExact 8 t = owns (c : Thread nD τ) (ms8 t) fullShare ((dats m 0 c).after 8 t) from by
    unfold Dat.leavesExact; rw [liveIn 8 (by decide) t], after_8]
  have hN : t.val < 64 := lt_of_lt_of_eq t.isLt (show cfg0.N = 64 from N_0)
  unfold PhiS
  have hc1 : ¬condFirst (grid0.coords t) := fun h => h0 ((hcondFirst t).mp h)
  have hc2 : condLast (grid0.coords t) := (hcondLast t).mpr h7
  rw [show (dats m 0 c).leavesExact 9 t = owns (c : Thread nD τ) (ms9 t) fullShare ((dats m 0 c).after 9 t) from by
    unfold Dat.leavesExact; rw [liveOut t hc2], after_9]
  iintro ⟨⟨%xk, %xv, %xo, %hinv, ⟨HK, HV, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) scO (Memref.isWhole_whole _) hc1 hc2 (iblk m c 0 t) (iblk m c 1 t) (iblk m c 2 t) (iblk m c 3 t) (iblk m c 4 t) (iblk m c 5 t) (iblk m c 6 t) (iblk m c 7 t) (iblk m c 8 t) ((dats m 0 c).before 9 t d9) xk xv xo).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HK]; · iexact HK
  isplitl [HV]; · iexact HV
  isplitl [HO]; · iexact HO
  iintro ⟨H0, H1, H2, H3, H4, H5, H6, H7, H8, H9, HK, HV, HO⟩
  obtain ⟨hk, hv, ho⟩ := hinv h0
  isplitl [HK HV HO Hg]
  · iexists _, _, _
    isplitr
    swap
    · isplitl [HK HV HO]
      · isplitl [HK]
        · iexact HK
        isplitl [HV]
        · iexact HV
        unfold owns; iexists _; isplitr
        swap; · iexact HO
        ipureintro; rfl
      iexact Hg
    ipureintro
    intro hq; exfalso; omega
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  rw [runLast_pieces9, tileAt_eq m c t xk xv hk hv, read_whole_storeX]
  exact outLast_eq m c t h7 xo ho

end Cert.KernelIdeal.Body

end
-- ==== Proof.KernelIdealFrame.lean ====
/-
  The frame of the fused attention kernel: every grid point's body runs (by cases on the point's query tile), so the
  whole program runs to the end, faults nowhere and leaves its argument arrays unchanged; the run's post names the output
  array through the proof data.
-/
import proofs.«115193_j84473416778245_2_alg».proof.Proof.KernelIdealFrameFirst
import proofs.«115193_j84473416778245_2_alg».proof.Proof.KernelIdealFrameMid
import proofs.«115193_j84473416778245_2_alg».proof.Proof.KernelIdealFrameLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_first m c t h0
  · by_cases h7 : t.val % 8 = 7
    · exact sound_last m c t h0 h7
    · exact sound_mid m c t h0 h7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is asked of the scratch there. -/
theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%xk, HK⟩, ⟨%xv, HV⟩, ⟨%xo, HO⟩⟩, Hg⟩
  iexists xk, xv, xo
  isplitr
  · ipureintro; intro hq; exact absurd rfl hq
  isplitl [HK HV HO]
  · isplitl [HK]; · iexact HK
    isplitl [HV]; · iexact HV
    iexact HO
  iexact Hg

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨%xk, %xv, %xo, -, ⟨HK, HV, HO⟩, Hg⟩
  isplitl [HK HV HO]
  · isplitl [HK]; · iexists _; iexact HK
    isplitl [HV]; · iexists _; iexact HV
    iexists _; iexact HO
  iexact Hg

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.PayProj.lean ====
/-
  The kernel's projection payloads read at an index, at the ideal instance.

  A projection payload narrows its operands to bf16 (the identity on extended reals), multiplies a block of rows by a
  `[384, 384]` matrix into a zero accumulator, adds a `[1, 384]` bias row broadcast to every row, and — for the query,
  key and value projections — reads the `[n, 384]` result as `[n, 8, 48]` (row-major: column `48 h + r` is head `h`,
  coordinate `r`) and moves the head axis to the front. This module has the shared lemmas and the query projection.
-/
import proofs.«115193_j84473416778245_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.PayProj

open Idealize.ShloMosaic Idealize.ShloMosaic.ValueIdx Cert.KernelIdeal Cert.KernelIdeal.Gen

/-- A shape cast to the same shape reads its operand at the same index. -/
theorem shapeCast_self {α : Type} {s : Shape} (x : s.Idx → α) (h : s.ShapeCasts s) (j : s.Idx) : shapeCast s x h j = x j :=
  shapeCast_apply x h j j rfl

theorem mm256_lhs0 (i : S256x384.Idx) (k : dot_S256x384_S384x384_S256x384_1_0_0_1_n_n.contr.Idx) : (dot_S256x384_S384x384_S256x384_1_0_0_1_n_n.lhsIdx i k 0).val = (i 0).val := by
  unfold DotDims.lhsIdx
  rw [dif_neg (show ¬(0 : Fin S256x384.rank) ∈ dot_S256x384_S384x384_S256x384_1_0_0_1_n_n.lhsBatch by decide), dif_pos (show (0 : Fin S256x384.rank) ∈ dot_S256x384_S384x384_S256x384_1_0_0_1_n_n.lhsNonContracting by decide)]
  rfl
theorem mm256_lhs1 (i : S256x384.Idx) (k : dot_S256x384_S384x384_S256x384_1_0_0_1_n_n.contr.Idx) : (dot_S256x384_S384x384_S256x384_1_0_0_1_n_n.lhsIdx i k 1).val = (k ⟨0, by decide⟩).val :=
  dot_S256x384_S384x384_S256x384_1_0_0_1_n_n.lhsIdx_val_of_single rfl i k
theorem mm256_rhs0 (i : S256x384.Idx) (k : dot_S256x384_S384x384_S256x384_1_0_0_1_n_n.contr.Idx) : (dot_S256x384_S384x384_S256x384_1_0_0_1_n_n.rhsIdx i k 0).val = (k ⟨0, by decide⟩).val :=
  dot_S256x384_S384x384_S256x384_1_0_0_1_n_n.rhsIdx_val_of_single rfl i k
theorem mm256_rhs1 (i : S256x384.Idx) (k : dot_S256x384_S384x384_S256x384_1_0_0_1_n_n.contr.Idx) : (dot_S256x384_S384x384_S256x384_1_0_0_1_n_n.rhsIdx i k 1).val = (i 1).val := by
  unfold DotDims.rhsIdx
  rw [dif_neg (show ¬(1 : Fin S384x384.rank) ∈ dot_S256x384_S384x384_S256x384_1_0_0_1_n_n.rhsBatch by decide), dif_pos (show (1 : Fin S384x384.rank) ∈ dot_S256x384_S384x384_S256x384_1_0_0_1_n_n.rhsNonContracting by decide)]
  rfl

/-- The product of a `[256, 384]` block with a `[384, 384]` matrix into the zero accumulator, read at `(q, e)`:
    the sum over the contracted coordinate. -/
theorem mm256_apply (a : FVec Ideal S256x384 .bf16) (b : FVec Ideal S384x384 .bf16) (q : Fin 256) (e : Fin 384) :
    matmul (F := Ideal) dot_S256x384_S384x384_S256x384_1_0_0_1_n_n none a b (constant (F := Ideal) S256x384 .f32 0x00000000#32) (ix2 q e)
      = ∑ d : Fin 384, a (ix2 q d) * b (ix2 d e) := by
  refine (Ideal.matmul_constant_zero_apply dot_S256x384_S384x384_S256x384_1_0_0_1_n_n none a b (ix2 q e)).trans ?_
  rw [← Equiv.sum_comp (contrEquiv1 dot_S256x384_S384x384_S256x384_1_0_0_1_n_n 384 rfl rfl).symm]
  refine Finset.sum_congr rfl fun k _ => ?_
  have hk := contrEquiv1_symm_val dot_S256x384_S384x384_S256x384_1_0_0_1_n_n 384 rfl rfl k
  have el : dot_S256x384_S384x384_S256x384_1_0_0_1_n_n.lhsIdx (ix2 q e) ((contrEquiv1 dot_S256x384_S384x384_S256x384_1_0_0_1_n_n 384 rfl rfl).symm k) = ix2 q k :=
    funext fun x => Fin.ext (by
      match x with
      | ⟨0, _⟩ => exact mm256_lhs0 _ _
      | ⟨1, _⟩ => exact (mm256_lhs1 _ _).trans hk)
  have er : dot_S256x384_S384x384_S256x384_1_0_0_1_n_n.rhsIdx (ix2 q e) ((contrEquiv1 dot_S256x384_S384x384_S256x384_1_0_0_1_n_n 384 rfl rfl).symm k) = ix2 k e :=
    funext fun x => Fin.ext (by
      match x with
      | ⟨0, _⟩ => exact (mm256_rhs0 _ _).trans hk
      | ⟨1, _⟩ => exact mm256_rhs1 _ _)
  rw [el, er]

/-- The query projection of a tile at head `h`, row `q`, column `r`: row `q` of the tile times column `48 h + r` of the matrix, plus the bias there. -/
theorem pay6_apply (v8 : Vec Ideal S256x384 .f32) (v10 : Vec Ideal S384x384 .f32) (v14 : Vec Ideal S1x384 .f32)
    (h : Fin 8) (q : Fin 256) (r : Fin 48) :
    k0_pay6 (F := Ideal) v8 v10 v14 (ix3 h q r)
      = (∑ d : Fin 384, v8 (ix2 q d) * v10 (ix2 d ⟨48 * h.val + r.val, by omega⟩)) + v14 (ix2 0 ⟨48 * h.val + r.val, by omega⟩) := by
  unfold k0_pay6
  refine (truncf_apply (s := S8x256x48) (φ := .f32) (ψ := .bf16) _ bitsLt_bf16_f32 (ix3 h q r)).trans ?_
  refine (transpose_apply [1, 0, 2] _ transposes_S256x8x48_p1_0_2_S8x256x48 (ix3 h q r) (ix3 q h r) (fun b => match b with
    | ⟨0, _⟩ => rfl
    | ⟨1, _⟩ => rfl
    | ⟨2, _⟩ => rfl)).trans ?_
  refine (shapeCast_apply _ shapeCasts_S256x384_S256x8x48 (ix3 q h r) (ix2 q ⟨48 * h.val + r.val, by omega⟩) (by
    rewrite [Shape.rowMajor_val_two, Shape.rowMajor_val_three]
    show q.val * 384 + (48 * h.val + r.val) = (q.val * 8 + h.val) * 48 + r.val
    omega)).trans ?_
  refine (addf_apply (s := S256x384) (φ := .f32) _ _ _).trans ?_
  refine congrArg₂ (· + ·) ?_ ?_
  · refine (mm256_apply _ _ q _).trans ?_
    refine Finset.sum_congr rfl fun d _ => ?_
    exact congrArg (v8 (ix2 q d) * ·) (shapeCast_self v10 shapeCasts_S384x384_S384x384 _)
  · refine (broadcastTo_apply _ broadcasts_S1x384_S256x384 _ (ix2 0 ⟨48 * h.val + r.val, by omega⟩) (fun a => match a with
      | ⟨0, _⟩ => by show 0 = if (1 : Nat) = 1 then 0 else _; rw [if_pos rfl]
      | ⟨1, _⟩ => by show 48 * h.val + r.val = if (384 : Nat) = 1 then 0 else _; rw [if_neg (by decide)]; rfl)).trans ?_
    exact shapeCast_self v14 shapeCasts_S1x384_S1x384 _

end Cert.PayProj

end
-- ==== Proof.PayProjKV.lean ====
/-
  The key and value projections of the whole sequence, read at an index at the ideal instance: the cached activations
  `[1, 2048, 384]` as a `[2048, 384]` matrix times a `[384, 384]` matrix into a zero accumulator, plus the bias row,
  read as `[2048, 8, 48]` with the head axis moved to the front.
-/
import proofs.«115193_j84473416778245_2_alg».proof.Proof.PayProj

noncomputable section

namespace Cert.PayProj

open Idealize.ShloMosaic Idealize.ShloMosaic.ValueIdx Cert.KernelIdeal Cert.KernelIdeal.Gen

theorem mm2048_lhs0 (i : S2048x384.Idx) (k : dot_S2048x384_S384x384_S2048x384_1_0_0_1_n_n.contr.Idx) : (dot_S2048x384_S384x384_S2048x384_1_0_0_1_n_n.lhsIdx i k 0).val = (i 0).val := by
  unfold DotDims.lhsIdx
  rw [dif_neg (show ¬(0 : Fin S2048x384.rank) ∈ dot_S2048x384_S384x384_S2048x384_1_0_0_1_n_n.lhsBatch by decide), dif_pos (show (0 : Fin S2048x384.rank) ∈ dot_S2048x384_S384x384_S2048x384_1_0_0_1_n_n.lhsNonContracting by decide)]
  rfl
theorem mm2048_lhs1 (i : S2048x384.Idx) (k : dot_S2048x384_S384x384_S2048x384_1_0_0_1_n_n.contr.Idx) : (dot_S2048x384_S384x384_S2048x384_1_0_0_1_n_n.lhsIdx i k 1).val = (k ⟨0, by decide⟩).val :=
  dot_S2048x384_S384x384_S2048x384_1_0_0_1_n_n.lhsIdx_val_of_single rfl i k
theorem mm2048_rhs0 (i : S2048x384.Idx) (k : dot_S2048x384_S384x384_S2048x384_1_0_0_1_n_n.contr.Idx) : (dot_S2048x384_S384x384_S2048x384_1_0_0_1_n_n.rhsIdx i k 0).val = (k ⟨0, by decide⟩).val :=
  dot_S2048x384_S384x384_S2048x384_1_0_0_1_n_n.rhsIdx_val_of_single rfl i k
theorem mm2048_rhs1 (i : S2048x384.Idx) (k : dot_S2048x384_S384x384_S2048x384_1_0_0_1_n_n.contr.Idx) : (dot_S2048x384_S384x384_S2048x384_1_0_0_1_n_n.rhsIdx i k 1).val = (i 1).val := by
  unfold DotDims.rhsIdx
  rw [dif_neg (show ¬(1 : Fin S384x384.rank) ∈ dot_S2048x384_S384x384_S2048x384_1_0_0_1_n_n.rhsBatch by decide), dif_pos (show (1 : Fin S384x384.rank) ∈ dot_S2048x384_S384x384_S2048x384_1_0_0_1_n_n.rhsNonContracting by decide)]
  rfl

/-- The product of a `[2048, 384]` block with a `[384, 384]` matrix into the zero accumulator, read at `(q, e)`:
    the sum over the contracted coordinate. -/
theorem mm2048_apply (a : FVec Ideal S2048x384 .bf16) (b : FVec Ideal S384x384 .bf16) (q : Fin 2048) (e : Fin 384) :
    matmul (F := Ideal) dot_S2048x384_S384x384_S2048x384_1_0_0_1_n_n none a b (constant (F := Ideal) S2048x384 .f32 0x00000000#32) (ix2 q e)
      = ∑ d : Fin 384, a (ix2 q d) * b (ix2 d e) := by
  refine (Ideal.matmul_constant_zero_apply dot_S2048x384_S384x384_S2048x384_1_0_0_1_n_n none a b (ix2 q e)).trans ?_
  rw [← Equiv.sum_comp (contrEquiv1 dot_S2048x384_S384x384_S2048x384_1_0_0_1_n_n 384 rfl rfl).symm]
  refine Finset.sum_congr rfl fun k _ => ?_
  have hk := contrEquiv1_symm_val dot_S2048x384_S384x384_S2048x384_1_0_0_1_n_n 384 rfl rfl k
  have el : dot_S2048x384_S384x384_S2048x384_1_0_0_1_n_n.lhsIdx (ix2 q e) ((contrEquiv1 dot_S2048x384_S384x384_S2048x384_1_0_0_1_n_n 384 rfl rfl).symm k) = ix2 q k :=
    funext fun x => Fin.ext (by
      match x with
      | ⟨0, _⟩ => exact mm2048_lhs0 _ _
      | ⟨1, _⟩ => exact (mm2048_lhs1 _ _).trans hk)
  have er : dot_S2048x384_S384x384_S2048x384_1_0_0_1_n_n.rhsIdx (ix2 q e) ((contrEquiv1 dot_S2048x384_S384x384_S2048x384_1_0_0_1_n_n 384 rfl rfl).symm k) = ix2 k e :=
    funext fun x => Fin.ext (by
      match x with
      | ⟨0, _⟩ => exact (mm2048_rhs0 _ _).trans hk
      | ⟨1, _⟩ => exact mm2048_rhs1 _ _)
  rw [el, er]

/-- The cached activations as a `[2048, 384]` matrix: entry `(s, d)` is entry `(0, s, d)` of the block. -/
theorem pay3_apply (v198 : Vec Ideal S1x2048x384 .f32) (s : Fin 2048) (d : Fin 384) :
    k0_pay3 (F := Ideal) v198 (ix2 s d) = v198 (ix3 0 s d) := by
  unfold k0_pay3
  refine (truncf_apply (s := S2048x384) (φ := .f32) (ψ := .bf16) _ bitsLt_bf16_f32 (ix2 s d)).trans ?_
  exact shapeCast_apply _ shapeCasts_S1x2048x384_S2048x384 (ix2 s d) (ix3 0 s d) (by
    rewrite [Shape.rowMajor_val_three, Shape.rowMajor_val_two]
    show (0 * 2048 + s.val) * 384 + d.val = s.val * 384 + d.val
    omega)

/-- The key projection of the whole sequence at head `h`, position `s`, column `r`: row `s` of the activations times
    column `48 h + r` of the matrix, plus the bias there. -/
theorem pay4_apply (v198 : Vec Ideal S1x2048x384 .f32) (v201 : Vec Ideal S384x384 .f32) (v208 : Vec Ideal S1x384 .f32)
    (h : Fin 8) (s : Fin 2048) (r : Fin 48) :
    k0_pay4 (F := Ideal) v198 v201 v208 (ix3 h s r)
      = (∑ d : Fin 384, v198 (ix3 0 s d) * v201 (ix2 d ⟨48 * h.val + r.val, by omega⟩)) + v208 (ix2 0 ⟨48 * h.val + r.val, by omega⟩) := by
  unfold k0_pay4
  refine (shapeCast_self _ shapeCasts_S8x2048x48_S8x2048x48 (ix3 h s r)).trans ?_
  refine (truncf_apply (s := S8x2048x48) (φ := .f32) (ψ := .bf16) _ bitsLt_bf16_f32 (ix3 h s r)).trans ?_
  refine (transpose_apply [1, 0, 2] _ transposes_S2048x8x48_p1_0_2_S8x2048x48 (ix3 h s r) (ix3 s h r) (fun b => match b with
    | ⟨0, _⟩ => rfl
    | ⟨1, _⟩ => rfl
    | ⟨2, _⟩ => rfl)).trans ?_
  refine (shapeCast_apply _ shapeCasts_S2048x384_S2048x8x48 (ix3 s h r) (ix2 s ⟨48 * h.val + r.val, by omega⟩) (by
    rewrite [Shape.rowMajor_val_two, Shape.rowMajor_val_three]
    show s.val * 384 + (48 * h.val + r.val) = (s.val * 8 + h.val) * 48 + r.val
    omega)).trans ?_
  refine (addf_apply (s := S2048x384) (φ := .f32) _ _ _).trans ?_
  refine congrArg₂ (· + ·) ?_ ?_
  · refine (mm2048_apply _ _ s _).trans ?_
    refine Finset.sum_congr rfl fun d _ => ?_
    exact congrArg₂ (· * ·) (pay3_apply v198 s d) (shapeCast_self v201 shapeCasts_S384x384_S384x384 _)
  · refine (broadcastTo_apply _ broadcasts_S1x384_S2048x384 _ (ix2 0 ⟨48 * h.val + r.val, by omega⟩) (fun a => match a with
      | ⟨0, _⟩ => by show 0 = if (1 : Nat) = 1 then 0 else _; rw [if_pos rfl]
      | ⟨1, _⟩ => by show 48 * h.val + r.val = if (384 : Nat) = 1 then 0 else _; rw [if_neg (by decide)]; rfl)).trans ?_
    exact shapeCast_self v208 shapeCasts_S1x384_S1x384 _

/-- The value projection of the whole sequence at head `h`, position `s`, column `r`: row `s` of the activations times
    column `48 h + r` of the matrix, plus the bias there. -/
theorem pay5_apply (v198 : Vec Ideal S1x2048x384 .f32) (v204 : Vec Ideal S384x384 .f32) (v213 : Vec Ideal S1x384 .f32)
    (h : Fin 8) (s : Fin 2048) (r : Fin 48) :
    k0_pay5 (F := Ideal) v198 v204 v213 (ix3 h s r)
      = (∑ d : Fin 384, v198 (ix3 0 s d) * v204 (ix2 d ⟨48 * h.val + r.val, by omega⟩)) + v213 (ix2 0 ⟨48 * h.val + r.val, by omega⟩) := by
  unfold k0_pay5
  refine (shapeCast_self _ shapeCasts_S8x2048x48_S8x2048x48 (ix3 h s r)).trans ?_
  refine (truncf_apply (s := S8x2048x48) (φ := .f32) (ψ := .bf16) _ bitsLt_bf16_f32 (ix3 h s r)).trans ?_
  refine (transpose_apply [1, 0, 2] _ transposes_S2048x8x48_p1_0_2_S8x2048x48 (ix3 h s r) (ix3 s h r) (fun b => match b with
    | ⟨0, _⟩ => rfl
    | ⟨1, _⟩ => rfl
    | ⟨2, _⟩ => rfl)).trans ?_
  refine (shapeCast_apply _ shapeCasts_S2048x384_S2048x8x48 (ix3 s h r) (ix2 s ⟨48 * h.val + r.val, by omega⟩) (by
    rewrite [Shape.rowMajor_val_two, Shape.rowMajor_val_three]
    show s.val * 384 + (48 * h.val + r.val) = (s.val * 8 + h.val) * 48 + r.val
    omega)).trans ?_
  refine (addf_apply (s := S2048x384) (φ := .f32) _ _ _).trans ?_
  refine congrArg₂ (· + ·) ?_ ?_
  · refine (mm2048_apply _ _ s _).trans ?_
    refine Finset.sum_congr rfl fun d _ => ?_
    exact congrArg₂ (· * ·) (pay3_apply v198 s d) (shapeCast_self v204 shapeCasts_S384x384_S384x384 _)
  · refine (broadcastTo_apply _ broadcasts_S1x384_S2048x384 _ (ix2 0 ⟨48 * h.val + r.val, by omega⟩) (fun a => match a with
      | ⟨0, _⟩ => by show 0 = if (1 : Nat) = 1 then 0 else _; rw [if_pos rfl]
      | ⟨1, _⟩ => by show 48 * h.val + r.val = if (384 : Nat) = 1 then 0 else _; rw [if_neg (by decide)]; rfl)).trans ?_
    exact shapeCast_self v213 shapeCasts_S1x384_S1x384 _

end Cert.PayProj

end
-- ==== Proof.PayProjOut.lean ====
/-
  The output projection read at an index at the ideal instance: the `[8, 2048, 48]` attention output read row-major as a
  `[2048, 384]` matrix (the head axis is NOT moved back), times a `[384, 384]` matrix into a zero accumulator, plus the
  bias row.
-/
import proofs.«115193_j84473416778245_2_alg».proof.Proof.PayProjKV

noncomputable section

namespace Cert.PayProj

open Idealize.ShloMosaic Idealize.ShloMosaic.ValueIdx Cert.KernelIdeal Cert.KernelIdeal.Gen

/-- The output projection at position `s`, column `e`. The `[8, 2048, 48]` attention output is read row-major as a
    `[2048, 384]` matrix: its entry `(s, d)` has flat position `384 s + d`, which in `[8, 2048, 48]` is head
    `(384 s + d) / 98304`, position `(384 s + d) / 48 % 2048`, coordinate `(384 s + d) % 48`. -/
theorem pay2_apply (v197 : Vec Ideal S8x2048x48 .f32) (v200 : Vec Ideal S384x384 .f32) (v204 : Vec Ideal S1x384 .f32)
    (s : Fin 2048) (e : Fin 384) :
    k0_pay2 (F := Ideal) v197 v200 v204 (ix3 0 s e)
      = (∑ d : Fin 384,
          v197 (ix3 ⟨(384 * s.val + d.val) / 98304, by have := s.isLt; have := d.isLt; omega⟩
                    ⟨(384 * s.val + d.val) / 48 % 2048, Nat.mod_lt _ (by norm_num)⟩
                    ⟨(384 * s.val + d.val) % 48, Nat.mod_lt _ (by norm_num)⟩) * v200 (ix2 d e))
        + v204 (ix2 0 e) := by
  unfold k0_pay2
  refine (shapeCast_apply _ shapeCasts_S2048x384_S1x2048x384 (ix3 0 s e) (ix2 s e) (by
    rewrite [Shape.rowMajor_val_two, Shape.rowMajor_val_three]
    show s.val * 384 + e.val = (0 * 2048 + s.val) * 384 + e.val
    omega)).trans ?_
  refine (addf_apply (s := S2048x384) (φ := .f32) _ _ _).trans ?_
  refine congrArg₂ (· + ·) ?_ ?_
  · refine (mm2048_apply _ _ s e).trans ?_
    refine Finset.sum_congr rfl fun d _ => ?_
    refine congrArg₂ (· * ·) ?_ (shapeCast_self v200 shapeCasts_S384x384_S384x384 _)
    refine (truncf_apply (s := S2048x384) (φ := .f32) (ψ := .bf16) _ bitsLt_bf16_f32 (ix2 s d)).trans ?_
    exact shapeCast_apply v197 shapeCasts_S8x2048x48_S2048x384 (ix2 s d) _ (by
      rewrite [Shape.rowMajor_val_three, Shape.rowMajor_val_two]
      have hs := s.isLt
      have hd := d.isLt
      show ((384 * s.val + d.val) / 98304 * 2048 + (384 * s.val + d.val) / 48 % 2048) * 48 + (384 * s.val + d.val) % 48 = s.val * 384 + d.val
      omega)
  · refine (broadcastTo_apply _ broadcasts_S1x384_S2048x384 _ (ix2 0 e) (fun a => match a with
      | ⟨0, _⟩ => by show 0 = if (1 : Nat) = 1 then 0 else _; rw [if_pos rfl]
      | ⟨1, _⟩ => by show e.val = if (384 : Nat) = 1 then 0 else _; rw [if_neg (by decide)]; rfl)).trans ?_
    exact shapeCast_self v204 shapeCasts_S1x384_S1x384 _

end Cert.PayProj

end
-- ==== Proof.AttnSpec.lean ====
/-
  Multi-head attention whose softmax runs over the HEAD axis, as one function of the five argument arrays.

  For a batch `b` and a position `s` the fused projection is `qkv b s e = (∑ d, x b s d * W e d) + bias e`, `e < 1152`.
  Its 1152 columns are packed head by head, 144 per head: 48 query columns, then 48 key columns, then 48 value
  columns. The score of head `h`, query position `q`, key position `k` is the inner product of the query and key
  rows times one fixed scale. The softmax is taken ACROSS THE EIGHT HEADS at a fixed pair `(q, k)`: subtract the
  maximum over heads, exponentiate, divide by the sum over heads. The weighted values are summed over the 2048 key
  positions. The `[8, 2048, 48]` result of a batch is then read as a `[2048, 384]` matrix in row-major order WITHOUT
  moving the head axis back, and projected once more with a bias.
-/
import Idealize.ShloMosaic.PureOps.Ideal
import Idealize.ShloMosaic.Lib.ValueIdx

noncomputable section

namespace Attn

open Idealize.ShloMosaic

/-- The scale of the scores, the single-precision word both programs print. -/
abbrev scale : EReal := Ideal.ofBits .f32 0x3E13CD3A#32
/-- The seed of a maximum: the single-precision word of minus infinity. -/
abbrev negInf : EReal := Ideal.ofBits .f32 0xFF800000#32

/-- Column `48 * part + r` of head `h` among the 1152 packed columns (`part` 0, 1, 2 for query, key, value). -/
def col (part : ℕ) (hp : part < 3) (h : Fin 8) (r : Fin 48) : Fin 1152 := ⟨144 * h.val + 48 * part + r.val, by omega⟩

variable (x : Fin 8 → Fin 2048 → Fin 384 → EReal) (W : Fin 1152 → Fin 384 → EReal) (bias : Fin 1152 → EReal)
  (Wo : Fin 384 → Fin 384 → EReal) (bo : Fin 384 → EReal)

/-- The fused projection. -/
def qkv (b : Fin 8) (s : Fin 2048) (e : Fin 1152) : EReal := (∑ d : Fin 384, x b s d * W e d) + bias e

def Q (b : Fin 8) (h : Fin 8) (s : Fin 2048) (r : Fin 48) : EReal := qkv x W bias b s (col 0 (by omega) h r)
def K (b : Fin 8) (h : Fin 8) (s : Fin 2048) (r : Fin 48) : EReal := qkv x W bias b s (col 1 (by omega) h r)
def V (b : Fin 8) (h : Fin 8) (s : Fin 2048) (r : Fin 48) : EReal := qkv x W bias b s (col 2 (by omega) h r)

/-- The scaled score of head `h` at the pair (query `q`, key `k`). -/
def score (b h : Fin 8) (q k : Fin 2048) : EReal := (∑ r : Fin 48, Q x W bias b h q r * K x W bias b h k r) * scale

/-- The maximum of the scores over the eight heads. -/
def smax (b : Fin 8) (q k : Fin 2048) : EReal := (Finset.univ : Finset (Fin 8)).fold max negInf (fun h => score x W bias b h q k)

/-- The shifted exponential. -/
def ex (b h : Fin 8) (q k : Fin 2048) : EReal := Ideal.exp (score x W bias b h q k - smax x W bias b q k)

/-- The softmax over heads. -/
def attn (b h : Fin 8) (q k : Fin 2048) : EReal := Ideal.div (ex x W bias b h q k) (∑ h' : Fin 8, ex x W bias b h' q k)

/-- The attention output of a batch, per head. -/
def vals (b h : Fin 8) (q : Fin 2048) (r : Fin 48) : EReal := ∑ k : Fin 2048, attn x W bias b h q k * V x W bias b h k r

/-- Entry `(s, d)` of the batch's `[8, 2048, 48]` output read row-major as `[2048, 384]`: flat position `384 s + d`. -/
def flat (b : Fin 8) (s : Fin 2048) (d : Fin 384) : EReal :=
  vals x W bias b ⟨(384 * s.val + d.val) / 98304, by have := s.isLt; have := d.isLt; omega⟩
    ⟨(384 * s.val + d.val) / 48 % 2048, Nat.mod_lt _ (by norm_num)⟩ ⟨(384 * s.val + d.val) % 48, Nat.mod_lt _ (by norm_num)⟩

/-- The result. -/
def out (b : Fin 8) (s : Fin 2048) (e : Fin 384) : EReal := (∑ d : Fin 384, flat x W bias b s d * Wo e d) + bo e

end Attn

end
-- ==== Proof.KernelOut.lean ====
/-
  The kernel's attention output and output block of a batch, entry by entry, as the reference's functions of five arrays.

  Stated over arbitrary arrays `X W Bi Wo Bo` under the hypotheses that relate the blocks to them: each point's tile is the
  reference's per-head values at the tile's rows (`hT`), and the output window's matrix and bias blocks are the transposed
  output weights and the output bias (`hWo`, `hBo`). A grid point `t` has batch `t / 8` and query tile `t % 8`.
-/
import proofs.«115193_j84473416778245_2_alg».proof.Proof.KernelIdealForms
import proofs.«115193_j84473416778245_2_alg».proof.Proof.PayProjOut
import proofs.«115193_j84473416778245_2_alg».proof.Proof.AttnSpec
import Idealize.ShloMosaic.Lib.Pipeline.Value
import Idealize.ShloMosaic.Lib.ValueIdx

set_option maxRecDepth 16384

noncomputable section

namespace Cert.KernelVal

open Idealize.ShloMosaic Idealize.ShloMosaic.TcCoe Idealize.ShloMosaic.ValueIdx
open Cert.KernelIdeal Cert.KernelIdeal.Gen Cert.KernelIdeal.Body Idealize.SL.Sem

section Generic

variable (m : (ℓ : Loc nD τ sig) → Buf (Elt Ideal) ℓ) (c : Dev nD)
variable (X : Fin 8 → Fin 2048 → Fin 384 → EReal) (W : Fin 1152 → Fin 384 → EReal) (Bi : Fin 1152 → EReal)
  (Wo : Fin 384 → Fin 384 → EReal) (Bo : Fin 384 → EReal)

/-- The three zero offsets of a whole rank-3 rectangle. -/
theorem off3_zero : (![0, 0, 0] : Fin 3 → ℕ) = fun _ => 0 :=
  funext fun a => by match a with | ⟨0, _⟩ => rfl | ⟨1, _⟩ => rfl | ⟨2, _⟩ => rfl
/-- The two zero offsets of a whole rank-2 rectangle. -/
theorem off2_zero : (![0, 0] : Fin 2 → ℕ) = fun _ => 0 :=
  funext fun a => by match a with | ⟨0, _⟩ => rfl | ⟨1, _⟩ => rfl

/-- The attention output of a batch, entry by entry. Row `s` of head `h` is row `s % 256` of the tile computed at the
    batch's point `s / 256`; that point has the same batch and query tile `s / 256`, and `256 (s / 256) + s % 256 = s`. -/
theorem attnF_apply
    (hT : ∀ (t' : Fin cfg0.N) (h : Fin 8) (p : Fin 256) (r : Fin 48),
      tileF m c t' (ix3 h p r)
        = Attn.vals X W Bi ⟨t'.val / 8, by have := t'.isLt; have h64 : cfg0.N = 64 := N_0; omega⟩ h
            ⟨256 * (t'.val % 8) + p.val, by have := p.isLt; omega⟩ r)
    (t : Fin cfg0.N) (h : Fin 8) (s : Fin 2048) (r : Fin 48) :
    attnF m c t (ix3 h s r)
      = Attn.vals X W Bi ⟨t.val / 8, by have := t.isLt; have h64 : cfg0.N = 64 := N_0; omega⟩ h s r := by
  have hs := s.isLt
  have ht := t.isLt
  have h64 : cfg0.N = 64 := N_0
  refine (hT (pt t ⟨s.val / 256, by omega⟩) h ⟨s.val % 256, Nat.mod_lt _ (by decide)⟩ r).trans ?_
  have hb : (⟨(pt t ⟨s.val / 256, by omega⟩).val / 8, by have := (pt t ⟨s.val / 256, by omega⟩).isLt; omega⟩ : Fin 8)
      = ⟨t.val / 8, by omega⟩ :=
    Fin.ext (by show (t.val - t.val % 8 + s.val / 256) / 8 = t.val / 8; omega)
  have hq : (⟨256 * ((pt t ⟨s.val / 256, by omega⟩).val % 8) + s.val % 256, by have := Nat.mod_lt s.val (show 0 < 256 by decide); omega⟩ : Fin 2048) = s :=
    Fin.ext (by show 256 * ((t.val - t.val % 8 + s.val / 256) % 8) + s.val % 256 = s.val; omega)
  rw [hb, hq]

/-- The output block of a batch, entry by entry, is the reference's output: the whole-rectangle loads read their arrays,
    the output projection reads the attention output row-major as a `[2048, 384]` matrix, and the attention output is the
    reference's per-head values. -/
theorem outF_apply
    (hT : ∀ (t' : Fin cfg0.N) (h : Fin 8) (p : Fin 256) (r : Fin 48),
      tileF m c t' (ix3 h p r)
        = Attn.vals X W Bi ⟨t'.val / 8, by have := t'.isLt; have h64 : cfg0.N = 64 := N_0; omega⟩ h
            ⟨256 * (t'.val % 8) + p.val, by have := p.isLt; omega⟩ r)
    (t : Fin cfg0.N)
    (hWo : ∀ d e : Fin 384, bWo m c t (ix2 d e) = Wo e d) (hBo : ∀ e : Fin 384, bBo m c t (ix2 0 e) = Bo e)
    (s : Fin 2048) (e : Fin 384) :
    outF m c t (ix3 0 s e)
      = Attn.out X W Bi Wo Bo ⟨t.val / 8, by have := t.isLt; have h64 : cfg0.N = 64 := N_0; omega⟩ s e := by
  unfold outF
  rw [View.ld_unit_zero off3_zero, View.ld_unit_zero off2_zero, View.ld_unit_zero off2_zero]
  refine (Cert.PayProj.pay2_apply _ _ _ s e).trans ?_
  unfold Attn.out Attn.flat
  refine congrArg₂ (· + ·) (Finset.sum_congr rfl fun d _ => ?_) (hBo e)
  exact congrArg₂ (· * ·) (attnF_apply m c X W Bi hT t _ _ _) (hWo d e)

end Generic

end Cert.KernelVal

end
-- ==== Proof.PayTile.lean ====
import proofs.«115193_j84473416778245_2_alg».proof.Proof.KernelIdealData
import proofs.«115193_j84473416778245_2_alg».proof.Proof.AttnSpec

set_option maxRecDepth 16384

noncomputable section

namespace Cert.PayTile

open Idealize.ShloMosaic
open Cert.KernelIdeal Cert.KernelIdeal.Gen

variable {F : FTy → Type} [FloatOps F]

/-- The scaled scores of the query tile against one key tile: the inner products over the 48 columns of a head,
    batched over the eight heads, times the scale. -/
def scoresOf (q : FVec F S8x256x48 .bf16) (kt : Vec F S8x256x48 .bf16) : FVec F S8x256x256 .f32 :=
  mulf (matmul dot_S8x256x48_S8x256x48_S8x256x256_2_2_1_1_0_0 none q kt (constant S8x256x256 .f32 0x00000000#32))
    (broadcast S8x256x256 (Scalar.ofBits .f32 0x3E13CD3A#32))

/-- The softmax weights across the eight heads, from the scores of one key tile. -/
def weightsOf (v72 : FVec F S8x256x256 .f32) : FVec F S8x256x256 .f32 :=
  have v73 : FVec F S256x256 .f32 := multiReduction .maximumf [0] S256x256 v72 0xFF800000#32 reduces_S8x256x256_S256x256 (.inl rfl) rfl
  have v74 : FVec F S1x256x256 .f32 := shapeCast S1x256x256 v73 shapeCasts_S256x256_S1x256x256
  have v75 : FVec F S8x256x256 .f32 := broadcastTo S8x256x256 v74 broadcasts_S1x256x256_S8x256x256
  have v76 : FVec F S8x256x256 .f32 := subf v72 v75
  have v77 : FVec F S8x256x256 .f32 := exp v76
  have v78 : FVec F S256x256 .f32 := multiReduction .add [0] S256x256 v77 0x00000000#32 reduces_S8x256x256_S256x256 (.inl rfl) rfl
  have v79 : FVec F S1x256x256 .f32 := shapeCast S1x256x256 v78 shapeCasts_S256x256_S1x256x256
  have v80 : FVec F S8x256x256 .f32 := broadcastTo S8x256x256 v79 broadcasts_S1x256x256_S8x256x256
  divf v77 v80

/-- One key-tile step: the accumulator plus the softmax weights of the key tile times the value tile. -/
def stepOf (q : FVec F S8x256x48 .bf16) (acc : FVec F S8x256x48 .f32) (kt vt : Vec F S8x256x48 .bf16) : FVec F S8x256x48 .f32 :=
  addf acc (matmul dot_S8x256x256_S8x256x48_S8x256x48_2_1_1_2_0_0 none (truncf .bf16 (weightsOf (scoresOf q kt)) bitsLt_bf16_f32) vt
    (constant S8x256x48 .f32 0x00000000#32))

/-- The tile a grid point stores is eight key-tile steps from the zero accumulator. -/
theorem tileOf_eq_steps (v8 : Vec F S256x384 .f32) (v10 : Vec F S384x384 .f32) (v14 : Vec F S1x384 .f32)
    (k0 v0 k1 v1 k2 v2 k3 v3 k4 v4 k5 v5 k6 v6 k7 v7 : Vec F S8x256x48 .bf16) :
    Cert.KernelIdeal.Body.tileOf v8 v10 v14 k0 v0 k1 v1 k2 v2 k3 v3 k4 v4 k5 v5 k6 v6 k7 v7 =
      k0_pay1 (stepOf (k0_pay6 v8 v10 v14) (stepOf (k0_pay6 v8 v10 v14) (stepOf (k0_pay6 v8 v10 v14) (stepOf (k0_pay6 v8 v10 v14)
        (stepOf (k0_pay6 v8 v10 v14) (stepOf (k0_pay6 v8 v10 v14) (stepOf (k0_pay6 v8 v10 v14) (stepOf (k0_pay6 v8 v10 v14)
          (k0_pay7 (F := F)) k0 v0) k1 v1) k2 v2) k3 v3) k4 v4) k5 v5) k6 v6) k7 v7) := by
  unfold Cert.KernelIdeal.Body.tileOf k0_pay14 k0_pay13 k0_pay12 k0_pay11 k0_pay10 k0_pay9 k0_pay8 stepOf weightsOf scoresOf
  rfl

end Cert.PayTile

end
-- ==== Proof.PayTileDot.lean ====
import proofs.«115193_j84473416778245_2_alg».proof.Proof.KernelIdealData
import Idealize.ShloMosaic.Lib.ValueIdx
import Idealize.ShloMosaic.Lib.Pipeline.Value
import Idealize.ShloMosaic.PureOps.Ideal.Laws

set_option maxRecDepth 16384

noncomputable section

namespace Cert.PayTile

open Idealize.ShloMosaic
open Cert.KernelIdeal Cert.KernelIdeal.Gen

theorem dQK_lhs0 (i : S8x256x256.Idx) (c : dot_S8x256x48_S8x256x48_S8x256x256_2_2_1_1_0_0.contr.Idx) : (dot_S8x256x48_S8x256x48_S8x256x256_2_2_1_1_0_0.lhsIdx i c 0).val = (i 0).val := by
  unfold DotDims.lhsIdx
  rw [dif_pos (show (0 : Fin S8x256x48.rank) ∈ dot_S8x256x48_S8x256x48_S8x256x256_2_2_1_1_0_0.lhsBatch by decide)]
  rfl
theorem dQK_lhs1 (i : S8x256x256.Idx) (c : dot_S8x256x48_S8x256x48_S8x256x256_2_2_1_1_0_0.contr.Idx) : (dot_S8x256x48_S8x256x48_S8x256x256_2_2_1_1_0_0.lhsIdx i c 1).val = (i 1).val := by
  unfold DotDims.lhsIdx
  rw [dif_neg (show ¬(1 : Fin S8x256x48.rank) ∈ dot_S8x256x48_S8x256x48_S8x256x256_2_2_1_1_0_0.lhsBatch by decide), dif_pos (show (1 : Fin S8x256x48.rank) ∈ dot_S8x256x48_S8x256x48_S8x256x256_2_2_1_1_0_0.lhsNonContracting by decide)]
  rfl
theorem dQK_lhs2 (i : S8x256x256.Idx) (c : dot_S8x256x48_S8x256x48_S8x256x256_2_2_1_1_0_0.contr.Idx) : (dot_S8x256x48_S8x256x48_S8x256x256_2_2_1_1_0_0.lhsIdx i c 2).val = (c ⟨0, by decide⟩).val :=
  dot_S8x256x48_S8x256x48_S8x256x256_2_2_1_1_0_0.lhsIdx_val_of_single rfl i c
theorem dQK_rhs0 (i : S8x256x256.Idx) (c : dot_S8x256x48_S8x256x48_S8x256x256_2_2_1_1_0_0.contr.Idx) : (dot_S8x256x48_S8x256x48_S8x256x256_2_2_1_1_0_0.rhsIdx i c 0).val = (i 0).val := by
  unfold DotDims.rhsIdx
  rw [dif_pos (show (0 : Fin S8x256x48.rank) ∈ dot_S8x256x48_S8x256x48_S8x256x256_2_2_1_1_0_0.rhsBatch by decide)]
  rfl
theorem dQK_rhs1 (i : S8x256x256.Idx) (c : dot_S8x256x48_S8x256x48_S8x256x256_2_2_1_1_0_0.contr.Idx) : (dot_S8x256x48_S8x256x48_S8x256x256_2_2_1_1_0_0.rhsIdx i c 1).val = (i 2).val := by
  unfold DotDims.rhsIdx
  rw [dif_neg (show ¬(1 : Fin S8x256x48.rank) ∈ dot_S8x256x48_S8x256x48_S8x256x256_2_2_1_1_0_0.rhsBatch by decide), dif_pos (show (1 : Fin S8x256x48.rank) ∈ dot_S8x256x48_S8x256x48_S8x256x256_2_2_1_1_0_0.rhsNonContracting by decide)]
  rfl
theorem dQK_rhs2 (i : S8x256x256.Idx) (c : dot_S8x256x48_S8x256x48_S8x256x256_2_2_1_1_0_0.contr.Idx) : (dot_S8x256x48_S8x256x48_S8x256x256_2_2_1_1_0_0.rhsIdx i c 2).val = (c ⟨0, by decide⟩).val :=
  dot_S8x256x48_S8x256x48_S8x256x256_2_2_1_1_0_0.rhsIdx_val_of_single rfl i c

/-- The score product at (head, query, key): the inner product of the query row and the key row of that head. -/
theorem dotQK_apply (q kt : FVec Ideal S8x256x48 .bf16) (h : Fin 8) (p k : Fin 256) :
    matmul (F := Ideal) dot_S8x256x48_S8x256x48_S8x256x256_2_2_1_1_0_0 none q kt (constant S8x256x256 .f32 0x00000000#32) (ValueIdx.ix3 h p k)
      = ∑ r : Fin 48, q (ValueIdx.ix3 h p r) * kt (ValueIdx.ix3 h k r) := by
  simp only [matmul]
  rw [Ideal.matmul_constant_zero_apply, ← Equiv.sum_comp (ValueIdx.contrEquiv1 dot_S8x256x48_S8x256x48_S8x256x256_2_2_1_1_0_0 48 rfl rfl).symm]
  refine Finset.sum_congr rfl fun r _ => ?_
  have hk := ValueIdx.contrEquiv1_symm_val dot_S8x256x48_S8x256x48_S8x256x256_2_2_1_1_0_0 48 rfl rfl r
  have el : dot_S8x256x48_S8x256x48_S8x256x256_2_2_1_1_0_0.lhsIdx (ValueIdx.ix3 h p k) ((ValueIdx.contrEquiv1 dot_S8x256x48_S8x256x48_S8x256x256_2_2_1_1_0_0 48 rfl rfl).symm r) = ValueIdx.ix3 h p r := funext fun a => Fin.ext (by
    match a with
    | ⟨0, _⟩ => exact dQK_lhs0 _ _
    | ⟨1, _⟩ => exact dQK_lhs1 _ _
    | ⟨2, _⟩ => exact (dQK_lhs2 _ _).trans hk)
  have er : dot_S8x256x48_S8x256x48_S8x256x256_2_2_1_1_0_0.rhsIdx (ValueIdx.ix3 h p k) ((ValueIdx.contrEquiv1 dot_S8x256x48_S8x256x48_S8x256x256_2_2_1_1_0_0 48 rfl rfl).symm r) = ValueIdx.ix3 h k r := funext fun a => Fin.ext (by
    match a with
    | ⟨0, _⟩ => exact dQK_rhs0 _ _
    | ⟨1, _⟩ => exact dQK_rhs1 _ _
    | ⟨2, _⟩ => exact (dQK_rhs2 _ _).trans hk)
  rw [el, er]

theorem dWV_lhs0 (i : S8x256x48.Idx) (c : dot_S8x256x256_S8x256x48_S8x256x48_2_1_1_2_0_0.contr.Idx) : (dot_S8x256x256_S8x256x48_S8x256x48_2_1_1_2_0_0.lhsIdx i c 0).val = (i 0).val := by
  unfold DotDims.lhsIdx
  rw [dif_pos (show (0 : Fin S8x256x256.rank) ∈ dot_S8x256x256_S8x256x48_S8x256x48_2_1_1_2_0_0.lhsBatch by decide)]
  rfl
theorem dWV_lhs1 (i : S8x256x48.Idx) (c : dot_S8x256x256_S8x256x48_S8x256x48_2_1_1_2_0_0.contr.Idx) : (dot_S8x256x256_S8x256x48_S8x256x48_2_1_1_2_0_0.lhsIdx i c 1).val = (i 1).val := by
  unfold DotDims.lhsIdx
  rw [dif_neg (show ¬(1 : Fin S8x256x256.rank) ∈ dot_S8x256x256_S8x256x48_S8x256x48_2_1_1_2_0_0.lhsBatch by decide), dif_pos (show (1 : Fin S8x256x256.rank) ∈ dot_S8x256x256_S8x256x48_S8x256x48_2_1_1_2_0_0.lhsNonContracting by decide)]
  rfl
theorem dWV_lhs2 (i : S8x256x48.Idx) (c : dot_S8x256x256_S8x256x48_S8x256x48_2_1_1_2_0_0.contr.Idx) : (dot_S8x256x256_S8x256x48_S8x256x48_2_1_1_2_0_0.lhsIdx i c 2).val = (c ⟨0, by decide⟩).val :=
  dot_S8x256x256_S8x256x48_S8x256x48_2_1_1_2_0_0.lhsIdx_val_of_single rfl i c
theorem dWV_rhs0 (i : S8x256x48.Idx) (c : dot_S8x256x256_S8x256x48_S8x256x48_2_1_1_2_0_0.contr.Idx) : (dot_S8x256x256_S8x256x48_S8x256x48_2_1_1_2_0_0.rhsIdx i c 0).val = (i 0).val := by
  unfold DotDims.rhsIdx
  rw [dif_pos (show (0 : Fin S8x256x48.rank) ∈ dot_S8x256x256_S8x256x48_S8x256x48_2_1_1_2_0_0.rhsBatch by decide)]
  rfl
theorem dWV_rhs1 (i : S8x256x48.Idx) (c : dot_S8x256x256_S8x256x48_S8x256x48_2_1_1_2_0_0.contr.Idx) : (dot_S8x256x256_S8x256x48_S8x256x48_2_1_1_2_0_0.rhsIdx i c 1).val = (c ⟨0, by decide⟩).val :=
  dot_S8x256x256_S8x256x48_S8x256x48_2_1_1_2_0_0.rhsIdx_val_of_single rfl i c
theorem dWV_rhs2 (i : S8x256x48.Idx) (c : dot_S8x256x256_S8x256x48_S8x256x48_2_1_1_2_0_0.contr.Idx) : (dot_S8x256x256_S8x256x48_S8x256x48_2_1_1_2_0_0.rhsIdx i c 2).val = (i 2).val := by
  unfold DotDims.rhsIdx
  rw [dif_neg (show ¬(2 : Fin S8x256x48.rank) ∈ dot_S8x256x256_S8x256x48_S8x256x48_2_1_1_2_0_0.rhsBatch by decide), dif_pos (show (2 : Fin S8x256x48.rank) ∈ dot_S8x256x256_S8x256x48_S8x256x48_2_1_1_2_0_0.rhsNonContracting by decide)]
  rfl

/-- The weights-times-values product at (head, query, column): the sum over the tile's 256 keys. -/
theorem dotWV_apply (w : FVec Ideal S8x256x256 .bf16) (vt : FVec Ideal S8x256x48 .bf16) (h : Fin 8) (p : Fin 256) (r : Fin 48) :
    matmul (F := Ideal) dot_S8x256x256_S8x256x48_S8x256x48_2_1_1_2_0_0 none w vt (constant S8x256x48 .f32 0x00000000#32) (ValueIdx.ix3 h p r)
      = ∑ k : Fin 256, w (ValueIdx.ix3 h p k) * vt (ValueIdx.ix3 h k r) := by
  simp only [matmul]
  rw [Ideal.matmul_constant_zero_apply, ← Equiv.sum_comp (ValueIdx.contrEquiv1 dot_S8x256x256_S8x256x48_S8x256x48_2_1_1_2_0_0 256 rfl rfl).symm]
  refine Finset.sum_congr rfl fun k _ => ?_
  have hk := ValueIdx.contrEquiv1_symm_val dot_S8x256x256_S8x256x48_S8x256x48_2_1_1_2_0_0 256 rfl rfl k
  have el : dot_S8x256x256_S8x256x48_S8x256x48_2_1_1_2_0_0.lhsIdx (ValueIdx.ix3 h p r) ((ValueIdx.contrEquiv1 dot_S8x256x256_S8x256x48_S8x256x48_2_1_1_2_0_0 256 rfl rfl).symm k) = ValueIdx.ix3 h p k := funext fun a => Fin.ext (by
    match a with
    | ⟨0, _⟩ => exact dWV_lhs0 _ _
    | ⟨1, _⟩ => exact dWV_lhs1 _ _
    | ⟨2, _⟩ => exact (dWV_lhs2 _ _).trans hk)
  have er : dot_S8x256x256_S8x256x48_S8x256x48_2_1_1_2_0_0.rhsIdx (ValueIdx.ix3 h p r) ((ValueIdx.contrEquiv1 dot_S8x256x256_S8x256x48_S8x256x48_2_1_1_2_0_0 256 rfl rfl).symm k) = ValueIdx.ix3 h k r := funext fun a => Fin.ext (by
    match a with
    | ⟨0, _⟩ => exact dWV_rhs0 _ _
    | ⟨1, _⟩ => exact (dWV_rhs1 _ _).trans hk
    | ⟨2, _⟩ => exact dWV_rhs2 _ _)
  rw [el, er]

end Cert.PayTile

end
-- ==== Proof.PayTileRed.lean ====
import proofs.«115193_j84473416778245_2_alg».proof.Proof.KernelIdealData
import proofs.«115193_j84473416778245_2_alg».proof.Proof.AttnSpec
import Idealize.ShloMosaic.Lib.ValueIdx
import Idealize.ShloMosaic.Lib.Pipeline.Value
import Idealize.ShloMosaic.PureOps.Ideal.Laws

set_option maxRecDepth 16384

noncomputable section

namespace Cert.PayTile

open Idealize.ShloMosaic
open Cert.KernelIdeal Cert.KernelIdeal.Gen

/-- The maximum over the eight heads, spread back over the heads, at (head, query, key). -/
theorem maxHeads_apply (x : FVec Ideal S8x256x256 .f32) (h : Fin 8) (p k : Fin 256) :
    broadcastTo S8x256x256 (shapeCast S1x256x256
        (multiReduction (F := Ideal) .maximumf [0] S256x256 x 0xFF800000#32 reduces_S8x256x256_S256x256 (.inl rfl) rfl)
        shapeCasts_S256x256_S1x256x256) broadcasts_S1x256x256_S8x256x256 (ValueIdx.ix3 h p k)
      = (Finset.univ : Finset (Fin 8)).fold max Attn.negInf (fun h' => x (ValueIdx.ix3 h' p k)) := by
  rw [broadcastTo_apply _ _ _ (ValueIdx.ix3 (0 : Fin 1) p k) (by
    intro a
    match a with
    | ⟨0, _⟩ => rfl
    | ⟨1, _⟩ => rfl
    | ⟨2, _⟩ => rfl)]
  rw [shapeCast_addUnit_apply ![256, 256]]
  refine (Ideal.multiReduction_maximumf_single x _ reduces_S8x256x256_S256x256 _ _ _).trans ?_
  refine congrArg (fun f => (Finset.univ : Finset (Fin 8)).fold max Attn.negInf f) (funext fun h' => ?_)
  refine congrArg x (funext fun a => Fin.ext ?_)
  match a with
  | ⟨0, _⟩ => rfl
  | ⟨1, _⟩ => rfl
  | ⟨2, _⟩ => rfl

/-- The sum over the eight heads, spread back over the heads, at (head, query, key). -/
theorem sumHeads_apply (x : FVec Ideal S8x256x256 .f32) (h : Fin 8) (p k : Fin 256) :
    broadcastTo S8x256x256 (shapeCast S1x256x256
        (multiReduction (F := Ideal) .add [0] S256x256 x 0x00000000#32 reduces_S8x256x256_S256x256 (.inl rfl) rfl)
        shapeCasts_S256x256_S1x256x256) broadcasts_S1x256x256_S8x256x256 (ValueIdx.ix3 h p k)
      = ∑ h' : Fin 8, x (ValueIdx.ix3 h' p k) := by
  rw [broadcastTo_apply _ _ _ (ValueIdx.ix3 (0 : Fin 1) p k) (by
    intro a
    match a with
    | ⟨0, _⟩ => rfl
    | ⟨1, _⟩ => rfl
    | ⟨2, _⟩ => rfl)]
  rw [shapeCast_addUnit_apply ![256, 256]]
  refine (Ideal.multiReduction_add_single x _ reduces_S8x256x256_S256x256 _ _ _).trans ?_
  refine Finset.sum_congr rfl fun h' _ => ?_
  refine congrArg x (funext fun a => Fin.ext ?_)
  match a with
  | ⟨0, _⟩ => rfl
  | ⟨1, _⟩ => rfl
  | ⟨2, _⟩ => rfl

end Cert.PayTile

end
-- ==== Proof.PayTileStep.lean ====
import proofs.«115193_j84473416778245_2_alg».proof.Proof.PayTile
import proofs.«115193_j84473416778245_2_alg».proof.Proof.PayTileDot
import proofs.«115193_j84473416778245_2_alg».proof.Proof.PayTileRed
import Idealize.ShloMosaic.Lib.ValueIdx
import Idealize.ShloMosaic.Lib.Pipeline.Value
import Idealize.ShloMosaic.PureOps.Ideal.Laws

set_option maxRecDepth 16384

noncomputable section

namespace Cert.PayTile

open Idealize.ShloMosaic
open Cert.KernelIdeal Cert.KernelIdeal.Gen

section Step
variable (q : FVec Ideal S8x256x48 .bf16) (kt vt : Vec Ideal S8x256x48 .bf16)

/-- The scaled score of head `h` for query row `p` of the tile against key row `k` of the key tile. -/
def sc (p : Fin 256) (h : Fin 8) (k : Fin 256) : EReal :=
  (∑ r : Fin 48, q (ValueIdx.ix3 h p r) * kt (ValueIdx.ix3 h k r)) * Attn.scale
/-- The maximum of the scores over the eight heads. -/
def mx (p : Fin 256) (k : Fin 256) : EReal :=
  (Finset.univ : Finset (Fin 8)).fold max Attn.negInf (fun h' => sc q kt p h' k)
/-- The shifted exponential. -/
def ew (p : Fin 256) (h : Fin 8) (k : Fin 256) : EReal := Ideal.exp (sc q kt p h k - mx q kt p k)

theorem scoresOf_apply (h : Fin 8) (p k : Fin 256) :
    scoresOf (F := Ideal) q kt (ValueIdx.ix3 h p k) = sc q kt p h k := by
  unfold scoresOf sc
  refine (ValueIdx.mulf_apply _ _ _).trans ?_
  exact congrArg (· * Attn.scale) (dotQK_apply q kt h p k)

/-- The softmax weights across the heads, at (head, query, key), from any scores. -/
theorem weightsOf_apply (x : FVec Ideal S8x256x256 .f32) (h : Fin 8) (p k : Fin 256) :
    weightsOf (F := Ideal) x (ValueIdx.ix3 h p k)
      = Ideal.div (Ideal.exp (x (ValueIdx.ix3 h p k) - (Finset.univ : Finset (Fin 8)).fold max Attn.negInf (fun h' => x (ValueIdx.ix3 h' p k))))
          (∑ h'' : Fin 8, Ideal.exp (x (ValueIdx.ix3 h'' p k) - (Finset.univ : Finset (Fin 8)).fold max Attn.negInf (fun h' => x (ValueIdx.ix3 h' p k)))) := by
  have hexp : ∀ h0 : Fin 8,
      exp (F := Ideal) (subf x (broadcastTo S8x256x256 (shapeCast S1x256x256
        (multiReduction (F := Ideal) .maximumf [0] S256x256 x 0xFF800000#32 reduces_S8x256x256_S256x256 (.inl rfl) rfl)
        shapeCasts_S256x256_S1x256x256) broadcasts_S1x256x256_S8x256x256)) (ValueIdx.ix3 h0 p k)
      = Ideal.exp (x (ValueIdx.ix3 h0 p k) - (Finset.univ : Finset (Fin 8)).fold max Attn.negInf (fun h' => x (ValueIdx.ix3 h' p k))) :=
    fun h0 => congrArg (fun m => Ideal.exp (x (ValueIdx.ix3 h0 p k) - m)) (maxHeads_apply x h0 p k)
  unfold weightsOf
  refine (ValueIdx.divf_apply _ _ _).trans ?_
  refine congrArg₂ Ideal.div (hexp h) ?_
  refine (sumHeads_apply _ h p k).trans ?_
  exact Finset.sum_congr rfl fun h0 _ => hexp h0

/-- One key-tile step at (head, query, column): the accumulator plus the softmax-weighted sum of the value rows. -/
theorem stepOf_apply (acc : FVec Ideal S8x256x48 .f32) (h : Fin 8) (p : Fin 256) (r : Fin 48) :
    stepOf (F := Ideal) q acc kt vt (ValueIdx.ix3 h p r)
      = acc (ValueIdx.ix3 h p r)
        + ∑ k : Fin 256, Ideal.div (ew q kt p h k) (∑ h' : Fin 8, ew q kt p h' k) * vt (ValueIdx.ix3 h k r) := by
  unfold stepOf
  refine (ValueIdx.addf_apply _ _ _).trans ?_
  refine congrArg (acc (ValueIdx.ix3 h p r) + ·) ?_
  refine (dotWV_apply _ vt h p r).trans ?_
  refine Finset.sum_congr rfl fun k _ => ?_
  refine congrArg (· * vt (ValueIdx.ix3 h k r)) ?_
  refine (weightsOf_apply _ h p k).trans ?_
  have hs : ∀ h0 : Fin 8, scoresOf (F := Ideal) q kt (ValueIdx.ix3 h0 p k) = sc q kt p h0 k := fun h0 => scoresOf_apply q kt h0 p k
  unfold ew mx
  simp only [hs]

end Step

end Cert.PayTile

end
-- ==== Proof.PayTileSum.lean ====
import proofs.«115193_j84473416778245_2_alg».proof.Proof.PayTile
import proofs.«115193_j84473416778245_2_alg».proof.Proof.PayTileStep
import Idealize.ShloMosaic.Lib.ValueIdx
import Idealize.ShloMosaic.Lib.Pipeline.Value
import Idealize.ShloMosaic.PureOps.Ideal.Laws

set_option maxRecDepth 16384

noncomputable section

namespace Cert.PayTile

open Idealize.ShloMosaic
open Cert.KernelIdeal Cert.KernelIdeal.Gen

/-- The zero accumulator the first step starts from. -/
theorem pay7_apply (i : S8x256x48.Idx) : k0_pay7 (F := Ideal) i = 0 := by
  unfold k0_pay7
  exact Ideal.ofBits_zero_f32

/-- The final cast to the same shape changes nothing. -/
theorem pay1_eq (x : FVec Ideal S8x256x48 .f32) : k0_pay1 (F := Ideal) x = x := by
  unfold k0_pay1
  exact shapeCast_self x _

/-- The tile a grid point stores, at (head, query, column): the sum over the eight key tiles of the softmax-weighted
    sums of the value rows, the softmax taken across the heads within each key tile. -/
theorem tileOf_apply (v8 : Vec Ideal S256x384 .f32) (v10 : Vec Ideal S384x384 .f32) (v14 : Vec Ideal S1x384 .f32)
    (kk vv : Fin 8 → Vec Ideal S8x256x48 .bf16) (h : Fin 8) (p : Fin 256) (r : Fin 48) :
    Cert.KernelIdeal.Body.tileOf (F := Ideal) v8 v10 v14 (kk 0) (vv 0) (kk 1) (vv 1) (kk 2) (vv 2) (kk 3) (vv 3)
        (kk 4) (vv 4) (kk 5) (vv 5) (kk 6) (vv 6) (kk 7) (vv 7) (ValueIdx.ix3 h p r)
      = ∑ j : Fin 8, ∑ k : Fin 256,
          Ideal.div (ew (k0_pay6 v8 v10 v14) (kk j) p h k) (∑ h' : Fin 8, ew (k0_pay6 v8 v10 v14) (kk j) p h' k)
            * vv j (ValueIdx.ix3 h k r) := by
  rw [tileOf_eq_steps, pay1_eq]
  rw [stepOf_apply, stepOf_apply, stepOf_apply, stepOf_apply, stepOf_apply, stepOf_apply, stepOf_apply, stepOf_apply,
    pay7_apply, zero_add, Fin.sum_univ_eight]

end Cert.PayTile

end
-- ==== Proof.LibBlockedSum.lean ====
/-
  A finite sum taken block by block. A sum over the first `a * b` naturals, cut into `a` consecutive blocks of
  length `b`, is the sum over the blocks of each block's sum: block `s` holds the naturals `b * s + j`, `j < b`.
  This is only associativity and commutativity of the addition, so it holds in every commutative additive monoid —
  in particular on the extended reals, where nothing about finiteness is asked. Stated three ways: over ranges, with
  the inner sum over `Fin b`, and with the outer sum over `Fin n` for `n = a * b`.
-/
import Mathlib.Algebra.BigOperators.Fin
import Mathlib.Algebra.BigOperators.Intervals

namespace BlockedSum

open Finset

variable {β : Type*} [AddCommMonoid β]

/-- The sum over `range (a * b)` is the sum over the `a` blocks of the sums over each block's `b` members. -/
theorem sum_range_blocks (a b : ℕ) (g : ℕ → β) :
    ∑ s ∈ range a, ∑ j ∈ range b, g (b * s + j) = ∑ h ∈ range (a * b), g h := by
  induction a with
  | zero => simp
  | succ a ih =>
    rw [sum_range_succ, ih, Nat.succ_mul, sum_range_add, Nat.mul_comm a b]

/-- The same with each block's members indexed by `Fin b`. -/
theorem sum_range_blocks_fin (a b : ℕ) (g : ℕ → β) :
    ∑ s ∈ range a, ∑ j : Fin b, g (b * s + j.val) = ∑ h ∈ range (a * b), g h := by
  rw [← sum_range_blocks a b g]
  exact sum_congr rfl fun s _ => (Finset.sum_range fun j => g (b * s + j)).symm

/-- … and the whole sum indexed by `Fin n`, `n = a * b`: the form in which a contraction over an axis of extent `n`
    meets the same contraction accumulated tile by tile. -/
theorem sum_fin_blocks (a b n : ℕ) (hn : n = a * b) (g : ℕ → β) :
    ∑ s ∈ range a, ∑ j : Fin b, g (b * s + j.val) = ∑ h : Fin n, g h.val := by
  subst hn
  rw [sum_range_blocks_fin, Finset.sum_range]

end BlockedSum
-- ==== Proof.KernelTileCore.lean ====
import proofs.«115193_j84473416778245_2_alg».proof.Proof.PayTileSum
import proofs.«115193_j84473416778245_2_alg».proof.Proof.LibBlockedSum
import proofs.«115193_j84473416778245_2_alg».proof.Proof.AttnSpec
import Idealize.ShloMosaic.Lib.ValueIdx

set_option maxRecDepth 16384

noncomputable section

namespace Cert.KernelVal

open Idealize.ShloMosaic Idealize.ShloMosaic.ValueIdx
open Cert.KernelIdeal Cert.KernelIdeal.Gen Cert.KernelIdeal.Body Cert.PayTile

/-- The eight key tiles' softmax-weighted sums add up to the specification's attention output: when the query tile's
    rows are the specification's queries at positions `P p`, and key (value) tile `j` holds the specification's keys
    (values) at positions `256 j + k`, the sum over the tiles of the sums over each tile's 256 keys is the sum over
    all 2048 key positions. Only associativity and commutativity of the addition of extended reals are used. -/
theorem tile_vals (X : Fin 8 → Fin 2048 → Fin 384 → EReal) (W : Fin 1152 → Fin 384 → EReal) (Bi : Fin 1152 → EReal)
    (b : Fin 8) (q : FVec Ideal S8x256x48 .bf16) (kk vv : Fin 8 → Vec Ideal S8x256x48 .bf16) (P : Fin 256 → Fin 2048)
    (hQ : ∀ (h : Fin 8) (p : Fin 256) (r : Fin 48), q (ix3 h p r) = Attn.Q X W Bi b h (P p) r)
    (hK : ∀ (j : Fin 8) (h : Fin 8) (k : Fin 256) (r : Fin 48),
      kk j (ix3 h k r) = Attn.K X W Bi b h ⟨256 * j.val + k.val, by have := j.isLt; have := k.isLt; omega⟩ r)
    (hV : ∀ (j : Fin 8) (h : Fin 8) (k : Fin 256) (r : Fin 48),
      vv j (ix3 h k r) = Attn.V X W Bi b h ⟨256 * j.val + k.val, by have := j.isLt; have := k.isLt; omega⟩ r)
    (h : Fin 8) (p : Fin 256) (r : Fin 48) :
    ∑ j : Fin 8, ∑ k : Fin 256, Ideal.div (ew q (kk j) p h k) (∑ h' : Fin 8, ew q (kk j) p h' k) * vv j (ix3 h k r)
      = Attn.vals X W Bi b h (P p) r := by
  have hsc : ∀ (j : Fin 8) (h' : Fin 8) (k : Fin 256),
      sc q (kk j) p h' k = Attn.score X W Bi b h' (P p) ⟨256 * j.val + k.val, by have := j.isLt; have := k.isLt; omega⟩ := by
    intro j h' k
    unfold sc Attn.score
    refine congrArg (· * Attn.scale) (Finset.sum_congr rfl fun r' _ => ?_)
    rw [hQ, hK]
  have hmx : ∀ (j : Fin 8) (k : Fin 256),
      mx q (kk j) p k = Attn.smax X W Bi b (P p) ⟨256 * j.val + k.val, by have := j.isLt; have := k.isLt; omega⟩ := by
    intro j k
    unfold mx Attn.smax
    exact congrArg (fun f => (Finset.univ : Finset (Fin 8)).fold max Attn.negInf f) (funext fun h' => hsc j h' k)
  have hew : ∀ (j : Fin 8) (h' : Fin 8) (k : Fin 256),
      ew q (kk j) p h' k = Attn.ex X W Bi b h' (P p) ⟨256 * j.val + k.val, by have := j.isLt; have := k.isLt; omega⟩ := by
    intro j h' k
    unfold ew Attn.ex
    rw [hsc, hmx]
  unfold Attn.vals
  let g : ℕ → EReal := fun n =>
    if hn : n < 2048 then Attn.attn X W Bi b h (P p) ⟨n, hn⟩ * Attn.V X W Bi b h ⟨n, hn⟩ r else 0
  have hR : ∑ k : Fin 2048, Attn.attn X W Bi b h (P p) k * Attn.V X W Bi b h k r = ∑ k : Fin 2048, g k.val :=
    Finset.sum_congr rfl fun k _ => by
      show _ = dite _ _ _
      rw [dif_pos k.isLt]
  rw [hR, ← BlockedSum.sum_fin_blocks 8 256 2048 rfl g, Finset.sum_range]
  refine Finset.sum_congr rfl fun j _ => Finset.sum_congr rfl fun k _ => ?_
  have hlt : 256 * j.val + k.val < 2048 := by have := j.isLt; have := k.isLt; omega
  show _ = dite _ _ _
  rw [dif_pos hlt, hV]
  refine congrArg (· * Attn.V X W Bi b h ⟨256 * j.val + k.val, hlt⟩ r) ?_
  unfold Attn.attn
  exact congrArg₂ Ideal.div (hew j h k) (Finset.sum_congr rfl fun h' _ => hew j h' k)

end Cert.KernelVal

end
-- ==== Proof.PayHost.lean ====
/-
  What the region finds in the arrays the host operations write before it, read at an index at the ideal instance.

  Before the region the host regroups the packed `[1152, 384]` weight matrix into three transposed `[384, 384]` matrices
  (query, key, value: part `t` = 0, 1, 2 of each head's 144 rows) and the packed `[1152]` bias into three `[1, 384]` rows,
  transposes the output weights and reads the output bias as a row. Each array is first identified with the composition
  of the operations that wrote it, then that composition is read at an index: entry `(d, 48 h + r)` of a regrouped matrix
  is entry `(144 h + 48 t + r, d)` of the packed one.
-/
import proofs.«115193_j84473416778245_2_alg».proof.Proof.Gen.KernelIdeal.Frame
import proofs.«115193_j84473416778245_2_alg».proof.Proof.AttnSpec
import Idealize.ShloMosaic.Lib.Pipeline.Value
import Idealize.ShloMosaic.Lib.ValueIdx
import Idealize.ShloMosaic.Lib.StableHlo.Run

noncomputable section

namespace Cert.PayHost

open Idealize.ShloMosaic Idealize.ShloMosaic.TcCoe Idealize.ShloMosaic.ValueIdx Idealize.ShloMosaic.Tactic
open Cert.KernelIdeal Cert.KernelIdeal.Gen Idealize.SL.Sem

variable (m : (ℓ : Loc nD τ sig) → Buf (Elt Ideal) ℓ)

/-- One third of the packed weight matrix, regrouped and transposed. The `[1152, 384]` matrix is read as `[8, 3, 48, 384]`
    (row `144 h + 48 t + r` is head `h`, part `t`, coordinate `r`), part `t` is cut out, the rest read as `[384, 384]` (row
    `48 h + r`) and transposed: entry `(d, 48 h + r)` of the result is entry `(144 h + 48 t + r, d)` of the matrix. -/
theorem wpart_apply (W : Vec Ideal S1152x384 .f32) (t : ℕ) (ht : t < 3) (hs : S8x3x48x384.Slices ![0, t, 0, 0] S8x1x48x384)
    (d : Fin 384) (h : Fin 8) (r : Fin 48) :
    transpose S384x384 [1, 0]
        (shapeCast S384x384
          (shapeCast S8x48x384
            (extractStridedSlice S8x1x48x384 ![0, t, 0, 0] (shapeCast S8x3x48x384 W shapeCasts_S1152x384_S8x3x48x384) hs)
            shapeCasts_S8x1x48x384_S8x48x384)
          shapeCasts_S8x48x384_S384x384)
        transposes_S384x384_S384x384_1_0 (ix2 d ⟨48 * h.val + r.val, by omega⟩)
      = W (ix2 (Attn.col t ht h r) d) := by
  refine (transpose_apply [1, 0] _ transposes_S384x384_S384x384_1_0 (ix2 d ⟨48 * h.val + r.val, by omega⟩) (ix2 ⟨48 * h.val + r.val, by omega⟩ d) (fun b => match b with
    | ⟨0, _⟩ => rfl
    | ⟨1, _⟩ => rfl)).trans ?_
  refine (shapeCast_apply _ shapeCasts_S8x48x384_S384x384 (ix2 ⟨48 * h.val + r.val, by omega⟩ d) (ix3 h r d) (by
    rewrite [Shape.rowMajor_val_three, Shape.rowMajor_val_two]
    show (h.val * 48 + r.val) * 384 + d.val = (48 * h.val + r.val) * 384 + d.val
    omega)).trans ?_
  refine (shapeCast_apply _ shapeCasts_S8x1x48x384_S8x48x384 (ix3 h r d) (ix4 h 0 r d) (by
    rewrite [Shape.rowMajor_val_four, Shape.rowMajor_val_three]
    show ((h.val * 1 + 0) * 48 + r.val) * 384 + d.val = (h.val * 48 + r.val) * 384 + d.val
    omega)).trans ?_
  refine (extractStridedSlice_apply ![0, t, 0, 0] _ hs (ix4 h 0 r d) (ix4 h ⟨t, ht⟩ r d) (fun a => match a with
    | ⟨0, _⟩ => by show h.val = 0 + h.val; omega
    | ⟨1, _⟩ => by show t = t + 0; omega
    | ⟨2, _⟩ => by show r.val = 0 + r.val; omega
    | ⟨3, _⟩ => by show d.val = 0 + d.val; omega)).trans ?_
  exact shapeCast_apply W shapeCasts_S1152x384_S8x3x48x384 (ix4 h ⟨t, ht⟩ r d) (ix2 (Attn.col t ht h r) d) (by
    rewrite [Shape.rowMajor_val_two, Shape.rowMajor_val_four]
    show (144 * h.val + 48 * t + r.val) * 384 + d.val = ((h.val * 3 + t) * 48 + r.val) * 384 + d.val
    omega)

/-- One third of the packed bias as a `[1, 384]` row: entry `(0, 48 h + r)` is entry `144 h + 48 t + r` of the bias. -/
theorem bpart_apply (B : Vec Ideal S1152 .f32) (t : ℕ) (ht : t < 3) (hs : S8x3x48.Slices ![0, t, 0] S8x1x48)
    (h : Fin 8) (r : Fin 48) :
    shapeCast S1x384
        (shapeCast S8x48
          (extractStridedSlice S8x1x48 ![0, t, 0] (shapeCast S8x3x48 B shapeCasts_S1152_S8x3x48) hs)
          shapeCasts_S8x1x48_S8x48)
        shapeCasts_S8x48_S1x384 (ix2 0 ⟨48 * h.val + r.val, by omega⟩)
      = B (ix1 (Attn.col t ht h r)) := by
  refine (shapeCast_apply _ shapeCasts_S8x48_S1x384 (ix2 0 ⟨48 * h.val + r.val, by omega⟩) (ix2 h r) (by
    rewrite [Shape.rowMajor_val_two, Shape.rowMajor_val_two]
    show h.val * 48 + r.val = 0 * 384 + (48 * h.val + r.val)
    omega)).trans ?_
  refine (shapeCast_apply _ shapeCasts_S8x1x48_S8x48 (ix2 h r) (ix3 h 0 r) (by
    rewrite [Shape.rowMajor_val_three, Shape.rowMajor_val_two]
    show (h.val * 1 + 0) * 48 + r.val = h.val * 48 + r.val
    omega)).trans ?_
  refine (extractStridedSlice_apply ![0, t, 0] _ hs (ix3 h 0 r) (ix3 h ⟨t, ht⟩ r) (fun a => match a with
    | ⟨0, _⟩ => by show h.val = 0 + h.val; omega
    | ⟨1, _⟩ => by show t = t + 0; omega
    | ⟨2, _⟩ => by show r.val = 0 + r.val; omega)).trans ?_
  exact shapeCast_apply B shapeCasts_S1152_S8x3x48 (ix3 h ⟨t, ht⟩ r) (ix1 (Attn.col t ht h r)) (by
    rewrite [Shape.rowMajor_val_one, Shape.rowMajor_val_three]
    show 144 * h.val + 48 * t + r.val = (h.val * 3 + t) * 48 + r.val
    omega)

/-- The array the region finds in `main_v10`: part 0 of the packed weights, regrouped and transposed. -/
theorem V_main_v10_eq (c : Dev nD) :
    (Gen.V m c main_v10 : S384x384.Idx → EReal)
      = transpose S384x384 [1, 0]
          (shapeCast S384x384
            (shapeCast S8x48x384
              (extractStridedSlice S8x1x48x384 ![0, 0, 0, 0]
                (shapeCast S8x3x48x384 (m ((c : Thread nD τ).loc main_arg1) : S1152x384.Idx → EReal) shapeCasts_S1152x384_S8x3x48x384)
                slices_S8x3x48x384_S8x1x48x384_0_0_0_0)
              shapeCasts_S8x1x48x384_S8x48x384)
            shapeCasts_S8x48x384_S384x384)
          transposes_S384x384_S384x384_1_0 := by
  dsimp only [Gen.V, Gen.hostOps0]
  after_results
  rfl

theorem V_main_v10_apply (c : Dev nD) (d : Fin 384) (h : Fin 8) (r : Fin 48) :
    (Gen.V m c main_v10 : S384x384.Idx → EReal) (ix2 d ⟨48 * h.val + r.val, by omega⟩)
      = (m ((c : Thread nD τ).loc main_arg1) : S1152x384.Idx → EReal) (ix2 (Attn.col 0 (by omega) h r) d) :=
  (congrFun (V_main_v10_eq m c) _).trans (wpart_apply _ 0 (by omega) slices_S8x3x48x384_S8x1x48x384_0_0_0_0 d h r)

/-- The array the region finds in `main_v11`: part 1 of the packed weights, regrouped and transposed. -/
theorem V_main_v11_eq (c : Dev nD) :
    (Gen.V m c main_v11 : S384x384.Idx → EReal)
      = transpose S384x384 [1, 0]
          (shapeCast S384x384
            (shapeCast S8x48x384
              (extractStridedSlice S8x1x48x384 ![0, 1, 0, 0]
                (shapeCast S8x3x48x384 (m ((c : Thread nD τ).loc main_arg1) : S1152x384.Idx → EReal) shapeCasts_S1152x384_S8x3x48x384)
                slices_S8x3x48x384_S8x1x48x384_0_1_0_0)
              shapeCasts_S8x1x48x384_S8x48x384)
            shapeCasts_S8x48x384_S384x384)
          transposes_S384x384_S384x384_1_0 := by
  dsimp only [Gen.V, Gen.hostOps0]
  after_results
  rfl

theorem V_main_v11_apply (c : Dev nD) (d : Fin 384) (h : Fin 8) (r : Fin 48) :
    (Gen.V m c main_v11 : S384x384.Idx → EReal) (ix2 d ⟨48 * h.val + r.val, by omega⟩)
      = (m ((c : Thread nD τ).loc main_arg1) : S1152x384.Idx → EReal) (ix2 (Attn.col 1 (by omega) h r) d) :=
  (congrFun (V_main_v11_eq m c) _).trans (wpart_apply _ 1 (by omega) slices_S8x3x48x384_S8x1x48x384_0_1_0_0 d h r)

/-- The array the region finds in `main_v12`: part 2 of the packed weights, regrouped and transposed. -/
theorem V_main_v12_eq (c : Dev nD) :
    (Gen.V m c main_v12 : S384x384.Idx → EReal)
      = transpose S384x384 [1, 0]
          (shapeCast S384x384
            (shapeCast S8x48x384
              (extractStridedSlice S8x1x48x384 ![0, 2, 0, 0]
                (shapeCast S8x3x48x384 (m ((c : Thread nD τ).loc main_arg1) : S1152x384.Idx → EReal) shapeCasts_S1152x384_S8x3x48x384)
                slices_S8x3x48x384_S8x1x48x384_0_2_0_0)
              shapeCasts_S8x1x48x384_S8x48x384)
            shapeCasts_S8x48x384_S384x384)
          transposes_S384x384_S384x384_1_0 := by
  dsimp only [Gen.V, Gen.hostOps0]
  after_results
  rfl

theorem V_main_v12_apply (c : Dev nD) (d : Fin 384) (h : Fin 8) (r : Fin 48) :
    (Gen.V m c main_v12 : S384x384.Idx → EReal) (ix2 d ⟨48 * h.val + r.val, by omega⟩)
      = (m ((c : Thread nD τ).loc main_arg1) : S1152x384.Idx → EReal) (ix2 (Attn.col 2 (by omega) h r) d) :=
  (congrFun (V_main_v12_eq m c) _).trans (wpart_apply _ 2 (by omega) slices_S8x3x48x384_S8x1x48x384_0_2_0_0 d h r)

/-- The array the region finds in `main_v16`: part 0 of the packed bias as a row. -/
theorem V_main_v16_eq (c : Dev nD) :
    (Gen.V m c main_v16 : S1x384.Idx → EReal)
      = shapeCast S1x384
          (shapeCast S8x48
            (extractStridedSlice S8x1x48 ![0, 0, 0]
              (shapeCast S8x3x48 (m ((c : Thread nD τ).loc main_arg2) : S1152.Idx → EReal) shapeCasts_S1152_S8x3x48)
              slices_S8x3x48_S8x1x48_0_0_0)
            shapeCasts_S8x1x48_S8x48)
          shapeCasts_S8x48_S1x384 := by
  dsimp only [Gen.V, Gen.hostOps0]
  after_results
  rfl

theorem V_main_v16_apply (c : Dev nD) (h : Fin 8) (r : Fin 48) :
    (Gen.V m c main_v16 : S1x384.Idx → EReal) (ix2 0 ⟨48 * h.val + r.val, by omega⟩)
      = (m ((c : Thread nD τ).loc main_arg2) : S1152.Idx → EReal) (ix1 (Attn.col 0 (by omega) h r)) :=
  (congrFun (V_main_v16_eq m c) _).trans (bpart_apply _ 0 (by omega) slices_S8x3x48_S8x1x48_0_0_0 h r)

/-- The array the region finds in `main_v19`: part 1 of the packed bias as a row. -/
theorem V_main_v19_eq (c : Dev nD) :
    (Gen.V m c main_v19 : S1x384.Idx → EReal)
      = shapeCast S1x384
          (shapeCast S8x48
            (extractStridedSlice S8x1x48 ![0, 1, 0]
              (shapeCast S8x3x48 (m ((c : Thread nD τ).loc main_arg2) : S1152.Idx → EReal) shapeCasts_S1152_S8x3x48)
              slices_S8x3x48_S8x1x48_0_1_0)
            shapeCasts_S8x1x48_S8x48)
          shapeCasts_S8x48_S1x384 := by
  dsimp only [Gen.V, Gen.hostOps0]
  after_results
  rfl

theorem V_main_v19_apply (c : Dev nD) (h : Fin 8) (r : Fin 48) :
    (Gen.V m c main_v19 : S1x384.Idx → EReal) (ix2 0 ⟨48 * h.val + r.val, by omega⟩)
      = (m ((c : Thread nD τ).loc main_arg2) : S1152.Idx → EReal) (ix1 (Attn.col 1 (by omega) h r)) :=
  (congrFun (V_main_v19_eq m c) _).trans (bpart_apply _ 1 (by omega) slices_S8x3x48_S8x1x48_0_1_0 h r)

/-- The array the region finds in `main_v22`: part 2 of the packed bias as a row. -/
theorem V_main_v22_eq (c : Dev nD) :
    (Gen.V m c main_v22 : S1x384.Idx → EReal)
      = shapeCast S1x384
          (shapeCast S8x48
            (extractStridedSlice S8x1x48 ![0, 2, 0]
              (shapeCast S8x3x48 (m ((c : Thread nD τ).loc main_arg2) : S1152.Idx → EReal) shapeCasts_S1152_S8x3x48)
              slices_S8x3x48_S8x1x48_0_2_0)
            shapeCasts_S8x1x48_S8x48)
          shapeCasts_S8x48_S1x384 := by
  dsimp only [Gen.V, Gen.hostOps0]
  after_results
  rfl

theorem V_main_v22_apply (c : Dev nD) (h : Fin 8) (r : Fin 48) :
    (Gen.V m c main_v22 : S1x384.Idx → EReal) (ix2 0 ⟨48 * h.val + r.val, by omega⟩)
      = (m ((c : Thread nD τ).loc main_arg2) : S1152.Idx → EReal) (ix1 (Attn.col 2 (by omega) h r)) :=
  (congrFun (V_main_v22_eq m c) _).trans (bpart_apply _ 2 (by omega) slices_S8x3x48_S8x1x48_0_2_0 h r)

/-- The array the region finds in `main_v23`: the output weights transposed. -/
theorem V_main_v23_eq (c : Dev nD) :
    (Gen.V m c main_v23 : S384x384.Idx → EReal)
      = transpose S384x384 [1, 0] (m ((c : Thread nD τ).loc main_arg3) : S384x384.Idx → EReal) transposes_S384x384_S384x384_1_0 := by
  dsimp only [Gen.V, Gen.hostOps0]
  after_results

theorem V_main_v23_apply (c : Dev nD) (d e : Fin 384) :
    (Gen.V m c main_v23 : S384x384.Idx → EReal) (ix2 d e)
      = (m ((c : Thread nD τ).loc main_arg3) : S384x384.Idx → EReal) (ix2 e d) :=
  (congrFun (V_main_v23_eq m c) _).trans (transpose_apply [1, 0] _ transposes_S384x384_S384x384_1_0 (ix2 d e) (ix2 e d) (fun b => match b with
    | ⟨0, _⟩ => rfl
    | ⟨1, _⟩ => rfl))

/-- The array the region finds in `main_v24`: the output bias as a row. -/
theorem V_main_v24_eq (c : Dev nD) :
    (Gen.V m c main_v24 : S1x384.Idx → EReal)
      = shapeCast S1x384 (m ((c : Thread nD τ).loc main_arg4) : S384.Idx → EReal) shapeCasts_S384_S1x384 := by
  dsimp only [Gen.V, Gen.hostOps0]
  after_results
  rfl

theorem V_main_v24_apply (c : Dev nD) (e : Fin 384) :
    (Gen.V m c main_v24 : S1x384.Idx → EReal) (ix2 0 e)
      = (m ((c : Thread nD τ).loc main_arg4) : S384.Idx → EReal) (ix1 e) :=
  (congrFun (V_main_v24_eq m c) _).trans (shapeCast_apply _ shapeCasts_S384_S1x384 (ix2 0 e) (ix1 e) (by
    rewrite [Shape.rowMajor_val_one, Shape.rowMajor_val_two]
    show e.val = 0 * 384 + e.val
    omega))

end Cert.PayHost

end
-- ==== Proof.KernelBlocks.lean ====
/-
  The windows' blocks at a grid point read at an index in terms of the argument arrays, and the three projections of
  the batch's input (queries of a tile, keys, values) as the specification's.
-/
import proofs.«115193_j84473416778245_2_alg».proof.Proof.KernelIdealForms
import proofs.«115193_j84473416778245_2_alg».proof.Proof.PayProjOut
import proofs.«115193_j84473416778245_2_alg».proof.Proof.PayHost
import proofs.«115193_j84473416778245_2_alg».proof.Proof.AttnSpec

set_option maxRecDepth 16384

noncomputable section

namespace Cert.KernelVal

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ) (c : Dev nD)

/-- The five argument arrays as curried arrays of extended reals. -/
abbrev mX : Fin 8 → Fin 2048 → Fin 384 → EReal := fun b s d => (m ((c : Thread nD τ).loc main_arg0) : S8x2048x384.Idx → EReal) (ix3 b s d)
abbrev mW : Fin 1152 → Fin 384 → EReal := fun e d => (m ((c : Thread nD τ).loc main_arg1) : S1152x384.Idx → EReal) (ix2 e d)
abbrev mBi : Fin 1152 → EReal := fun e => (m ((c : Thread nD τ).loc main_arg2) : S1152.Idx → EReal) (ix1 e)
abbrev mWo : Fin 384 → Fin 384 → EReal := fun e d => (m ((c : Thread nD τ).loc main_arg3) : S384x384.Idx → EReal) (ix2 e d)
abbrev mBo : Fin 384 → EReal := fun e => (m ((c : Thread nD τ).loc main_arg4) : S384.Idx → EReal) (ix1 e)

/-- The batch of a grid point. -/
abbrev bt (t : Fin cfg0.N) : Fin 8 := ⟨t.val / 8, by have := t.isLt; have : cfg0.N = 64 := Gen.N_0; omega⟩

end Cert.KernelVal

end
-- ==== Proof.KernelTile.lean ====
import proofs.«115193_j84473416778245_2_alg».proof.Proof.KernelTileCore
import proofs.«115193_j84473416778245_2_alg».proof.Proof.KernelBlocks

set_option maxRecDepth 16384

noncomputable section

namespace Cert.KernelVal

open Idealize.ShloMosaic Idealize.ShloMosaic.TcCoe Idealize.ShloMosaic.ValueIdx Idealize.SL.Sem
open Cert.KernelIdeal Cert.KernelIdeal.Gen Cert.KernelIdeal.Body Cert.PayTile

/-- The printed offsets of key tile `j`: rows `256 j` onwards of every head. -/
theorem k0_off2_eq : ∀ j : Fin 8, k0_off2 (BitVec.ofNat 32 j.val) = ![0, 256 * j.val, 0] := by decide

/-- Key (value) tile `j` of a cache at (head, row, column) is the cache at row `256 j + k` of that head. -/
theorem ld_rT (Y : Vec Ideal S8x2048x48 .bf16) (j : Fin 8) (h : Fin 8) (k : Fin 256) (r : Fin 48) :
    View.ld Y (rT j) (ix3 h k r) = Y (ix3 h ⟨256 * j.val + k.val, by have := j.isLt; have := k.isLt; omega⟩ r) := by
  show Y ((rT j).idx (ix3 h k r)) = _
  refine congrArg Y (funext fun a => Fin.ext ?_)
  have e := k0_off2_eq j
  match a with
  | ⟨0, _⟩ =>
    show k0_off2 (BitVec.ofNat 32 j.val) 0 + 1 * h.val = h.val
    rw [e]; show 0 + 1 * h.val = h.val; omega
  | ⟨1, _⟩ =>
    show k0_off2 (BitVec.ofNat 32 j.val) 1 + 1 * k.val = 256 * j.val + k.val
    rw [e]; show 256 * j.val + 1 * k.val = 256 * j.val + k.val; omega
  | ⟨2, _⟩ =>
    show k0_off2 (BitVec.ofNat 32 j.val) 2 + 1 * r.val = r.val
    rw [e]; show 0 + 1 * r.val = r.val; omega

variable (m : (ℓ : Loc nD τ sig) → Buf (Elt Ideal) ℓ) (c : Dev nD)

/-- The tile of attention output a grid point computes is the specification's, at the point's batch and at the
    query positions of its tile — given that the batch's keys and values and the tile's queries are the specification's. -/
theorem tileF_apply (t : Fin cfg0.N)
    (hK : ∀ (h : Fin 8) (s : Fin 2048) (r : Fin 48), keysF m c t (ix3 h s r) = Attn.K (mX m c) (mW m c) (mBi m c) (bt t) h s r)
    (hV : ∀ (h : Fin 8) (s : Fin 2048) (r : Fin 48), valuesF m c t (ix3 h s r) = Attn.V (mX m c) (mW m c) (mBi m c) (bt t) h s r)
    (hQ : ∀ (h : Fin 8) (p : Fin 256) (r : Fin 48),
      k0_pay6 (xRows (bX m c t) (grid0.coords t)) (View.ld (bWq m c t) rW) (View.ld (bBq m c t) rB) (ix3 h p r)
        = Attn.Q (mX m c) (mW m c) (mBi m c) (bt t) h ⟨256 * (t.val % 8) + p.val, by have := p.isLt; omega⟩ r)
    (h : Fin 8) (p : Fin 256) (r : Fin 48) :
    tileF m c t (ix3 h p r)
      = Attn.vals (mX m c) (mW m c) (mBi m c) (bt t) h ⟨256 * (t.val % 8) + p.val, by have := p.isLt; omega⟩ r := by
  have key := tileOf_apply (xRows (bX m c t) (grid0.coords t)) (View.ld (bWq m c t) rW) (View.ld (bBq m c t) rB)
    (fun j => View.ld (keysF m c t) (rT j)) (fun j => View.ld (valuesF m c t) (rT j)) h p r
  unfold tileF
  refine key.trans ?_
  exact tile_vals (mX m c) (mW m c) (mBi m c) (bt t) _ _ _
    (fun p' => ⟨256 * (t.val % 8) + p'.val, by have := p'.isLt; omega⟩) hQ
    (fun j h' k r' => (ld_rT (keysF m c t) j h' k r').trans (hK h' _ r'))
    (fun j h' k r' => (ld_rT (valuesF m c t) j h' k r').trans (hV h' _ r')) h p r

end Cert.KernelVal

end
-- ==== Proof.KernelBlocksRead.lean ====
/-
  The windows' blocks at a grid point read at an index in terms of the argument arrays, and the projections of the
  batch's input (keys, values, the queries of a tile) as the specification's.
-/
import proofs.«115193_j84473416778245_2_alg».proof.Proof.KernelBlocks

set_option maxRecDepth 16384

noncomputable section

namespace Cert.KernelVal

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ) (c : Dev nD)

/-- The input window's block index at a point: the point's batch. -/
theorem idxmap0 : ∀ t : Fin grid0.N, cc0_transform_0 (grid0.coords t) = ![t.val / 8, 0, 0] := by decide +kernel

/-- The input block at a point is the batch's slab of the input array. -/
theorem bX_apply (t : Fin cfg0.N) (s : Fin 2048) (d : Fin 384) :
    bX m c t (ix3 0 s d) = mX m c (bt t) s d := by
  unfold bX Gen.iblk
  rw [View.read_apply]
  show V m c main_arg0 (((cfg0.win 0).blk t).view.emb (ix3 0 s d)) = _
  rw [V_main_arg0]
  refine congrArg (m ((c : Thread nD τ).loc main_arg0) : S8x2048x384.Idx → EReal) (funext fun a => Fin.ext ?_)
  have h := idxmap0 t
  match a with
  | ⟨0, _⟩ =>
    show cc0_transform_0 (grid0.coords t) 0 * 1 + 1 * 0 = t.val / 8
    rw [h]; show (t.val / 8) * 1 + 1 * 0 = t.val / 8; omega
  | ⟨1, _⟩ =>
    show cc0_transform_0 (grid0.coords t) 1 * 2048 + 1 * s.val = s.val
    rw [h]; show 0 * 2048 + 1 * s.val = s.val; omega
  | ⟨2, _⟩ =>
    show cc0_transform_0 (grid0.coords t) 2 * 384 + 1 * d.val = d.val
    rw [h]; show 0 * 384 + 1 * d.val = d.val; omega

/-- The weight and bias windows hold their whole arrays at every point. -/
theorem bWq_eq (t : Fin cfg0.N) : bWq m c t = (Gen.V m c main_v10 : S384x384.Idx → EReal) := by
  funext j
  unfold bWq Gen.iblk
  rw [View.read_apply]
  show V m c main_v10 (((cfg0.win 1).blk t).view.emb j) = _
  refine congrArg (V m c main_v10 : S384x384.Idx → EReal) (funext fun a => Fin.ext ?_)
  match a with
  | ⟨0, _⟩ => show 0 * 384 + 1 * (j 0).val = (j 0).val; omega
  | ⟨1, _⟩ => show 0 * 384 + 1 * (j 1).val = (j 1).val; omega
theorem bWk_eq (t : Fin cfg0.N) : bWk m c t = (Gen.V m c main_v11 : S384x384.Idx → EReal) := by
  funext j
  unfold bWk Gen.iblk
  rw [View.read_apply]
  show V m c main_v11 (((cfg0.win 2).blk t).view.emb j) = _
  refine congrArg (V m c main_v11 : S384x384.Idx → EReal) (funext fun a => Fin.ext ?_)
  match a with
  | ⟨0, _⟩ => show 0 * 384 + 1 * (j 0).val = (j 0).val; omega
  | ⟨1, _⟩ => show 0 * 384 + 1 * (j 1).val = (j 1).val; omega
theorem bWv_eq (t : Fin cfg0.N) : bWv m c t = (Gen.V m c main_v12 : S384x384.Idx → EReal) := by
  funext j
  unfold bWv Gen.iblk
  rw [View.read_apply]
  show V m c main_v12 (((cfg0.win 3).blk t).view.emb j) = _
  refine congrArg (V m c main_v12 : S384x384.Idx → EReal) (funext fun a => Fin.ext ?_)
  match a with
  | ⟨0, _⟩ => show 0 * 384 + 1 * (j 0).val = (j 0).val; omega
  | ⟨1, _⟩ => show 0 * 384 + 1 * (j 1).val = (j 1).val; omega
theorem bBq_eq (t : Fin cfg0.N) : bBq m c t = (Gen.V m c main_v16 : S1x384.Idx → EReal) := by
  funext j
  unfold bBq Gen.iblk
  rw [View.read_apply]
  show V m c main_v16 (((cfg0.win 4).blk t).view.emb j) = _
  refine congrArg (V m c main_v16 : S1x384.Idx → EReal) (funext fun a => Fin.ext ?_)
  match a with
  | ⟨0, _⟩ => show 0 * 1 + 1 * (j 0).val = (j 0).val; omega
  | ⟨1, _⟩ => show 0 * 384 + 1 * (j 1).val = (j 1).val; omega
theorem bBk_eq (t : Fin cfg0.N) : bBk m c t = (Gen.V m c main_v19 : S1x384.Idx → EReal) := by
  funext j
  unfold bBk Gen.iblk
  rw [View.read_apply]
  show V m c main_v19 (((cfg0.win 5).blk t).view.emb j) = _
  refine congrArg (V m c main_v19 : S1x384.Idx → EReal) (funext fun a => Fin.ext ?_)
  match a with
  | ⟨0, _⟩ => show 0 * 1 + 1 * (j 0).val = (j 0).val; omega
  | ⟨1, _⟩ => show 0 * 384 + 1 * (j 1).val = (j 1).val; omega
theorem bBv_eq (t : Fin cfg0.N) : bBv m c t = (Gen.V m c main_v22 : S1x384.Idx → EReal) := by
  funext j
  unfold bBv Gen.iblk
  rw [View.read_apply]
  show V m c main_v22 (((cfg0.win 6).blk t).view.emb j) = _
  refine congrArg (V m c main_v22 : S1x384.Idx → EReal) (funext fun a => Fin.ext ?_)
  match a with
  | ⟨0, _⟩ => show 0 * 1 + 1 * (j 0).val = (j 0).val; omega
  | ⟨1, _⟩ => show 0 * 384 + 1 * (j 1).val = (j 1).val; omega
theorem bWo_eq (t : Fin cfg0.N) : bWo m c t = (Gen.V m c main_v23 : S384x384.Idx → EReal) := by
  funext j
  unfold bWo Gen.iblk
  rw [View.read_apply]
  show V m c main_v23 (((cfg0.win 7).blk t).view.emb j) = _
  refine congrArg (V m c main_v23 : S384x384.Idx → EReal) (funext fun a => Fin.ext ?_)
  match a with
  | ⟨0, _⟩ => show 0 * 384 + 1 * (j 0).val = (j 0).val; omega
  | ⟨1, _⟩ => show 0 * 384 + 1 * (j 1).val = (j 1).val; omega
theorem bBo_eq (t : Fin cfg0.N) : bBo m c t = (Gen.V m c main_v24 : S1x384.Idx → EReal) := by
  funext j
  unfold bBo Gen.iblk
  rw [View.read_apply]
  show V m c main_v24 (((cfg0.win 8).blk t).view.emb j) = _
  refine congrArg (V m c main_v24 : S1x384.Idx → EReal) (funext fun a => Fin.ext ?_)
  match a with
  | ⟨0, _⟩ => show 0 * 1 + 1 * (j 0).val = (j 0).val; omega
  | ⟨1, _⟩ => show 0 * 384 + 1 * (j 1).val = (j 1).val; omega

/-- The regrouped weights and biases in terms of the packed arrays. -/
theorem bWq_apply (t : Fin cfg0.N) (d : Fin 384) (h : Fin 8) (r : Fin 48) :
    bWq m c t (ix2 d ⟨48 * h.val + r.val, by omega⟩) = mW m c (Attn.col 0 (by omega) h r) d := by
  rw [bWq_eq]; exact Cert.PayHost.V_main_v10_apply m c d h r
theorem bWk_apply (t : Fin cfg0.N) (d : Fin 384) (h : Fin 8) (r : Fin 48) :
    bWk m c t (ix2 d ⟨48 * h.val + r.val, by omega⟩) = mW m c (Attn.col 1 (by omega) h r) d := by
  rw [bWk_eq]; exact Cert.PayHost.V_main_v11_apply m c d h r
theorem bWv_apply (t : Fin cfg0.N) (d : Fin 384) (h : Fin 8) (r : Fin 48) :
    bWv m c t (ix2 d ⟨48 * h.val + r.val, by omega⟩) = mW m c (Attn.col 2 (by omega) h r) d := by
  rw [bWv_eq]; exact Cert.PayHost.V_main_v12_apply m c d h r
theorem bBq_apply (t : Fin cfg0.N) (h : Fin 8) (r : Fin 48) :
    bBq m c t (ix2 0 ⟨48 * h.val + r.val, by omega⟩) = mBi m c (Attn.col 0 (by omega) h r) := by
  rw [bBq_eq]; exact Cert.PayHost.V_main_v16_apply m c h r
theorem bBk_apply (t : Fin cfg0.N) (h : Fin 8) (r : Fin 48) :
    bBk m c t (ix2 0 ⟨48 * h.val + r.val, by omega⟩) = mBi m c (Attn.col 1 (by omega) h r) := by
  rw [bBk_eq]; exact Cert.PayHost.V_main_v19_apply m c h r
theorem bBv_apply (t : Fin cfg0.N) (h : Fin 8) (r : Fin 48) :
    bBv m c t (ix2 0 ⟨48 * h.val + r.val, by omega⟩) = mBi m c (Attn.col 2 (by omega) h r) := by
  rw [bBv_eq]; exact Cert.PayHost.V_main_v22_apply m c h r
theorem bWo_apply (t : Fin cfg0.N) (d e : Fin 384) : bWo m c t (ix2 d e) = mWo m c e d := by
  rw [bWo_eq]; exact Cert.PayHost.V_main_v23_apply m c d e
theorem bBo_apply (t : Fin cfg0.N) (e : Fin 384) : bBo m c t (ix2 0 e) = mBo m c e := by
  rw [bBo_eq]; exact Cert.PayHost.V_main_v24_apply m c e

/-- A load through a whole-buffer rectangle reads the buffer. -/
theorem ld_rX (X : Vec Ideal S1x2048x384 .f32) : View.ld X rX = X :=
  View.ld_unit_zero (funext fun a => by match a with | ⟨0, _⟩ => rfl | ⟨1, _⟩ => rfl | ⟨2, _⟩ => rfl) _ X
theorem ld_rW (X : Vec Ideal S384x384 .f32) : View.ld X rW = X :=
  View.ld_unit_zero (funext fun a => by match a with | ⟨0, _⟩ => rfl | ⟨1, _⟩ => rfl) _ X
theorem ld_rB (X : Vec Ideal S1x384 .f32) : View.ld X rB = X :=
  View.ld_unit_zero (funext fun a => by match a with | ⟨0, _⟩ => rfl | ⟨1, _⟩ => rfl) _ X

/-- The keys of a point's batch are the specification's. -/
theorem keysF_apply (t : Fin cfg0.N) (h : Fin 8) (s : Fin 2048) (r : Fin 48) :
    keysF m c t (ix3 h s r) = Attn.K (mX m c) (mW m c) (mBi m c) (bt t) h s r := by
  unfold keysF
  rw [ld_rX, ld_rW, ld_rB, Cert.PayProj.pay4_apply, bBk_apply]
  unfold Attn.K Attn.qkv
  refine congrArg (· + mBi m c (Attn.col 1 (by omega) h r)) (Finset.sum_congr rfl fun d _ => ?_)
  rw [bX_apply, bWk_apply]

/-- The values of a point's batch are the specification's. -/
theorem valuesF_apply (t : Fin cfg0.N) (h : Fin 8) (s : Fin 2048) (r : Fin 48) :
    valuesF m c t (ix3 h s r) = Attn.V (mX m c) (mW m c) (mBi m c) (bt t) h s r := by
  unfold valuesF
  rw [ld_rX, ld_rW, ld_rB, Cert.PayProj.pay5_apply, bBv_apply]
  unfold Attn.V Attn.qkv
  refine congrArg (· + mBi m c (Attn.col 2 (by omega) h r)) (Finset.sum_congr rfl fun d _ => ?_)
  rw [bX_apply, bWv_apply]

/-- The query tile's first row at a point. -/
theorem off1_eq : ∀ t : Fin grid0.N, k0_off1 (grid0.coords t) = ![256 * (t.val % 8), 0] := by decide +kernel

/-- Row `p` of the query tile of point `t` is row `256 (t % 8) + p` of the batch's input block. -/
theorem xRows_apply (X : Vec Ideal S1x2048x384 .f32) (t : Fin cfg0.N) (p : Fin 256) (d : Fin 384) :
    xRows X (grid0.coords t) (ix2 p d)
      = X (ix3 0 (⟨256 * (t.val % 8) + p.val, by have := p.isLt; omega⟩ : Fin 2048) d) := by
  unfold xRows
  refine congrArg X ?_
  have h := off1_eq t
  have e1 : (Rect.unit (s := S2048x384) (k0_off1 (grid0.coords t)) S256x384.size (k0_off1_inb (grid0.coords t))).toLoadRect.idx (ix2 p d)
      = ix2 (⟨256 * (t.val % 8) + p.val, by have := p.isLt; omega⟩ : Fin 2048) d :=
    funext fun a => Fin.ext (by
      match a with
      | ⟨0, _⟩ =>
        show k0_off1 (grid0.coords t) 0 + 1 * p.val = 256 * (t.val % 8) + p.val
        rw [h]; show 256 * (t.val % 8) + 1 * p.val = 256 * (t.val % 8) + p.val; omega
      | ⟨1, _⟩ =>
        show k0_off1 (grid0.coords t) 1 + 1 * d.val = d.val
        rw [h]; show 0 + 1 * d.val = d.val; omega)
  rw [e1]
  have e2 : Shape.reshapeEquiv (squeezes_S1x2048x384_S2048x384).numel_eq
      (ix2 (⟨256 * (t.val % 8) + p.val, by have := p.isLt; omega⟩ : Fin 2048) d)
      = ix3 (0 : Fin 1) (⟨256 * (t.val % 8) + p.val, by have := p.isLt; omega⟩ : Fin 2048) d :=
    Shape.reshapeEquiv_eq_of_rowMajor _ (by
      rewrite [Shape.rowMajor_val_three, Shape.rowMajor_val_two]
      show (0 * 2048 + (256 * (t.val % 8) + p.val)) * 384 + d.val = (256 * (t.val % 8) + p.val) * 384 + d.val
      omega)
  rw [e2]
  exact funext fun a => Fin.ext (by
    match a with
    | ⟨0, _⟩ => rfl
    | ⟨1, _⟩ => show 0 + 1 * (256 * (t.val % 8) + p.val) = 256 * (t.val % 8) + p.val; omega
    | ⟨2, _⟩ => show 0 + 1 * d.val = d.val; omega)

/-- The queries of a point's tile are the specification's, at the tile's rows. -/
theorem queries_apply (t : Fin cfg0.N) (h : Fin 8) (p : Fin 256) (r : Fin 48) :
    k0_pay6 (F := Ideal) (xRows (bX m c t) (grid0.coords t)) (View.ld (bWq m c t) rW) (View.ld (bBq m c t) rB) (ix3 h p r)
      = Attn.Q (mX m c) (mW m c) (mBi m c) (bt t) h (⟨256 * (t.val % 8) + p.val, by have := p.isLt; omega⟩ : Fin 2048) r := by
  rw [ld_rW, ld_rB, Cert.PayProj.pay6_apply, bBq_apply]
  unfold Attn.Q Attn.qkv
  refine congrArg (· + mBi m c (Attn.col 0 (by omega) h r)) (Finset.sum_congr rfl fun d _ => ?_)
  rw [xRows_apply, bX_apply, bWq_apply]

end Cert.KernelVal

end
-- ==== Proof.KernelEntry.lean ====
/-
  The kernel's output block of a batch, entry by entry, is the reference's output of the five argument arrays: the
  assembly of the blocks read off the arrays, the three projections, the tile of attention output of each point, the
  batch's attention output and the output projection.
-/
import proofs.«115193_j84473416778245_2_alg».proof.Proof.KernelOut
import proofs.«115193_j84473416778245_2_alg».proof.Proof.KernelTile
import proofs.«115193_j84473416778245_2_alg».proof.Proof.KernelBlocksRead

set_option maxRecDepth 16384

noncomputable section

namespace Cert.KernelVal

open Idealize.ShloMosaic Idealize.ShloMosaic.TcCoe Idealize.ShloMosaic.ValueIdx
open Cert.KernelIdeal Cert.KernelIdeal.Gen Cert.KernelIdeal.Body Idealize.SL.Sem

variable (m : (ℓ : Loc nD τ sig) → Buf (Elt Ideal) ℓ) (c : Dev nD)

/-- The output block of a batch is the reference's output, given what each point's blocks read as: the keys, values and
    the tile's queries are the reference's projections, and the output window's blocks are the transposed output weights
    and the output bias. -/
theorem outF_entry_of
    (hK : ∀ (t : Fin cfg0.N) (h : Fin 8) (s : Fin 2048) (r : Fin 48),
      keysF m c t (ix3 h s r) = Attn.K (mX m c) (mW m c) (mBi m c) (bt t) h s r)
    (hV : ∀ (t : Fin cfg0.N) (h : Fin 8) (s : Fin 2048) (r : Fin 48),
      valuesF m c t (ix3 h s r) = Attn.V (mX m c) (mW m c) (mBi m c) (bt t) h s r)
    (hQ : ∀ (t : Fin cfg0.N) (h : Fin 8) (p : Fin 256) (r : Fin 48),
      k0_pay6 (xRows (bX m c t) (grid0.coords t)) (View.ld (bWq m c t) rW) (View.ld (bBq m c t) rB) (ix3 h p r)
        = Attn.Q (mX m c) (mW m c) (mBi m c) (bt t) h ⟨256 * (t.val % 8) + p.val, by have := p.isLt; omega⟩ r)
    (hWo : ∀ (t : Fin cfg0.N) (d e : Fin 384), bWo m c t (ix2 d e) = mWo m c e d)
    (hBo : ∀ (t : Fin cfg0.N) (e : Fin 384), bBo m c t (ix2 0 e) = mBo m c e)
    (t : Fin cfg0.N) (s : Fin 2048) (e : Fin 384) :
    outF (F := Ideal) m c t (ix3 0 s e)
      = Attn.out (mX m c) (mW m c) (mBi m c) (mWo m c) (mBo m c) (bt t) s e :=
  outF_apply m c (mX m c) (mW m c) (mBi m c) (mWo m c) (mBo m c)
    (fun t' h p r => tileF_apply m c t' (hK t') (hV t') (hQ t') h p r) t (hWo t) (hBo t) s e

/-- The same with the keys, values and output window read off the argument arrays: only the tile's queries are assumed. -/
theorem outF_entry_of_queries
    (hQ : ∀ (t : Fin cfg0.N) (h : Fin 8) (p : Fin 256) (r : Fin 48),
      k0_pay6 (xRows (bX m c t) (grid0.coords t)) (View.ld (bWq m c t) rW) (View.ld (bBq m c t) rB) (ix3 h p r)
        = Attn.Q (mX m c) (mW m c) (mBi m c) (bt t) h ⟨256 * (t.val % 8) + p.val, by have := p.isLt; omega⟩ r)
    (t : Fin cfg0.N) (s : Fin 2048) (e : Fin 384) :
    outF (F := Ideal) m c t (ix3 0 s e)
      = Attn.out (mX m c) (mW m c) (mBi m c) (mWo m c) (mBo m c) (bt t) s e :=
  outF_entry_of m c (keysF_apply m c) (valuesF_apply m c) hQ (bWo_apply m c) (bBo_apply m c) t s e

/-- The kernel's output block of the batch of point `t`, entry `(0, s, e)`, is the reference's output at batch `t / 8`. -/
theorem outF_entry (t : Fin cfg0.N) (s : Fin 2048) (e : Fin 384) :
    outF (F := Ideal) m c t (ix3 0 s e)
      = Attn.out (mX m c) (mW m c) (mBi m c) (mWo m c) (mBo m c) (bt t) s e :=
  outF_entry_of_queries m c (queries_apply m c) t s e

end Cert.KernelVal

end
-- ==== Proof.KernelValueGen.lean ====
/-
  The kernel's result array as one function of the argument arrays: every index lies in the output block of the last
  point of its batch, what that point writes back is its block of the function, so the array ends holding the function.
  Stated for any proof data whose body leaves the batch's output block in the output window.
-/
import proofs.«115193_j84473416778245_2_alg».proof.Proof.KernelEntry

set_option maxRecDepth 16384

noncomputable section

namespace Cert.KernelVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body

variable (m : (ℓ : Loc nD τ sig) → Buf (Elt Ideal) ℓ) (c : Dev nD)

/-- The output window's block index at a point: the point's batch. -/
theorem idxmap9 : ∀ t : Fin grid0.N, cc0_transform_9 (grid0.coords t) = ![t.val / 8, 0, 0] := by decide +kernel

/-- An index of the result array is in a point's output block iff each coordinate is in the block's range. -/
theorem mem_blk9 (t : Fin cfg0.N) (i : S8x2048x384.Idx) :
    i ∈ ((cfg0.win 9).blk t).view.set ↔ ∀ a : Fin 3, win0_9.index t a * S1x2048x384.size a ≤ (i a).val
      ∧ (i a).val < win0_9.index t a * S1x2048x384.size a + S1x2048x384.size a := by
  show i ∈ ((View.whole main_v25).slice (win0_9.rect t)).set ↔ _
  rw [View.set_slice_whole, Rect.mem_set_unit]
  exact Iff.rfl

/-- Every index of the result array is in the output block of the last point of its batch, which writes back. -/
theorem cover9 (i : S8x2048x384.Idx) :
    ∃ t : Fin cfg0.N, (cfg0.win 9).flush t = true ∧ i ∈ ((cfg0.win 9).blk t).view.set := by
  have hi0 : (i 0).val < 8 := (i 0).isLt
  have hi1 : (i 1).val < 2048 := (i 1).isLt
  have hi2 : (i 2).val < 384 := (i 2).isLt
  have hN : cfg0.N = 64 := N_0
  have hN' : grid0.N = 64 := N_0
  obtain ⟨t0, ht0⟩ : ∃ t0 : Fin cfg0.N, t0.val = 8 * (i 0).val + 7 := ⟨⟨8 * (i 0).val + 7, by omega⟩, rfl⟩
  refine ⟨t0, (flush0_9 t0).2 (by omega), ?_⟩
  rw [mem_blk9]
  have h := idxmap9 t0
  intro a
  match a with
  | ⟨0, _⟩ =>
    show cc0_transform_9 (grid0.coords t0) 0 * 1 ≤ (i 0).val ∧ (i 0).val < cc0_transform_9 (grid0.coords t0) 0 * 1 + 1
    rw [h]
    show t0.val / 8 * 1 ≤ (i 0).val ∧ (i 0).val < t0.val / 8 * 1 + 1
    omega
  | ⟨1, _⟩ =>
    show cc0_transform_9 (grid0.coords t0) 1 * 2048 ≤ (i 1).val ∧ (i 1).val < cc0_transform_9 (grid0.coords t0) 1 * 2048 + 2048
    rw [h]
    show 0 * 2048 ≤ (i 1).val ∧ (i 1).val < 0 * 2048 + 2048
    omega
  | ⟨2, _⟩ =>
    show cc0_transform_9 (grid0.coords t0) 2 * 384 ≤ (i 2).val ∧ (i 2).val < cc0_transform_9 (grid0.coords t0) 2 * 384 + 384
    rw [h]
    show 0 * 384 ≤ (i 2).val ∧ (i 2).val < 0 * 384 + 384
    omega

/-- The result array as one function of the five argument arrays. -/
def Gk : Buf (Elt Ideal) ((cfg0.win 9).arr.view.loc (c.tc : Thread nD τ)) :=
  fun (i : S8x2048x384.Idx) => Attn.out (mX m c) (mW m c) (mBi m c) (mWo m c) (mBo m c) (i 0) (i 1) (i 2)

theorem Gk_apply (b : Fin 8) (s : Fin 2048) (e : Fin 384) :
    (Gk m c : S8x2048x384.Idx → EReal) (ix3 b s e) = Attn.out (mX m c) (mW m c) (mBi m c) (mWo m c) (mBo m c) b s e := rfl

/-- Where a point's output block sits in the result array: the slab of the point's batch. -/
theorem emb_blk9 (t : Fin cfg0.N) (s : Fin 2048) (e : Fin 384) :
    (((cfg0.win 9).blk t).view.emb (ix3 (0 : Fin 1) s e) : S8x2048x384.Idx) = ix3 (bt t) s e := by
  refine funext fun a => Fin.ext ?_
  have h := idxmap9 t
  match a with
  | ⟨0, _⟩ =>
    show cc0_transform_9 (grid0.coords t) 0 * 1 + 1 * 0 = t.val / 8
    rw [h]; show (t.val / 8) * 1 + 1 * 0 = t.val / 8; omega
  | ⟨1, _⟩ =>
    show cc0_transform_9 (grid0.coords t) 1 * 2048 + 1 * s.val = s.val
    rw [h]; show 0 * 2048 + 1 * s.val = s.val; omega
  | ⟨2, _⟩ =>
    show cc0_transform_9 (grid0.coords t) 2 * 384 + 1 * e.val = e.val
    rw [h]; show 0 * 384 + 1 * e.val = e.val; omega

/-- What a point writes back is its block of the result function, for any proof data whose body leaves the batch's
    output block in the output window. -/
theorem flushed9_of (dat : Dat τ (Elt Ideal) Unit ℕ (UR sig nD τ) ℕ cfg0 c) (h9 : ∀ t, dat.after 9 t = outF m c t)
    (t : Fin cfg0.N) : dat.flushed 9 t = ((cfg0.win 9).blk t).view.read (Elt Ideal) (Gk m c) := by
  show (cfg0.win 9).cut (grid0.coords t) (dat.after 9 t) = _
  rw [h9]
  refine funext fun (y : S1x2048x384.Idx) => ?_
  obtain ⟨a, s, e, rfl⟩ : ∃ (a : Fin 1) (s : Fin 2048) (e : Fin 384), y = ix3 a s e := ⟨y 0, y 1, y 2, eq_ix3 y⟩
  obtain rfl : a = 0 := Subsingleton.elim _ _
  show outF m c t (ix3 0 s e) = (Gk m c : S8x2048x384.Idx → EReal) (((cfg0.win 9).blk t).view.emb (ix3 (0 : Fin 1) s e))
  rw [emb_blk9, Gk_apply, outF_entry]

/-- So the result array ends holding the result function. -/
theorem final9_of (dat : Dat τ (Elt Ideal) Unit ℕ (UR sig nD τ) ℕ cfg0 c) (h9 : ∀ t, dat.after 9 t = outF m c t) :
    dat.arrAt 9 cfg0.N = Gk m c :=
  dat.arrAt_eq_of_cover 9 (Gk m c) (fun t _ => flushed9_of m c dat h9 t) cover9

/-- The kernel's run re-posted, for any proof data over the region-entry arrays whose body leaves the batch's output
    block in the output window: the result array ends holding the result function, the arguments unchanged. -/
theorem kernel_run_of (ρ : Dev nD → PrngReg)
    (dats : (p : Fin 1) → (c : Dev nD) → Dat τ (Elt Ideal) Unit ℕ (UR sig nD τ) ℕ (cfgs p) c)
    (hA : ∀ c w, (dats 0 c).A w = V m c (Pipeline.arrRef spec0 w))
    (h9 : ∀ c t, (dats 0 c).after 9 t = outF m c t)
    (h : θ_run defs (onTc (τ := τ) (main (F := Ideal))) (s₀ m ρ) (Pipeline.FramePost cfgs dats 0 (V m))) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v25) = Gk m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run defs _ _).mono (fun _ h c => ⟨((h c).1 9).trans (final9_of m c (dats 0 c) (h9 c)),
      ((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

end Cert.KernelVal

end
-- ==== Proof.RefEntry.lean ====
/-
  The reference program's result, entry by entry: its host operations read one at a time at an index.
-/
import proofs.«115193_j84473416778245_2_alg».proof.Proof.Gen.ReferenceIdeal.Read
import proofs.«115193_j84473416778245_2_alg».proof.Proof.AttnSpec

noncomputable section

namespace Cert.RefEntry

open Cert.ReferenceIdeal Cert.ReferenceIdeal.Gen Cert.ReferenceIdeal.Read Idealize.ShloMosaic Idealize.ShloMosaic.ValueIdx

variable (x0 : (⟨S8x2048x384, .f32⟩ : BufTy).Contents (Elt Ideal)) (x1 : (⟨S1152x384, .f32⟩ : BufTy).Contents (Elt Ideal)) (x2 : (⟨S1152, .f32⟩ : BufTy).Contents (Elt Ideal))

/-- The arguments as curried arrays. -/
abbrev X : Fin 8 → Fin 2048 → Fin 384 → EReal := fun b s d => x0 (ix3 b s d)
abbrev W : Fin 1152 → Fin 384 → EReal := fun e d => x1 (ix2 e d)
abbrev B : Fin 1152 → EReal := fun e => x2 (ix1 e)

theorem lidx0 (b : Fin 8) (s : Fin 2048) (e : Fin 1152) (k : Fin 384) : lidx_main_v0 (ix3 b s e) k = ix3 b s k :=
  funext fun a => Fin.ext (by match a with | ⟨0, _⟩ => rfl | ⟨1, _⟩ => rfl | ⟨2, _⟩ => rfl)
theorem ridx0 (b : Fin 8) (s : Fin 2048) (e : Fin 1152) (k : Fin 384) : ridx_main_v0 (ix3 b s e) k = ix2 e k :=
  funext fun a => Fin.ext (by match a with | ⟨0, _⟩ => rfl | ⟨1, _⟩ => rfl)
theorem idx12 (b : Fin 8) (s : Fin 2048) (e : Fin 1152) : idx_main_v1 (idx_main_v2 (ix3 b s e)) = ix1 e :=
  funext fun a => Fin.ext (by match a with | ⟨0, _⟩ => rfl)

/-- The fused projection plus its bias. -/
theorem v3_eq (b : Fin 8) (s : Fin 2048) (e : Fin 1152) :
    val_main_v3 (F := Ideal) x0 x1 x2 (ix3 b s e) = Attn.qkv (X x0) (W x1) (B x2) b s e := by
  rw [val_main_v3_apply, val_main_v0_apply, val_main_v2_apply, val_main_v1_apply, idx12]
  unfold Attn.qkv
  rw [Ideal.addf_def]
  refine congrArg (· + x2 (ix1 e)) (Finset.sum_congr rfl fun k _ => ?_)
  rw [lidx0, ridx0]

/-- The packed column of head `h`, part `part`, offset `r`, as the reshape, the transpose and a slice reach it. -/
theorem idx456_0 (b h : Fin 8) (s : Fin 2048) (r : Fin 48) :
    idx_main_v4 (idx_main_v5 (idx_main_v6 (ix4 b h s r))) = ix3 b s (Attn.col 0 (by omega) h r) :=
  funext fun a => Fin.ext (by
    have := b.isLt; have := h.isLt; have := s.isLt; have := r.isLt
    match a with
    | ⟨0, _⟩ => show (((b.val * 2048 + s.val) * 8 + h.val) * 144 + r.val) / 2359296 = b.val; omega
    | ⟨1, _⟩ => show (((b.val * 2048 + s.val) * 8 + h.val) * 144 + r.val) / 1152 % 2048 = s.val; omega
    | ⟨2, _⟩ => show (((b.val * 2048 + s.val) * 8 + h.val) * 144 + r.val) % 1152 = 144 * h.val + 48 * 0 + r.val; omega)
theorem idx456_1 (b h : Fin 8) (s : Fin 2048) (r : Fin 48) :
    idx_main_v4 (idx_main_v5 (idx_main_v7 (ix4 b h s r))) = ix3 b s (Attn.col 1 (by omega) h r) :=
  funext fun a => Fin.ext (by
    have := b.isLt; have := h.isLt; have := s.isLt; have := r.isLt
    match a with
    | ⟨0, _⟩ => show (((b.val * 2048 + s.val) * 8 + h.val) * 144 + (48 + r.val)) / 2359296 = b.val; omega
    | ⟨1, _⟩ => show (((b.val * 2048 + s.val) * 8 + h.val) * 144 + (48 + r.val)) / 1152 % 2048 = s.val; omega
    | ⟨2, _⟩ => show (((b.val * 2048 + s.val) * 8 + h.val) * 144 + (48 + r.val)) % 1152 = 144 * h.val + 48 * 1 + r.val; omega)
theorem idx456_2 (b h : Fin 8) (s : Fin 2048) (r : Fin 48) :
    idx_main_v4 (idx_main_v5 (idx_main_v8 (ix4 b h s r))) = ix3 b s (Attn.col 2 (by omega) h r) :=
  funext fun a => Fin.ext (by
    have := b.isLt; have := h.isLt; have := s.isLt; have := r.isLt
    match a with
    | ⟨0, _⟩ => show (((b.val * 2048 + s.val) * 8 + h.val) * 144 + (96 + r.val)) / 2359296 = b.val; omega
    | ⟨1, _⟩ => show (((b.val * 2048 + s.val) * 8 + h.val) * 144 + (96 + r.val)) / 1152 % 2048 = s.val; omega
    | ⟨2, _⟩ => show (((b.val * 2048 + s.val) * 8 + h.val) * 144 + (96 + r.val)) % 1152 = 144 * h.val + 48 * 2 + r.val; omega)

/-- The query, key and value rows of a head. -/
theorem v6_eq (b h : Fin 8) (s : Fin 2048) (r : Fin 48) :
    val_main_v6 (F := Ideal) x0 x1 x2 (ix4 b h s r) = Attn.Q (X x0) (W x1) (B x2) b h s r := by
  rw [val_main_v6_apply, val_main_v5_apply, val_main_v4_apply, idx456_0, v3_eq]; rfl
theorem v7_eq (b h : Fin 8) (s : Fin 2048) (r : Fin 48) :
    val_main_v7 (F := Ideal) x0 x1 x2 (ix4 b h s r) = Attn.K (X x0) (W x1) (B x2) b h s r := by
  rw [val_main_v7_apply, val_main_v5_apply, val_main_v4_apply, idx456_1, v3_eq]; rfl
theorem v8_eq (b h : Fin 8) (s : Fin 2048) (r : Fin 48) :
    val_main_v8 (F := Ideal) x0 x1 x2 (ix4 b h s r) = Attn.V (X x0) (W x1) (B x2) b h s r := by
  rw [val_main_v8_apply, val_main_v5_apply, val_main_v4_apply, idx456_2, v3_eq]; rfl

theorem lidx9 (b h : Fin 8) (q k : Fin 2048) (r : Fin 48) : lidx_main_v9 (ix4 b h q k) r = ix4 b h q r :=
  funext fun a => Fin.ext (by match a with | ⟨0, _⟩ => rfl | ⟨1, _⟩ => rfl | ⟨2, _⟩ => rfl | ⟨3, _⟩ => rfl)
theorem ridx9 (b h : Fin 8) (q k : Fin 2048) (r : Fin 48) : ridx_main_v9 (ix4 b h q k) r = ix4 b h k r :=
  funext fun a => Fin.ext (by match a with | ⟨0, _⟩ => rfl | ⟨1, _⟩ => rfl | ⟨2, _⟩ => rfl | ⟨3, _⟩ => rfl)

/-- The scaled scores. -/
theorem v11_eq (b h : Fin 8) (q k : Fin 2048) :
    val_main_v11 (F := Ideal) x0 x1 x2 (ix4 b h q k) = Attn.score (X x0) (W x1) (B x2) b h q k := by
  rw [val_main_v11_apply, val_main_v9_apply, val_main_v10_apply, val_main_cst_apply, Ideal.mulf_def, Ideal.ofBits_def]
  unfold Attn.score
  refine congrArg (· * Attn.scale) (Finset.sum_congr rfl fun r _ => ?_)
  rw [lidx9, ridx9, v6_eq, v7_eq]

/-- The maximum over the heads, as the fold the reduction is. -/
theorem v12_eq (b : Fin 8) (q k : Fin 2048) :
    val_main_v12 (F := Ideal) x0 x1 x2 (ix3 b q k) = Attn.smax (X x0) (W x1) (B x2) b q k := by
  have hR : S8x8x2048x2048.Reduces [1] S8x2048x2048 := by decide
  unfold val_main_v12
  rw [Host.reduce_eq_fold_single FloatOps.maximumf _ _ reducesTo_S8x8x2048x2048_S8x2048x2048_d1 hR h_S_]
  unfold Attn.smax
  have hf : (val_main_v11 (F := Ideal) x0 x1 x2 ∘ hR.lift (ix3 b q k)) = fun h : Fin 8 => Attn.score (X x0) (W x1) (B x2) b h q k :=
    funext fun (h : Fin 8) => by
      refine Eq.trans ?_ (v11_eq x0 x1 x2 b h q k)
      exact congrArg (val_main_v11 (F := Ideal) x0 x1 x2) (funext fun a => Fin.ext (by
        match a with | ⟨0, _⟩ => rfl | ⟨1, _⟩ => rfl | ⟨2, _⟩ => rfl | ⟨3, _⟩ => rfl))
  rw [hf]
  rfl

/-- Minus infinity is neutral for the maximum. -/
theorem max_negInf (y : EReal) : max Attn.negInf y = y := by
  show max (Ideal.ofBits .f32 0xFF800000#32) y = y
  simp [Ideal.ofBits, Ideal.ieee]

/-- The maximum over the heads once more against minus infinity. -/
theorem v14_eq (b : Fin 8) (q k : Fin 2048) :
    val_main_v14 (F := Ideal) x0 x1 x2 (ix3 b q k) = Attn.smax (X x0) (W x1) (B x2) b q k := by
  rw [val_main_v14_apply, val_main_v13_apply, val_main_cst_1_apply, v12_eq, Ideal.maximumf_def, Ideal.ofBits_def]
  exact max_negInf _

theorem idx1516 (b h : Fin 8) (q k : Fin 2048) : idx_main_v15 (idx_main_v16 (ix4 b h q k)) = ix3 b q k :=
  funext fun a => Fin.ext (by match a with | ⟨0, _⟩ => rfl | ⟨1, _⟩ => rfl | ⟨2, _⟩ => rfl)
theorem idx2021 (b h : Fin 8) (q k : Fin 2048) : idx_main_v20 (idx_main_v21 (ix4 b h q k)) = ix3 b q k :=
  funext fun a => Fin.ext (by match a with | ⟨0, _⟩ => rfl | ⟨1, _⟩ => rfl | ⟨2, _⟩ => rfl)
theorem idx19 (b : Fin 8) (q k : Fin 2048) (h : Fin 8) : idx_main_v19 (ix3 b q k) h = ix4 b h q k :=
  funext fun a => Fin.ext (by match a with | ⟨0, _⟩ => rfl | ⟨1, _⟩ => rfl | ⟨2, _⟩ => rfl | ⟨3, _⟩ => rfl)

/-- The shifted exponentials. -/
theorem v18_eq (b h : Fin 8) (q k : Fin 2048) :
    val_main_v18 (F := Ideal) x0 x1 x2 (ix4 b h q k) = Attn.ex (X x0) (W x1) (B x2) b h q k := by
  rw [val_main_v18_apply, val_main_v17_apply, val_main_v16_apply, val_main_v15_apply, idx1516, v14_eq, v11_eq,
    Ideal.subf_def, Ideal.hostUnary_exp_def]
  rfl

/-- Their sum over the heads. -/
theorem v19_eq (b : Fin 8) (q k : Fin 2048) :
    val_main_v19 (F := Ideal) x0 x1 x2 (ix3 b q k) = ∑ h : Fin 8, Attn.ex (X x0) (W x1) (B x2) b h q k := by
  rw [val_main_v19_apply, val_main_cst_2_apply, Ideal.ofBits_def, Ideal.ofBits_zero_f32, zero_add]
  refine Finset.sum_congr rfl fun h _ => ?_
  rw [idx19, v18_eq]

/-- The softmax over the heads. -/
theorem v22_eq (b h : Fin 8) (q k : Fin 2048) :
    val_main_v22 (F := Ideal) x0 x1 x2 (ix4 b h q k) = Attn.attn (X x0) (W x1) (B x2) b h q k := by
  rw [val_main_v22_apply, val_main_v21_apply, val_main_v20_apply, idx2021, v19_eq, v18_eq, Ideal.hostDivf_def]
  rfl

theorem lidx23 (b h : Fin 8) (q : Fin 2048) (r : Fin 48) (k : Fin 2048) : lidx_main_v23 (ix4 b h q r) k = ix4 b h q k :=
  funext fun a => Fin.ext (by match a with | ⟨0, _⟩ => rfl | ⟨1, _⟩ => rfl | ⟨2, _⟩ => rfl | ⟨3, _⟩ => rfl)
theorem ridx23 (b h : Fin 8) (q : Fin 2048) (r : Fin 48) (k : Fin 2048) : ridx_main_v23 (ix4 b h q r) k = ix4 b h k r :=
  funext fun a => Fin.ext (by match a with | ⟨0, _⟩ => rfl | ⟨1, _⟩ => rfl | ⟨2, _⟩ => rfl | ⟨3, _⟩ => rfl)

/-- The weighted values, summed over the key positions. -/
theorem v23_eq (b h : Fin 8) (q : Fin 2048) (r : Fin 48) :
    val_main_v23 (F := Ideal) x0 x1 x2 (ix4 b h q r) = Attn.vals (X x0) (W x1) (B x2) b h q r := by
  rw [val_main_v23_apply]
  unfold Attn.vals
  refine Finset.sum_congr rfl fun k _ => ?_
  rw [lidx23, ridx23, v22_eq, v8_eq]

/-- The row-major reading of a batch's `[8, 2048, 48]` block as `[2048, 384]`. -/
theorem idx24 (b : Fin 8) (s : Fin 2048) (d : Fin 384) :
    idx_main_v24 (ix3 b s d) = ix4 b
      (⟨(384 * s.val + d.val) / 98304, by have := s.isLt; have := d.isLt; omega⟩ : Fin 8)
      (⟨(384 * s.val + d.val) / 48 % 2048, Nat.mod_lt _ (by norm_num)⟩ : Fin 2048)
      (⟨(384 * s.val + d.val) % 48, Nat.mod_lt _ (by norm_num)⟩ : Fin 48) :=
  funext fun a => Fin.ext (by
    have := b.isLt; have := s.isLt; have := d.isLt
    match a with
    | ⟨0, _⟩ => show ((b.val * 2048 + s.val) * 384 + d.val) / 786432 = b.val; omega
    | ⟨1, _⟩ => show ((b.val * 2048 + s.val) * 384 + d.val) / 98304 % 8 = (384 * s.val + d.val) / 98304; omega
    | ⟨2, _⟩ => show ((b.val * 2048 + s.val) * 384 + d.val) / 48 % 2048 = (384 * s.val + d.val) / 48 % 2048; omega
    | ⟨3, _⟩ => show ((b.val * 2048 + s.val) * 384 + d.val) % 48 = (384 * s.val + d.val) % 48; omega)

theorem v24_eq (b : Fin 8) (s : Fin 2048) (d : Fin 384) :
    val_main_v24 (F := Ideal) x0 x1 x2 (ix3 b s d) = Attn.flat (X x0) (W x1) (B x2) b s d := by
  rw [val_main_v24_apply, idx24, v23_eq]
  rfl

variable (x3 : (⟨S384x384, .f32⟩ : BufTy).Contents (Elt Ideal)) (x4 : (⟨S384, .f32⟩ : BufTy).Contents (Elt Ideal))

theorem lidx25 (b : Fin 8) (s : Fin 2048) (e : Fin 384) (k : Fin 384) : lidx_main_v25 (ix3 b s e) k = ix3 b s k :=
  funext fun a => Fin.ext (by match a with | ⟨0, _⟩ => rfl | ⟨1, _⟩ => rfl | ⟨2, _⟩ => rfl)
theorem ridx25 (b : Fin 8) (s : Fin 2048) (e : Fin 384) (k : Fin 384) : ridx_main_v25 (ix3 b s e) k = ix2 e k :=
  funext fun a => Fin.ext (by match a with | ⟨0, _⟩ => rfl | ⟨1, _⟩ => rfl)
theorem idx2627 (b : Fin 8) (s : Fin 2048) (e : Fin 384) : idx_main_v26 (idx_main_v27 (ix3 b s e)) = ix1 e :=
  funext fun a => Fin.ext (by match a with | ⟨0, _⟩ => rfl)

/-- The reference program's result, entry by entry, is the attention of the specification. -/
theorem ref_entry (b : Fin 8) (s : Fin 2048) (e : Fin 384) :
    val_main_v28 (F := Ideal) x0 x1 x2 x3 x4 (ix3 b s e)
      = Attn.out (fun b s d => x0 (ix3 b s d)) (fun e d => x1 (ix2 e d)) (fun e => x2 (ix1 e))
          (fun e d => x3 (ix2 e d)) (fun e => x4 (ix1 e)) b s e := by
  rw [val_main_v28_apply, val_main_v25_apply, val_main_v27_apply, val_main_v26_apply, idx2627, Ideal.addf_def]
  unfold Attn.out
  refine congrArg (· + x4 (ix1 e)) (Finset.sum_congr rfl fun k _ => ?_)
  rw [lidx25, ridx25, v24_eq]

end Cert.RefEntry

end
-- ==== Proof.RefRun.lean ====
/-
  The reference program's run: every execution ends with the result array holding the attention of the specification,
  as one function of the five argument arrays, and with the arguments unchanged.
-/
import proofs.«115193_j84473416778245_2_alg».proof.Proof.RefEntry
import proofs.«115193_j84473416778245_2_alg».proof.Defs
import proofs.«115193_j84473416778245_2_alg».proof.Proof.Gen.Pre_finite_inputs

noncomputable section

namespace Cert.RefEntry

open Cert.ReferenceIdeal Cert.ReferenceIdeal.Gen Cert.ReferenceIdeal.Read Idealize.ShloMosaic Idealize.ShloMosaic.TcCoe
  Idealize.ShloMosaic.ValueIdx Idealize.SL.Sem

/-- The result array as one function of the five argument arrays. -/
def G (x0 : (⟨S8x2048x384, .f32⟩ : BufTy).Contents (Elt Ideal)) (x1 : (⟨S1152x384, .f32⟩ : BufTy).Contents (Elt Ideal))
    (x2 : (⟨S1152, .f32⟩ : BufTy).Contents (Elt Ideal)) (x3 : (⟨S384x384, .f32⟩ : BufTy).Contents (Elt Ideal))
    (x4 : (⟨S384, .f32⟩ : BufTy).Contents (Elt Ideal)) : (⟨S8x2048x384, .f32⟩ : BufTy).Contents (Elt Ideal) :=
  fun i => Attn.out (fun b s d => x0 (ix3 b s d)) (fun e d => x1 (ix2 e d)) (fun e => x2 (ix1 e))
    (fun e d => x3 (ix2 e d)) (fun e => x4 (ix1 e)) (i 0) (i 1) (i 2)

/-- The reference's last operation computes that function. -/
theorem ref_is_G (x0 : (⟨S8x2048x384, .f32⟩ : BufTy).Contents (Elt Ideal)) (x1 : (⟨S1152x384, .f32⟩ : BufTy).Contents (Elt Ideal))
    (x2 : (⟨S1152, .f32⟩ : BufTy).Contents (Elt Ideal)) (x3 : (⟨S384x384, .f32⟩ : BufTy).Contents (Elt Ideal))
    (x4 : (⟨S384, .f32⟩ : BufTy).Contents (Elt Ideal)) :
    val_main_v28 (F := Ideal) x0 x1 x2 x3 x4 = G x0 x1 x2 x3 x4 := by
  funext i
  rw [eq_ix3 i]
  exact ref_entry x0 x1 x2 x3 x4 (i 0) (i 1) (i 2)

/-- Every execution of the reference ends with the result array at `G` of the arguments' initial contents, the
    arguments unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v28)
        = G (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans ((Cert.ReferenceIdeal.Read.val_main_v28_eq (F := Ideal) m' c).trans (ref_is_G _ _ _ _ _)), (h c).2⟩)
    (Cert.ReferenceIdeal.Value.run (F := Ideal) m' g')

/-- The reference runs and leaves its arguments unchanged. -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.RefEntry

end
-- ==== Proof.KernelValueAlg.lean ====
/-
  The two programs' claim of equal results, from the kernel's run re-posted at the result function: the reference's run
  ends at the same function of the arguments, which the two memories share.
-/
import proofs.«115193_j84473416778245_2_alg».proof.Proof.KernelValueGen
import proofs.«115193_j84473416778245_2_alg».proof.Proof.RefRun

set_option maxRecDepth 16384

noncomputable section

namespace Cert.KernelVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body

variable (m : (ℓ : Loc nD τ sig) → Buf (Elt Ideal) ℓ) (c : Dev nD)
/-- Both programs end with the same result array: the specification's function of the arguments. -/
theorem algebraic_of
    (hk : ∀ (m : (ℓ : Loc nD τ sig) → Buf (Elt Ideal) ℓ) (ρ : Dev nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v25) = Gk m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Gk m c, hk m ρ, ?_⟩
  refine (θ_run Cert.ReferenceIdeal.defs _ _).mono (fun _ h c => ⟨(h c).1.trans ?_, (h c).2⟩) (Cert.RefEntry.ref_run m' ρ')
  rw [(hagree c).1, (hagree c).2.1, (hagree c).2.2.1, (hagree c).2.2.2.1, (hagree c).2.2.2.2]
  rfl

end Cert.KernelVal

end
-- ==== Proof.KernelValue.lean ====
/-
  The kernel's run at the result function, and the two programs' claim of equal results.
-/
import proofs.«115193_j84473416778245_2_alg».proof.Proof.KernelValueAlg
import proofs.«115193_j84473416778245_2_alg».proof.Proof.KernelIdealFrame

set_option maxRecDepth 16384

noncomputable section

namespace Cert.KernelVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body

variable (m : (ℓ : Loc nD τ sig) → Buf (Elt Ideal) ℓ) (c : Dev nD)

/-- What a point that writes back writes back is its block of the result function. -/
theorem flushed9 (t : Fin cfg0.N) (hf : (cfg0.win 9).flush t = true) :
    (dats m 0 c).flushed 9 t = ((cfg0.win 9).blk t).view.read (Elt Ideal) (Gk m c) :=
  flushed9_of m c (dats m 0 c) (after_9 m c) t

/-- The result array ends holding the result function. -/
theorem final9 : (dats m 0 c).arrAt 9 cfg0.N = Gk m c :=
  final9_of m c (dats m 0 c) (after_9 m c)

/-- Every execution of the kernel ends with the result array at the result function, the arguments unchanged. -/
theorem kernel_run (ρ : Dev nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v25) = Gk m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  kernel_run_of m ρ (dats m) (fun c w => A_eq m c w) (fun c t => after_9 m c t) (run_main m ρ)

/-- Both programs run and end with equal results and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  algebraic_of (fun m ρ => kernel_run m ρ)

end Cert.KernelVal

end
-- ==== Proof.lean ====
/-
  The certificate of the fused multi-head attention kernel against its reference.

  Both programs compute, batch by batch, the fused query/key/value projection of the input, the scaled scores of every
  (query, key) pair per head, a softmax ACROSS THE EIGHT HEADS at each pair, the weighted sum of the values over the 2048
  key positions, the row-major reading of the batch's `[8, 2048, 48]` result as a `[2048, 384]` matrix without moving the
  head axis back, and a last projection with a bias (`Attn.out`, Proof/AttnSpec.lean). The reference does it with whole
  arrays. The kernel walks a grid of 8 batches by 8 query tiles: at a batch's first tile it stores the batch's keys and
  values in two caches; at every tile it projects the tile's 256 queries, meets the eight key tiles of the caches one
  after the other — the head softmax needs no rescaling across key tiles, since it runs over heads at a fixed pair — and adds
  the eight partial products into the tile's rows of a third buffer; at the batch's last tile it projects that buffer and
  stores the output block. On the extended reals the only law joining the two is the regrouping of a sum over 2048 keys
  into 8 runs of 256, which asks nothing of finiteness.

  The frames: each kernel program's body is run once per case of its two branches (Proof/Kernel*Run*.lean), the three
  scratch buffers are carried between grid points by an invariant (Proof/Kernel*Inv.lean, Proof/Kernel*Frame*.lean), and the
  reference's frame is its run with the result dropped. The kernel's output array is read off the frame run's proof data
  block by block (Proof/KernelValue*.lean) and equals `Attn.out` entry by entry (Proof/KernelEntry.lean and the modules it
  imports); so does the reference's (Proof/RefEntry.lean, Proof/RefRun.lean). No operation was rewritten by the ideal
  pass, so the idealization conjunct is trivial.
-/
import proofs.«115193_j84473416778245_2_alg».proof.Defs
import proofs.«115193_j84473416778245_2_alg».proof.Proof.Gen.Kernel
import proofs.«115193_j84473416778245_2_alg».proof.Proof.Gen.KernelIdeal
import proofs.«115193_j84473416778245_2_alg».proof.Proof.Gen.ReferenceIdeal
import proofs.«115193_j84473416778245_2_alg».proof.Proof.Gen.Pre_finite_inputs
import proofs.«115193_j84473416778245_2_alg».proof.Proof.KernelFrame
import proofs.«115193_j84473416778245_2_alg».proof.Proof.KernelIdealFrame
import proofs.«115193_j84473416778245_2_alg».proof.Proof.KernelValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Body.frame (F := Bits) m ρ,
  fun m ρ _ => Cert.KernelIdeal.Body.frame (F := Ideal) m ρ,
  Cert.RefEntry.frame_ref,
  trivial,
  Cert.KernelVal.algebraic⟩

end Cert.Proof

end
